-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v150)) (v1 : (c : Dev Cert.KernelIdeal.nD) → Buf (Elt Ideal) ((c.tc : Thread Cert.KernelIdeal.nD Cert.KernelIdeal.τ).loc Cert.KernelIdeal.main_v75)) (v2 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_v143) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v185) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x128 : Shape := ⟨3, ![2, 50000, 128]⟩
abbrev S2x2x800000 : Shape := ⟨3, ![2, 2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S2x50000x128 .f32) (main_arg1 : IVec S2x2x800000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S2x50000x128 : Shape := ⟨3, ![2, 50000, 128]⟩
abbrev S2x2x800000 : Shape := ⟨3, ![2, 2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1x50000x128 : Shape := ⟨3, ![1, 50000, 128]⟩
abbrev S50000x128 : Shape := ⟨2, ![50000, 128]⟩
abbrev S1x1x800000 : Shape := ⟨3, ![1, 1, 800000]⟩
abbrev S800000 : Shape := ⟨1, ![800000]⟩
abbrev S50000 : Shape := ⟨1, ![50000]⟩
abbrev S850000 : Shape := ⟨1, ![850000]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x1 : Shape := ⟨2, ![50000, 1]⟩

abbrev nBuf : Space → Nat
  | .hbm => 195
  | .vmem => 50
  | .smem => 0
  | _ => 0

abbrev hbmTy0_0 (i : Nat) : BufTy := match i % 128 with
  | 0 => ⟨S2x50000x128, .f32⟩
  | 1 => ⟨S2x2x800000, .i32⟩
  | 2 => ⟨S128x128, .f32⟩
  | 3 => ⟨S128, .f32⟩
  | 4 => ⟨S128x128, .f32⟩
  | 5 => ⟨S128, .f32⟩
  | 6 => ⟨S128x1, .f32⟩
  | 7 => ⟨S1, .f32⟩
  | 8 => ⟨S_, .f32⟩
  | 9 => ⟨S128x128, .f32⟩
  | 10 => ⟨S128, .f32⟩
  | 11 => ⟨S_, .i32⟩
  | 12 => ⟨S1, .i32⟩
  | 13 => ⟨S128x128, .f32⟩
  | 14 => ⟨S_, .f32⟩
  | 15 => ⟨S128, .f32⟩
  | 16 => ⟨S_, .f32⟩
  | 17 => ⟨S_, .i32⟩
  | 18 => ⟨S1, .i32⟩
  | 19 => ⟨S128, .f32⟩
  | 20 => ⟨S1x50000x128, .f32⟩
  | 21 => ⟨S50000x128, .f32⟩
  | 22 => ⟨S1x1x800000, .i32⟩
  | 23 => ⟨S800000, .i32⟩
  | 24 => ⟨S1x1x800000, .i32⟩
  | 25 => ⟨S800000, .i32⟩
  | 26 => ⟨S50000, .i32⟩
  | 27 => ⟨S850000, .i32⟩
  | 28 => ⟨S850000, .i32⟩
  | 29 => ⟨S_, .f32⟩
  | 30 => ⟨S850000, .f32⟩
  | 31 => ⟨S_, .f32⟩
  | 32 => ⟨S50000, .f32⟩
  | 33 => ⟨S850000x1, .i32⟩
  | 34 => ⟨S50000, .f32⟩
  | 35 => ⟨S_, .f32⟩
  | 36 => ⟨S50000, .f32⟩
  | 37 => ⟨S50000, .i1⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000, .f32⟩
  | 61 => ⟨S850000, .f32⟩
  | 62 => ⟨S50000x128, .bf16⟩
  | 63 => ⟨S128x128, .bf16⟩
  | 64 => ⟨S50000x128, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000x128, .f32⟩
  | 74 => ⟨S850000x1, .f32⟩
  | 75 => ⟨S850000x128, .f32⟩
  | 76 => ⟨S850000x128, .f32⟩
  | 77 => ⟨S_, .f32⟩
  | 78 => ⟨S50000x128, .f32⟩
  | 79 => ⟨S850000x1, .i32⟩
  | 80 => ⟨S50000x128, .f32⟩
  | 81 => ⟨S1x128, .f32⟩
  | 82 => ⟨S50000x128, .f32⟩
  | 83 => ⟨S50000x128, .bf16⟩
  | 84 => ⟨S128x128, .bf16⟩
  | 85 => ⟨S50000x128, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .f32⟩
  | 95 => ⟨S850000x1, .f32⟩
  | 96 => ⟨S850000x128, .f32⟩
  | 97 => ⟨S850000x128, .f32⟩
  | 98 => ⟨S_, .f32⟩
  | 99 => ⟨S50000x128, .f32⟩
  | 100 => ⟨S850000x1, .i32⟩
  | 101 => ⟨S50000x128, .f32⟩
  | 102 => ⟨S1x128, .f32⟩
  | 103 => ⟨S50000x128, .f32⟩
  | 104 => ⟨S1x50000x128, .f32⟩
  | 105 => ⟨S50000x128, .f32⟩
  | 106 => ⟨S1x1x800000, .i32⟩
  | 107 => ⟨S800000, .i32⟩
  | 108 => ⟨S1x1x800000, .i32⟩
  | 109 => ⟨S800000, .i32⟩
  | 110 => ⟨S50000, .i32⟩
  | 111 => ⟨S850000, .i32⟩
  | 112 => ⟨S850000, .i32⟩
  | 113 => ⟨S_, .f32⟩
  | 114 => ⟨S850000, .f32⟩
  | 115 => ⟨S_, .f32⟩
  | 116 => ⟨S50000, .f32⟩
  | 117 => ⟨S850000x1, .i32⟩
  | 118 => ⟨S50000, .f32⟩
  | 119 => ⟨S_, .f32⟩
  | 120 => ⟨S50000, .f32⟩
  | 121 => ⟨S50000, .i1⟩
  | 122 => ⟨S50000, .f32⟩
  | 123 => ⟨S_, .f32⟩
  | 124 => ⟨S_, .f32⟩
  | 125 => ⟨S50000, .f32⟩
  | 126 => ⟨S50000, .f32⟩
  | 127 => ⟨S_, .i32⟩
  | _ => ⟨S2x50000x128, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000, .f32⟩
  | 17 => ⟨S850000, .f32⟩
  | 18 => ⟨S50000x128, .bf16⟩
  | 19 => ⟨S128x128, .bf16⟩
  | 20 => ⟨S50000x128, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000x128, .f32⟩
  | 30 => ⟨S850000x1, .f32⟩
  | 31 => ⟨S850000x128, .f32⟩
  | 32 => ⟨S850000x128, .f32⟩
  | 33 => ⟨S_, .f32⟩
  | 34 => ⟨S50000x128, .f32⟩
  | 35 => ⟨S850000x1, .i32⟩
  | 36 => ⟨S50000x128, .f32⟩
  | 37 => ⟨S1x128, .f32⟩
  | 38 => ⟨S50000x128, .f32⟩
  | 39 => ⟨S50000x128, .bf16⟩
  | 40 => ⟨S128x128, .bf16⟩
  | 41 => ⟨S50000x128, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x128, .f32⟩
  | 51 => ⟨S850000x1, .f32⟩
  | 52 => ⟨S850000x128, .f32⟩
  | 53 => ⟨S850000x128, .f32⟩
  | 54 => ⟨S_, .f32⟩
  | 55 => ⟨S50000x128, .f32⟩
  | 56 => ⟨S850000x1, .i32⟩
  | 57 => ⟨S50000x128, .f32⟩
  | 58 => ⟨S1x128, .f32⟩
  | 59 => ⟨S50000x128, .f32⟩
  | 60 => ⟨S50000x128, .bf16⟩
  | 61 => ⟨S128x128, .bf16⟩
  | 62 => ⟨S50000x128, .f32⟩
  | 63 => ⟨S1x128, .f32⟩
  | 64 => ⟨S50000x128, .f32⟩
  | 65 => ⟨S50000x1, .f32⟩
  | 66 => ⟨S50000, .f32⟩
  | _ => ⟨S2x50000x128, .f32⟩

abbrev hbmTy (i : Nat) : BufTy := match i / 128 with
  | 0 => hbmTy0_0 i
  | 1 => hbmTy0_1 i
  | _ => ⟨S2x50000x128, .f32⟩

abbrev bufTy : (tb : Table) → Fin (tcTables nBuf tb) → BufTy
  | .hbm, ⟨i, _⟩ => hbmTy i
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .bf16⟩
  | .local _ .vmem, ⟨11, _⟩ => ⟨S10000x128, .bf16⟩
  | .local _ .vmem, ⟨12, _⟩ => ⟨S128x128, .bf16⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .bf16⟩
  | .local _ .vmem, ⟨21, _⟩ => ⟨S10000x128, .bf16⟩
  | .local _ .vmem, ⟨22, _⟩ => ⟨S128x128, .bf16⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S10000x128, .bf16⟩
  | .local _ .vmem, ⟨31, _⟩ => ⟨S10000x128, .bf16⟩
  | .local _ .vmem, ⟨32, _⟩ => ⟨S128x128, .bf16⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S1x128, .f32⟩
  | .local _ .vmem, ⟨38, _⟩ => ⟨S10000x128, .f32⟩
  | .local _ .vmem, ⟨39, _⟩ => ⟨S10000x128, .f32⟩
  | .local _ .vmem, ⟨40, _⟩ => ⟨S10000x128, .bf16⟩
  | .local _ .vmem, ⟨41, _⟩ => ⟨S10000x128, .bf16⟩
  | .local _ .vmem, ⟨42, _⟩ => ⟨S128x128, .bf16⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S10000x128, .f32⟩
  | .local _ .vmem, ⟨47, _⟩ => ⟨S1x128, .f32⟩
  | .local _ .vmem, ⟨48, _⟩ => ⟨S10000x128, .f32⟩
  | .local _ .vmem, ⟨49, _⟩ => ⟨S10000x128, .f32⟩
  | _, _ => ⟨S2x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_16 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_19 : Ref sig .tc := ⟨.hbm, 123, rfl⟩
abbrev main_call1_v0 : Ref sig .tc := ⟨.hbm, 124, rfl⟩
abbrev main_call1_v1 : Ref sig .tc := ⟨.hbm, 125, rfl⟩
abbrev main_v92 : Ref sig .tc := ⟨.hbm, 126, rfl⟩
abbrev main_c_20 : Ref sig .tc := ⟨.hbm, 127, rfl⟩
abbrev main_v93 : Ref sig .tc := ⟨.hbm, 128, rfl⟩
abbrev main_v94 : Ref sig .tc := ⟨.hbm, 129, rfl⟩
abbrev main_c_21 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_22 : Ref sig .tc := ⟨.hbm, 136, rfl⟩
abbrev main_v100 : Ref sig .tc := ⟨.hbm, 137, rfl⟩
abbrev main_v101 : Ref sig .tc := ⟨.hbm, 138, rfl⟩
abbrev main_c_23 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_c_24 : Ref sig .tc := ⟨.hbm, 149, rfl⟩
abbrev main_v111 : Ref sig .tc := ⟨.hbm, 150, rfl⟩
abbrev main_v112 : Ref sig .tc := ⟨.hbm, 151, rfl⟩
abbrev main_c_25 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_26 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_c_27 : Ref sig .tc := ⟨.hbm, 170, rfl⟩
abbrev main_v129 : Ref sig .tc := ⟨.hbm, 171, rfl⟩
abbrev main_v130 : Ref sig .tc := ⟨.hbm, 172, rfl⟩
abbrev main_c_28 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_cst_29 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  bcast_S_S128x128 : S_.BroadcastsInDim S128x128 (![] : Fin 0 → Fin S128x128.rank)
  shapeCasts_S128x1_S128 : S128x1.ShapeCasts S128
  bcast_S_S1 : S_.BroadcastsInDim S1 (![] : Fin 0 → Fin S1.rank)
  bcast_S_S128 : S_.BroadcastsInDim S128 (![] : Fin 0 → Fin S128.rank)
  shapeCasts_S1_S_ : S1.ShapeCasts S_
  slices_S2x50000x128_S1x50000x128_0_0_0 : S2x50000x128.Slices ![0, 0, 0] S1x50000x128
  shapeCasts_S1x50000x128_S50000x128 : S1x50000x128.ShapeCasts S50000x128
  slices_S2x2x800000_S1x1x800000_0_0_0 : S2x2x800000.Slices ![0, 0, 0] S1x1x800000
  shapeCasts_S1x1x800000_S800000 : S1x1x800000.ShapeCasts S800000
  slices_S2x2x800000_S1x1x800000_0_1_0 : S2x2x800000.Slices ![0, 1, 0] S1x1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S2x50000x128_S1x50000x128_1_0_0 : S2x50000x128.Slices ![1, 0, 0] S1x50000x128
  slices_S2x2x800000_S1x1x800000_1_0_0 : S2x2x800000.Slices ![1, 0, 0] S1x1x800000
  slices_S2x2x800000_S1x1x800000_1_1_0 : S2x2x800000.Slices ![1, 1, 0] S1x1x800000
  slices_S50000x128_S50000x1_0_0 : S50000x128.Slices ![0, 0] S50000x1
  shapeCasts_S50000x1_S50000 : S50000x1.ShapeCasts S50000
  scatter_S128x128_S1_S128_0_1_1_0_wf : ScatterDims.WF S128x128 S1 S128 [0] [1] [1] 0
  scatter_S128_S1_S__n_0_0_0_wf : ScatterDims.WF S128 S1 S_ [] [0] [0] 0
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .bf16 = 32 ∨ (Rect.block (s := S50000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .bf16 = 32 ∨ (Rect.block (s := S50000x128) S10000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .bf16 = 32 ∨ (Rect.block (s := S50000x128) S10000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S50000x128.size a
  hwx4_2 : ∀ i : grid4.Coords, EltTy.bits .f32 = 32 ∨ (Rect.block (s := S50000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S50000x128.size a
  hwx5_2 : ∀ i : grid5.Coords, EltTy.bits .f32 = 32 ∨ (Rect.block (s := S50000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .bf16 = 32 ∨ (Rect.block (s := S50000x128) S10000x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .bf16 = 32 ∨ (Rect.block (s := S128x128) S128x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S50000x128.size a
  hwx6_2 : ∀ i : grid6.Coords, EltTy.bits .f32 = 32 ∨ (Rect.block (s := S50000x128) S10000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x128.size a ≤ S50000x128.size a
  hwx7_2 : ∀ i : grid7.Coords, EltTy.bits .f32 = 32 ∨ (Rect.block (s := S50000x128) S10000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S50000x128.size a
  hwx8_0 : ∀ i : grid8.Coords, EltTy.bits .bf16 = 32 ∨ (Rect.block (s := S50000x128) S10000x128.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .bf16 = 32 ∨ (Rect.block (s := S128x128) S128x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x128.size a ≤ S50000x128.size a
  hwx8_2 : ∀ i : grid8.Coords, EltTy.bits .f32 = 32 ∨ (Rect.block (s := S50000x128) S10000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x128.size a ≤ S50000x128.size a
  hwx9_0 : ∀ i : grid9.Coords, EltTy.bits .f32 = 32 ∨ (Rect.block (s := S50000x128) S10000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x128.size a ≤ S50000x128.size a
  hwx9_2 : ∀ i : grid9.Coords, EltTy.bits .f32 = 32 ∨ (Rect.block (s := S50000x128) S10000x128.size (cc9_transform_2 i) (hinb9_2 i)).WholeWords (EltTy.packing .f32)

variable [Facts₀]

def scatter_S128x128_S1_S128_0_1_1_0 : ScatterDims S128x128 S1 S128 where
  updateWindowDims := [0]
  insertedWindowDims := [1]
  scatterDimsToOperandDims := [1]
  indexVectorDim := 0
  wf := scatter_S128x128_S1_S128_0_1_1_0_wf
def scatter_S128_S1_S__n_0_0_0 : ScatterDims S128 S1 S_ where
  updateWindowDims := []
  insertedWindowDims := [0]
  scatterDimsToOperandDims := [0]
  indexVectorDim := 0
  wf := scatter_S128_S1_S__n_0_0_0_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v40) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v55) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v58) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v108) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v109) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v110) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v123) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v124) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v125) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v126) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v127) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v128) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v141) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v142) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v143) S10000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v144) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v145) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v146) S10000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v146) S10000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v147) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v148) S10000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S2x50000x128 : Shape := ⟨3, ![2, 50000, 128]⟩
abbrev S2x2x800000 : Shape := ⟨3, ![2, 2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x50000x128 : Shape := ⟨3, ![1, 50000, 128]⟩
abbrev S50000x128 : Shape := ⟨2, ![50000, 128]⟩
abbrev S1x1x800000 : Shape := ⟨3, ![1, 1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 255
  | .vmem => 0
  | .smem => 0
  | _ => 0

abbrev hbmTy0_0 (i : Nat) : BufTy := match i % 128 with
  | 0 => ⟨S2x50000x128, .f32⟩
  | 1 => ⟨S2x2x800000, .i32⟩
  | 2 => ⟨S128x128, .f32⟩
  | 3 => ⟨S128, .f32⟩
  | 4 => ⟨S128x128, .f32⟩
  | 5 => ⟨S128, .f32⟩
  | 6 => ⟨S128x1, .f32⟩
  | 7 => ⟨S1, .f32⟩
  | 8 => ⟨S1x50000x128, .f32⟩
  | 9 => ⟨S50000x128, .f32⟩
  | 10 => ⟨S1x1x800000, .i32⟩
  | 11 => ⟨S800000, .i32⟩
  | 12 => ⟨S1x1x800000, .i32⟩
  | 13 => ⟨S800000, .i32⟩
  | 14 => ⟨S50000, .i32⟩
  | 15 => ⟨S850000, .i32⟩
  | 16 => ⟨S850000, .i32⟩
  | 17 => ⟨S50000x128, .f32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000, .i32⟩
  | 74 => ⟨S850000, .i32⟩
  | 75 => ⟨S850000, .i32⟩
  | 76 => ⟨S50000x128, .f32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x128, .f32⟩
  | 119 => ⟨S850000x1, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S50000x128, .f32⟩
  | _ => ⟨S2x50000x128, .f32⟩

abbrev hbmTy0_1 (i : Nat) : BufTy := match i % 128 with
  | 0 => ⟨S50000x128, .f32⟩
  | 1 => ⟨S1x50000x128, .f32⟩
  | 2 => ⟨S50000x128, .f32⟩
  | 3 => ⟨S1x1x800000, .i32⟩
  | 4 => ⟨S800000, .i32⟩
  | 5 => ⟨S1x1x800000, .i32⟩
  | 6 => ⟨S800000, .i32⟩
  | 7 => ⟨S50000, .i32⟩
  | 8 => ⟨S850000, .i32⟩
  | 9 => ⟨S850000, .i32⟩
  | 10 => ⟨S50000x128, .f32⟩
  | 11 => ⟨S_, .f32⟩
  | 12 => ⟨S850000, .f32⟩
  | 13 => ⟨S_, .f32⟩
  | 14 => ⟨S50000, .f32⟩
  | 15 => ⟨S850000x1, .i32⟩
  | 16 => ⟨S50000, .f32⟩
  | 17 => ⟨S_, .f32⟩
  | 18 => ⟨S50000, .f32⟩
  | 19 => ⟨S50000, .i1⟩
  | 20 => ⟨S50000, .f32⟩
  | 21 => ⟨S_, .f32⟩
  | 22 => ⟨S_, .f32⟩
  | 23 => ⟨S50000, .f32⟩
  | 24 => ⟨S50000, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000x128, .f32⟩
  | 53 => ⟨S850000x1, .f32⟩
  | 54 => ⟨S850000x128, .f32⟩
  | 55 => ⟨S850000x128, .f32⟩
  | 56 => ⟨S_, .f32⟩
  | 57 => ⟨S50000x128, .f32⟩
  | 58 => ⟨S850000x1, .i32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000, .i32⟩
  | 67 => ⟨S850000, .i32⟩
  | 68 => ⟨S850000, .i32⟩
  | 69 => ⟨S50000x128, .f32⟩
  | 70 => ⟨S_, .f32⟩
  | 71 => ⟨S850000, .f32⟩
  | 72 => ⟨S_, .f32⟩
  | 73 => ⟨S50000, .f32⟩
  | 74 => ⟨S850000x1, .i32⟩
  | 75 => ⟨S50000, .f32⟩
  | 76 => ⟨S_, .f32⟩
  | 77 => ⟨S50000, .f32⟩
  | 78 => ⟨S50000, .i1⟩
  | 79 => ⟨S50000, .f32⟩
  | 80 => ⟨S_, .f32⟩
  | 81 => ⟨S_, .f32⟩
  | 82 => ⟨S50000, .f32⟩
  | 83 => ⟨S50000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x128, .f32⟩
  | 112 => ⟨S850000x1, .f32⟩
  | 113 => ⟨S850000x128, .f32⟩
  | 114 => ⟨S850000x128, .f32⟩
  | 115 => ⟨S_, .f32⟩
  | 116 => ⟨S50000x128, .f32⟩
  | 117 => ⟨S850000x1, .i32⟩
  | 118 => ⟨S50000x128, .f32⟩
  | 119 => ⟨S1x128, .f32⟩
  | 120 => ⟨S50000x128, .f32⟩
  | 121 => ⟨S50000x128, .f32⟩
  | 122 => ⟨S50000x1, .f32⟩
  | 123 => ⟨S1x1, .f32⟩
  | 124 => ⟨S50000x1, .f32⟩
  | 125 => ⟨S50000x1, .f32⟩
  | 126 => ⟨S50000, .f32⟩
  | _ => ⟨S2x50000x128, .f32⟩

abbrev hbmTy (i : Nat) : BufTy := match i / 128 with
  | 0 => hbmTy0_0 i
  | 1 => hbmTy0_1 i
  | _ => ⟨S2x50000x128, .f32⟩

abbrev bufTy : (tb : Table) → Fin (tcTables nBuf tb) → BufTy
  | .hbm, ⟨i, _⟩ => hbmTy i
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_15 : Ref sig .tc := ⟨.hbm, 100, rfl⟩
abbrev main_v69 : Ref sig .tc := ⟨.hbm, 101, rfl⟩
abbrev main_v70 : Ref sig .tc := ⟨.hbm, 102, rfl⟩
abbrev main_c_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_17 : Ref sig .tc := ⟨.hbm, 110, rfl⟩
abbrev main_v77 : Ref sig .tc := ⟨.hbm, 111, rfl⟩
abbrev main_v78 : Ref sig .tc := ⟨.hbm, 112, rfl⟩
abbrev main_c_18 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_19 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_20 : Ref sig .tc := ⟨.hbm, 139, rfl⟩
abbrev main_v103 : Ref sig .tc := ⟨.hbm, 140, rfl⟩
abbrev main_cst_21 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_22 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_23 : Ref sig .tc := ⟨.hbm, 149, rfl⟩
abbrev main_call3_v0 : Ref sig .tc := ⟨.hbm, 150, rfl⟩
abbrev main_call3_v1 : Ref sig .tc := ⟨.hbm, 151, rfl⟩
abbrev main_v110 : Ref sig .tc := ⟨.hbm, 152, rfl⟩
abbrev main_c_24 : Ref sig .tc := ⟨.hbm, 153, rfl⟩
abbrev main_v111 : Ref sig .tc := ⟨.hbm, 154, rfl⟩
abbrev main_v112 : Ref sig .tc := ⟨.hbm, 155, rfl⟩
abbrev main_c_25 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_c_26 : Ref sig .tc := ⟨.hbm, 162, rfl⟩
abbrev main_v118 : Ref sig .tc := ⟨.hbm, 163, rfl⟩
abbrev main_v119 : Ref sig .tc := ⟨.hbm, 164, rfl⟩
abbrev main_c_27 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_c_28 : Ref sig .tc := ⟨.hbm, 172, rfl⟩
abbrev main_v126 : Ref sig .tc := ⟨.hbm, 173, rfl⟩
abbrev main_v127 : Ref sig .tc := ⟨.hbm, 174, rfl⟩
abbrev main_c_29 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_30 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_call4_cst : Ref sig .tc := ⟨.hbm, 191, rfl⟩
abbrev main_call4_v0 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_cst_31 : Ref sig .tc := ⟨.hbm, 198, rfl⟩
abbrev main_v147 : Ref sig .tc := ⟨.hbm, 199, rfl⟩
abbrev main_cst_32 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_cst_33 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_cst_34 : Ref sig .tc := ⟨.hbm, 208, rfl⟩
abbrev main_call5_v0 : Ref sig .tc := ⟨.hbm, 209, rfl⟩
abbrev main_call5_v1 : Ref sig .tc := ⟨.hbm, 210, rfl⟩
abbrev main_v154 : Ref sig .tc := ⟨.hbm, 211, rfl⟩
abbrev main_c_35 : Ref sig .tc := ⟨.hbm, 212, rfl⟩
abbrev main_v155 : Ref sig .tc := ⟨.hbm, 213, rfl⟩
abbrev main_v156 : Ref sig .tc := ⟨.hbm, 214, rfl⟩
abbrev main_c_36 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_c_37 : Ref sig .tc := ⟨.hbm, 221, rfl⟩
abbrev main_v162 : Ref sig .tc := ⟨.hbm, 222, rfl⟩
abbrev main_v163 : Ref sig .tc := ⟨.hbm, 223, rfl⟩
abbrev main_c_38 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_c_39 : Ref sig .tc := ⟨.hbm, 231, rfl⟩
abbrev main_v170 : Ref sig .tc := ⟨.hbm, 232, rfl⟩
abbrev main_v171 : Ref sig .tc := ⟨.hbm, 233, rfl⟩
abbrev main_c_40 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_cst_41 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩

abbrev nD : Nat := 1
abbrev τ : Topo := Topo.v7x

variable {F : FTy → Type} [FloatOps F]

class Facts₀ : Prop where
  slices_S2x50000x128_S1x50000x128_0_0_0 : S2x50000x128.Slices ![0, 0, 0] S1x50000x128
  shapeCasts_S1x50000x128_S50000x128 : S1x50000x128.ShapeCasts S50000x128
  slices_S2x2x800000_S1x1x800000_0_0_0 : S2x2x800000.Slices ![0, 0, 0] S1x1x800000
  shapeCasts_S1x1x800000_S800000 : S1x1x800000.ShapeCasts S800000
  slices_S2x2x800000_S1x1x800000_0_1_0 : S2x2x800000.Slices ![0, 1, 0] S1x1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x50000x128_S1x50000x128_1_0_0 : S2x50000x128.Slices ![1, 0, 0] S1x50000x128
  slices_S2x2x800000_S1x1x800000_1_0_0 : S2x2x800000.Slices ![1, 0, 0] S1x1x800000
  slices_S2x2x800000_S1x1x800000_1_1_0 : S2x2x800000.Slices ![1, 1, 0] S1x1x800000
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x1_S50000x1_1_0_0_1_n_n_wf : DotDims.WF S50000x128 S128x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.RunResults.lean ====
/-
  The idealized kernel's run with its results named.  Its @main is twenty-five segments — stretches of host
  operations and ten pipelined regions —, and the buffer contents at each boundary are a fold from the launch
  memory (a stretch applies its operations; a region replaces its arrays by what its write-backs leave).  Every
  weakly fair execution terminates, nothing faulting, and ends with each unscoped buffer at the last boundary's
  contents: read here at the three result buffers as well as at the arguments.
-/
import proofs.«133000_j19232863551793_1_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the three results at the last boundary's contents and the
    argument arrays as launched. -/
theorem run_results : θ_run defs (onTc (τ := τ) (main (F := F))) ⟨m, fun _ => 0, ρ⟩ (fun r => ∀ c : Dev nD,
      r.2.mem ((c.tc : Thread nD τ).loc main_v150) = W25 m ρ c (Proc.devRef .tc main_v150)
      ∧ r.2.mem ((c.tc : Thread nD τ).loc main_v75) = W25 m ρ c (Proc.devRef .tc main_v75)
      ∧ r.2.mem ((c.tc : Thread nD τ).loc main_v143) = W25 m ρ c (Proc.devRef .tc main_v143)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v150 (by decide)),
       h c _ (mem_uc main_v75 (by decide)),
       h c _ (mem_uc main_v143 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c)⟩)

end Cert.KernelIdeal.KVal

end
-- ==== Proof.Spec.lean ====
/-
  The three whole-array functions the kernel's regions compute, over the extended reals, index by index:
  the product of a 50000×128 array with a 128×128 matrix (a sum over the shared axis of length 128), the
  sum of such an array with one row of 128 entries repeated down the rows, and that sum cut off below at a
  constant.  The cut-off constant is kept as the word it is printed with, so that both programs meet it unevaluated.
-/
import Idealize.ShloMosaic.PureOps.Ideal
import Idealize.ShloMosaic.Lib.ValueIdx

noncomputable section

namespace Cert.Spec

open Idealize.ShloMosaic Idealize.ShloMosaic.ValueIdx

/-- Rows by features: 50000 × 128. -/
abbrev NH : Shape := ⟨2, ![50000, 128]⟩
/-- A square weight matrix: 128 × 128. -/
abbrev HH : Shape := ⟨2, ![128, 128]⟩
/-- One row of 128 entries. -/
abbrev RH : Shape := ⟨2, ![1, 128]⟩

/-- Entry (n, j) of the product: the sum over k of a(n, k) · b(k, j). -/
def mm (a : NH.Idx → EReal) (b : HH.Idx → EReal) : NH.Idx → EReal :=
  fun i => ∑ k : Fin 128, a (ix2 (i 0) k) * b (ix2 k (i 1))

/-- Entry (n, j) of the array plus the row: a(n, j) + r(0, j). -/
def addRow (a : NH.Idx → EReal) (r : RH.Idx → EReal) : NH.Idx → EReal :=
  fun i => a i + r (ix2 0 (i 1))

/-- Entry (n, j) of the array plus the row, cut off below at the constant whose word is all zeros. -/
def addRowCut (a : NH.Idx → EReal) (r : RH.Idx → EReal) : NH.Idx → EReal :=
  fun i => max (a i + r (ix2 0 (i 1))) (Ideal.ofBits .f32 0x00000000#32)

end Cert.Spec

end
-- ==== Proof.RefLaws.lean ====
/-
  The reference's stages that the kernel computes inside its regions, as the three whole-array functions of Spec:
  each `dot_general` over the 128 features is the product of its operands; the bias added down the rows is the
  row sum (with or without the cut-off); and the last stage — a product with a 128×1 column, plus a one-entry bias,
  read as a vector of 50000 entries — is the head function below.
-/
import proofs.«133000_j19232863551793_1_alg».proof.Proof.RefRead
import proofs.«133000_j19232863551793_1_alg».proof.Proof.Spec

noncomputable section

namespace Cert.Spec

open Idealize.ShloMosaic Idealize.ShloMosaic.ValueIdx

/-- Entry n of the head: the sum over k of a(n, k) · w(k, 0), plus b(0). -/
def head (a : NH.Idx → EReal) (w : (⟨2, ![128, 1]⟩ : Shape).Idx → EReal) (b : (⟨1, ![1]⟩ : Shape).Idx → EReal) :
    (⟨1, ![50000]⟩ : Shape).Idx → EReal :=
  fun i => (∑ k : Fin 128, a (ix2 (i 0) k) * w (ix2 k 0)) + b (ix1 0)

end Cert.Spec

namespace Cert.RefLaws

open Cert.ReferenceIdeal Cert.ReferenceIdeal.ReadP Idealize.ShloMosaic Idealize.ShloMosaic.ValueIdx

/-- Stage 9 of the reference, a `dot_general` contracting the 128 features, is the product `Spec.mm` of its operands. -/
theorem v9_mm (x0 : (⟨S2x50000x128, .f32⟩ : BufTy).Contents (Elt Ideal)) (x2 : (⟨S128x128, .f32⟩ : BufTy).Contents (Elt Ideal)) :
    val_main_v9 (F := Ideal) x0 x2 = Cert.Spec.mm (val_main_v1 (F := Ideal) x0) x2 := by
  funext i
  rw [val_main_v9_apply]
  unfold Cert.Spec.mm
  refine Finset.sum_congr rfl fun k _ => ?_
  have el : lidx_main_v9 i k = ix2 (i 0) k := funext fun a => by match a with | ⟨0, _⟩ => rfl | ⟨1, _⟩ => rfl
  have er : ridx_main_v9 i k = ix2 k (i 1) := funext fun a => by match a with | ⟨0, _⟩ => rfl | ⟨1, _⟩ => rfl
  rw [el, er]
  rfl

/-- Stage 53 of the reference, a `dot_general` contracting the 128 features, is the product `Spec.mm` of its operands. -/
theorem v53_mm (x0 : (⟨S2x50000x128, .f32⟩ : BufTy).Contents (Elt Ideal)) (x1 : (⟨S2x2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v53 (F := Ideal) x0 x1 x2 x3 x4 = Cert.Spec.mm (val_main_v49 (F := Ideal) x0 x1 x2 x3) x4 := by
  funext i
  rw [val_main_v53_apply]
  unfold Cert.Spec.mm
  refine Finset.sum_congr rfl fun k _ => ?_
  have el : lidx_main_v53 i k = ix2 (i 0) k := funext fun a => by match a with | ⟨0, _⟩ => rfl | ⟨1, _⟩ => rfl
  have er : ridx_main_v53 i k = ix2 k (i 1) := funext fun a => by match a with | ⟨0, _⟩ => rfl | ⟨1, _⟩ => rfl
  rw [el, er]
  rfl

/-- Stage 102 of the reference, a `dot_general` contracting the 128 features, is the product `Spec.mm` of its operands. -/
theorem v102_mm (x0 : (⟨S2x50000x128, .f32⟩ : BufTy).Contents (Elt Ideal)) (x2 : (⟨S128x128, .f32⟩ : BufTy).Contents (Elt Ideal)) :
    val_main_v102 (F := Ideal) x0 x2 = Cert.Spec.mm (val_main_v94 (F := Ideal) x0) x2 := by
  funext i
  rw [val_main_v102_apply]
  unfold Cert.Spec.mm
  refine Finset.sum_congr rfl fun k _ => ?_
  have el : lidx_main_v102 i k = ix2 (i 0) k := funext fun a => by match a with | ⟨0, _⟩ => rfl | ⟨1, _⟩ => rfl
  have er : ridx_main_v102 i k = ix2 k (i 1) := funext fun a => by match a with | ⟨0, _⟩ => rfl | ⟨1, _⟩ => rfl
  rw [el, er]
  rfl

/-- Stage 146 of the reference, a `dot_general` contracting the 128 features, is the product `Spec.mm` of its operands. -/
theorem v146_mm (x0 : (⟨S2x50000x128, .f32⟩ : BufTy).Contents (Elt Ideal)) (x1 : (⟨S2x2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v146 (F := Ideal) x0 x1 x2 x3 x4 = Cert.Spec.mm (val_main_v142 (F := Ideal) x0 x1 x2 x3) x4 := by
  funext i
  rw [val_main_v146_apply]
  unfold Cert.Spec.mm
  refine Finset.sum_congr rfl fun k _ => ?_
  have el : lidx_main_v146 i k = ix2 (i 0) k := funext fun a => by match a with | ⟨0, _⟩ => rfl | ⟨1, _⟩ => rfl
  have er : ridx_main_v146 i k = ix2 k (i 1) := funext fun a => by match a with | ⟨0, _⟩ => rfl | ⟨1, _⟩ => rfl
  rw [el, er]
  rfl

/-- Stage 49 of the reference — the aggregate plus the bias broadcast down the rows, then the maximum with a broadcast
    constant — is `Spec.addRowCut` of the aggregate against ANY row that holds the bias vector. -/
theorem v49_cut (x0 : (⟨S2x50000x128, .f32⟩ : BufTy).Contents (Elt Ideal)) (x1 : (⟨S2x2x800000, .i32⟩ : BufTy).Contents (Elt Ideal)) (x2 : (⟨S128x128, .f32⟩ : BufTy).Contents (Elt Ideal)) (x3 : (⟨S128, .f32⟩ : BufTy).Contents (Elt Ideal)) (r : Cert.Spec.RH.Idx → EReal)
    (hr : ∀ j : Fin 128, r (ix2 0 j) = x3 (ix1 j)) :
    val_main_v49 (F := Ideal) x0 x1 x2 x3 = Cert.Spec.addRowCut (val_main_v45 (F := Ideal) x0 x1 x2) r := by
  funext i
  rw [val_main_v49_apply, val_main_v48_apply, val_main_v47_apply, val_main_v46_apply, val_main_call1_v0_apply, val_main_call1_cst_apply]
  unfold Cert.Spec.addRowCut
  have e : idx_main_v46 (idx_main_v47 i) = ix1 (i 1) := funext fun a => by match a with | ⟨0, _⟩ => rfl
  rw [e]
  exact congrArg (fun t : EReal => max (val_main_v45 (F := Ideal) x0 x1 x2 i + t) (Ideal.ofBits .f32 0x00000000#32)) (hr (i 1)).symm

/-- Stage 142 of the reference — the aggregate plus the bias broadcast down the rows, then the maximum with a broadcast
    constant — is `Spec.addRowCut` of the aggregate against ANY row that holds the bias vector. -/
theorem v142_cut (x0 : (⟨S2x50000x128, .f32⟩ : BufTy).Contents (Elt Ideal)) (x1 : (⟨S2x2x800000, .i32⟩ : BufTy).Contents (Elt Ideal)) (x2 : (⟨S128x128, .f32⟩ : BufTy).Contents (Elt Ideal)) (x3 : (⟨S128, .f32⟩ : BufTy).Contents (Elt Ideal)) (r : Cert.Spec.RH.Idx → EReal)
    (hr : ∀ j : Fin 128, r (ix2 0 j) = x3 (ix1 j)) :
    val_main_v142 (F := Ideal) x0 x1 x2 x3 = Cert.Spec.addRowCut (val_main_v138 (F := Ideal) x0 x1 x2) r := by
  funext i
  rw [val_main_v142_apply, val_main_v141_apply, val_main_v140_apply, val_main_v139_apply, val_main_call4_v0_apply, val_main_call4_cst_apply]
  unfold Cert.Spec.addRowCut
  have e : idx_main_v139 (idx_main_v140 i) = ix1 (i 1) := funext fun a => by match a with | ⟨0, _⟩ => rfl
  rw [e]
  exact congrArg (fun t : EReal => max (val_main_v138 (F := Ideal) x0 x1 x2 i + t) (Ideal.ofBits .f32 0x00000000#32)) (hr (i 1)).symm

/-- Stage 92 of the reference — the aggregate plus the bias broadcast down the rows — is `Spec.addRow` of the aggregate
    against ANY row that holds the bias vector. -/
theorem v92_add (x0 : (⟨S2x50000x128, .f32⟩ : BufTy).Contents (Elt Ideal)) (x1 : (⟨S2x2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Cert.Spec.RH.Idx → EReal)
    (hr : ∀ j : Fin 128, r (ix2 0 j) = x5 (ix1 j)) :
    val_main_v92 (F := Ideal) x0 x1 x2 x3 x4 x5 = Cert.Spec.addRow (val_main_v89 (F := Ideal) x0 x1 x2 x3 x4) r := by
  funext i
  rw [val_main_v92_apply, val_main_v91_apply, val_main_v90_apply]
  unfold Cert.Spec.addRow
  have e : idx_main_v90 (idx_main_v91 i) = ix1 (i 1) := funext fun a => by match a with | ⟨0, _⟩ => rfl
  rw [e]
  exact congrArg (fun t : EReal => val_main_v89 (F := Ideal) x0 x1 x2 x3 x4 i + t) (hr (i 1)).symm

/-- Stage 185 of the reference — the aggregate plus the bias broadcast down the rows — is `Spec.addRow` of the aggregate
    against ANY row that holds the bias vector. -/
theorem v185_add (x0 : (⟨S2x50000x128, .f32⟩ : BufTy).Contents (Elt Ideal)) (x1 : (⟨S2x2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Cert.Spec.RH.Idx → EReal)
    (hr : ∀ j : Fin 128, r (ix2 0 j) = x5 (ix1 j)) :
    val_main_v185 (F := Ideal) x0 x1 x2 x3 x4 x5 = Cert.Spec.addRow (val_main_v182 (F := Ideal) x0 x1 x2 x3 x4) r := by
  funext i
  rw [val_main_v185_apply, val_main_v184_apply, val_main_v183_apply]
  unfold Cert.Spec.addRow
  have e : idx_main_v183 (idx_main_v184 i) = ix1 (i 1) := funext fun a => by match a with | ⟨0, _⟩ => rfl
  rw [e]
  exact congrArg (fun t : EReal => val_main_v182 (F := Ideal) x0 x1 x2 x3 x4 i + t) (hr (i 1)).symm

/-- The reference's first result: the product of the last layer's output with the 128×1 column, plus the one-entry
    bias, reshaped to a vector, is the head function of that output. -/
theorem v190_head (x0 : (⟨S2x50000x128, .f32⟩ : BufTy).Contents (Elt Ideal)) (x1 : (⟨S2x2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x1, .f32⟩ : BufTy).Contents (Elt Ideal)) (x7 : (⟨S1, .f32⟩ : BufTy).Contents (Elt Ideal)) :
    val_main_v190 (F := Ideal) x0 x1 x2 x3 x4 x5 x6 x7 = Cert.Spec.head (val_main_v185 (F := Ideal) x0 x1 x2 x3 x4 x5) x6 x7 := by
  funext i
  rw [val_main_v190_apply, val_main_v189_apply, val_main_v186_apply, val_main_v188_apply, val_main_v187_apply]
  unfold Cert.Spec.head
  have e1 : ∀ k : Fin 128, lidx_main_v186 (idx_main_v190 i) k = ix2 (i 0) k := fun k => funext fun a => by
    match a with
    | ⟨0, _⟩ => exact Fin.ext (Nat.div_one _)
    | ⟨1, _⟩ => rfl
  have e2 : ∀ k : Fin 128, ridx_main_v186 (idx_main_v190 i) k = ix2 k 0 := fun k => funext fun a => by
    match a with
    | ⟨0, _⟩ => rfl
    | ⟨1, _⟩ => rfl
  have e3 : idx_main_v187 (idx_main_v188 (idx_main_v190 i)) = ix1 0 := funext fun a => by match a with | ⟨0, _⟩ => rfl
  have hs : (∑ k : Fin 128, (val_main_v185 (F := Ideal) x0 x1 x2 x3 x4 x5) (lidx_main_v186 (idx_main_v190 i) k) * x6 (ridx_main_v186 (idx_main_v190 i) k))
      = ∑ k : Fin 128, (val_main_v185 (F := Ideal) x0 x1 x2 x3 x4 x5) (ix2 (i 0) k) * x6 (ix2 k 0) :=
    Finset.sum_congr rfl fun k _ => by rw [e1, e2]; rfl
  rw [hs, e3]
  rfl

end Cert.RefLaws

end
-- ==== Proof.MatRegion0.lean ====
/-
  The matmul region's closed form.  The region walks a grid of 5 points; point t takes rows 10000·t … 10000·t + 9999 of
  the 50000 × 128 left operand and the whole 128 × 128 right operand, multiplies them into a zero accumulator, and writes
  the same rows of the output.  For ANY contents of the buffers at the region's entry, the output array after the last
  point is the product of the two operand arrays, index by index: entry (n, j) is the sum over k of a(n, k) · b(k, j).
  The steps: the body's result at one index of a block (the product's sum, its operand indices read off the
  contraction's one axis); where each window's block sits in its array, decided once over the grid; what a point writes
  back as the block of the whole-array product; every row lies in the block of exactly the point row / 10000; so the
  array ends holding the product.
-/
import proofs.«133000_j19232863551793_1_alg».proof.Proof.Gen.KernelIdeal.Frame
import proofs.«133000_j19232863551793_1_alg».proof.Proof.Spec
import Idealize.ShloMosaic.Lib.Pipeline.Value
import Idealize.ShloMosaic.Lib.ValueIdx
import Idealize.ShloMosaic.PureOps.Ideal.Laws

noncomputable section

namespace Cert.KernelIdeal.KVal

open Cert.KernelIdeal Idealize.ShloMosaic Idealize.ShloMosaic.TcCoe Idealize.SL.Sem Idealize.ShloMosaic.ValueIdx
open Idealize.ShloMosaic.Pipeline (Dat)

/-- The zero offsets, as the constant function. -/
private theorem hz0 : (![0, 0] : Fin 2 → Nat) = fun _ => 0 := funext fun a => by fin_cases a <;> rfl

/-- The product's left operand index at output index i and contraction index κ: row (i 0), -/
private theorem lhs0_0 (i : S10000x128.Idx) (κ : dot_S10000x128_S128x128_S10000x128_1_0_0_1_n_n.contr.Idx) :
    (dot_S10000x128_S128x128_S10000x128_1_0_0_1_n_n.lhsIdx i κ 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- column κ; -/
private theorem lhs0_1 (i : S10000x128.Idx) (κ : dot_S10000x128_S128x128_S10000x128_1_0_0_1_n_n.contr.Idx) :
    (dot_S10000x128_S128x128_S10000x128_1_0_0_1_n_n.lhsIdx i κ 1).val = (κ ⟨0, by decide⟩).val :=
  dot_S10000x128_S128x128_S10000x128_1_0_0_1_n_n.lhsIdx_val_of_single rfl i κ
/-- its right operand index: row κ, -/
private theorem rhs0_0 (i : S10000x128.Idx) (κ : dot_S10000x128_S128x128_S10000x128_1_0_0_1_n_n.contr.Idx) :
    (dot_S10000x128_S128x128_S10000x128_1_0_0_1_n_n.rhsIdx i κ 0).val = (κ ⟨0, by decide⟩).val :=
  dot_S10000x128_S128x128_S10000x128_1_0_0_1_n_n.rhsIdx_val_of_single rfl i κ
/-- column (i 1). -/
private theorem rhs0_1 (i : S10000x128.Idx) (κ : dot_S10000x128_S128x128_S10000x128_1_0_0_1_n_n.contr.Idx) :
    (dot_S10000x128_S128x128_S10000x128_1_0_0_1_n_n.rhsIdx i κ 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body leaves in the output block, at row p and column q: the sum over k of the left block's
    (p, k) entry times the right block's (k, q) entry (the accumulator the product adds onto is zero). -/
theorem out0_2_apply (x0 : FVec Ideal S10000x128 .bf16) (x1 : FVec Ideal S128x128 .bf16) (p : Fin 10000) (q : Fin 128) :
    Gen.out0_2 (F := Ideal) x0 x1 (ix2 p q) = ∑ k : Fin 128, x0 (ix2 p k) * x1 (ix2 k q) := by
  unfold Gen.out0_2
  rw [View.canon_unit_zero hz0]
  simp only [View.ld_unit_zero (S := S10000x128) hz0, View.ld_unit_zero (S := S128x128) hz0]
  unfold Gen.k0_pay1
  simp only [shapeCast_self]
  refine (Ideal.matmul_constant_zero_apply dot_S10000x128_S128x128_S10000x128_1_0_0_1_n_n none x0 x1 (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-- The printed index maps, decided once over the grid: at point t the left operand's block is block (t, 0) of its
    array, the right operand's is block (0, 0) — the whole matrix —, and the output's is block (t, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A product of two entries depends only on the two indices. -/
private theorem mul_idx_congr0 (A : S50000x128.Idx → EReal) (B : S128x128.Idx → EReal) {i i' : S50000x128.Idx} {j j' : S128x128.Idx}
    (hi : i = i') (hj : j = j') : A i * B j = A i' * B j' := by rw [hi, hj]

section
variable (V : (c : Dev nD) → (b : Ref sig .tc) → Buf (Elt Ideal) ((c : Thread nD τ).loc b))

/-- What point t writes back is block t of the whole-array product of the two operand arrays as the region
    finds them: row p of the block is row 10000·t + p of the array, and the right operand's block is the whole matrix. -/
theorem flushed0_2_eq (c : Dev nD) (t : Fin cfg0.N) :
    (Gen.dat0 (F := Ideal) V c).flushed 2 t
      = ((cfg0.win 2).blk t).view.read (Elt Ideal) (Cert.Spec.mm (V c (Pipeline.arrRef spec0 0)) (V c (Pipeline.arrRef spec0 1))) := by
  show (cfg0.win 2).cut (grid0.coords t) ((Gen.dat0 V c).after 2 t) = _
  rw [Gen.after0_2]
  obtain ⟨e0, e1, e2, e3, e4, e5⟩ := idx_facts0 t
  funext j
  obtain ⟨p, q, rfl⟩ : ∃ (p : Fin 10000) (q : Fin 128), j = ix2 p q := ⟨j 0, j 1, eq_ix2 j⟩
  show Gen.out0_2 (Gen.iblk0 V c 0 t) (Gen.iblk0 V c 1 t) (ix2 p q) = Cert.Spec.mm _ _ (((cfg0.win 2).blk t).view.emb (ix2 p q))
  refine (out0_2_apply (Gen.iblk0 V c 0 t) (Gen.iblk0 V c 1 t) p q).trans ?_
  refine Finset.sum_congr rfl fun k _ => ?_
  have h0 : ((cfg0.win 0).blk t).view.emb (ix2 p k) = ix2 (((cfg0.win 2).blk t).view.emb (ix2 p q) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ((cfg0.win 1).blk t).view.emb (ix2 k q) = ix2 k (((cfg0.win 2).blk t).view.emb (ix2 p q) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact mul_idx_congr0 (V c (Pipeline.arrRef spec0 0)) (V c (Pipeline.arrRef spec0 1)) h0 h1

/-- An index of the output array is in point t's block iff each coordinate is in the block's range on its axis. -/
theorem mem_blk0_2 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole (Pipeline.arrRef spec0 2)).slice (win0_2.rect t)).set ↔ _
  rw [View.set_slice_whole, Rect.mem_set_unit]
  exact Iff.rfl

/-- Every index of the output array is in some point's block: row r is in the block of point r / 10000. -/
theorem covered0_2 (i : S50000x128.Idx) :
    ∃ t : Fin cfg0.N, (cfg0.win 2).flush t = true ∧ i ∈ ((cfg0.win 2).blk t).view.set := by
  have hN : grid0.N = 5 := Gen.N_0
  have hi0 : (i 0).val < 50000 := (i 0).isLt
  have hi1 : (i 1).val < 128 := (i 1).isLt
  have ht : (i 0).val / 10000 < grid0.N := by omega
  obtain ⟨e0, e1, e2, e3, e4, e5⟩ := idx_facts0 ⟨(i 0).val / 10000, ht⟩
  refine ⟨⟨(i 0).val / 10000, ht⟩, Gen.flush0_2 _, ?_⟩
  rw [mem_blk0_2]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val ∧ (i 1).val < win0_2.index ⟨(i 0).val / 10000, ht⟩ (1 : Fin 2) * 128 + 128
    rw [e5]; omega

/-- The output array after the region: the product of the two operand arrays as the region finds them, index by index. -/
theorem region0_out (c : Dev nD) :
    (Gen.dat0 (F := Ideal) V c).arrAt 2 cfg0.N = Cert.Spec.mm (V c (Pipeline.arrRef spec0 0)) (V c (Pipeline.arrRef spec0 1)) :=
  (Gen.dat0 (F := Ideal) V c).arrAt_eq_of_cover 2 (Cert.Spec.mm (V c (Pipeline.arrRef spec0 0)) (V c (Pipeline.arrRef spec0 1)))
    (fun t _ => flushed0_2_eq V c t) covered0_2

end

end Cert.KernelIdeal.KVal

end
-- ==== Proof.ChainW4.lean ====
/-
  The buffer contents at the first region's exit.  Before the region the host program slices step 0 out of the
  inputs, builds the edge lists with the self loops appended, the degree, its inverse square root and the edge
  weights, and pads the head's weight column and bias; the region multiplies the step's features by the first
  weight matrix.  Each buffer a later segment reads is identified here with the reference's stage that computes the
  same term of the arguments (the format changes around the product are the identity over the extended reals).
-/
import proofs.«133000_j19232863551793_1_alg».proof.Proof.Gen.KernelIdeal.Frame
import Idealize.ShloMosaic.PureOps.Ideal
import Idealize.ShloMosaic.Lib.StableHlo.Run
import Idealize.ShloMosaic.Lib.Pipeline.Value
import proofs.«133000_j19232863551793_1_alg».proof.Proof.RefLaws
import proofs.«133000_j19232863551793_1_alg».proof.Proof.MatRegion0

set_option maxRecDepth 16384
set_option maxHeartbeats 2000000

noncomputable section

namespace Cert.KernelIdeal.KVal

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
set_option quotPrecheck true

/-- The 128×1 weight column written into column 0 of a 128×128 matrix of zeros (one scatter at the constant index 0). -/
def padW (x6 : (⟨S128x1, .f32⟩ : BufTy).Contents (Elt Ideal)) : (⟨S128x128, .f32⟩ : BufTy).Contents (Elt Ideal) :=
  Host.scatter scatter_S128x128_S1_S128_0_1_1_0 (fun _ b => b)
    (broadcastInDim S128x128 ![] bcast_S_S128x128 (constant (F := Ideal) S_ .f32 0x00000000#32))
    (broadcastInDim S1 ![] bcast_S_S1 (constantI S_ 32 0#32)) (shapeCast S128 x6 shapeCasts_S128x1_S128)

/-- The one-entry bias written into entry 0 of a 128-entry vector of zeros (one scatter at the constant index 0). -/
def padB (x7 : (⟨S1, .f32⟩ : BufTy).Contents (Elt Ideal)) : (⟨S128, .f32⟩ : BufTy).Contents (Elt Ideal) :=
  Host.scatter scatter_S128_S1_S__n_0_0_0 (fun _ b => b)
    (broadcastInDim S128 ![] bcast_S_S128 (constant (F := Ideal) S_ .f32 0x00000000#32))
    (broadcastInDim S1 ![] bcast_S_S1 (constantI S_ 32 0#32)) (shapeCast S_ x7 shapeCasts_S1_S_)

/-- What region 0's operand `v40` holds at the region's entry. -/
theorem e3_v40 : W3 m ρ c (Proc.devRef .tc main_v40) = val_main_v1 (F := Ideal) X0 := by
  show StableHlo.after hostOps0_2 (W2 m ρ c) (Proc.devRef .tc main_v40) = _
  after_results
  all_goals rfl

/-- What region 0's operand `v41` holds at the region's entry. -/
theorem e3_v41 : W3 m ρ c (Proc.devRef .tc main_v41) = X2 := by
  show StableHlo.after hostOps0_2 (W2 m ρ c) (Proc.devRef .tc main_v41) = _
  after_results
  all_goals rfl

/-- Region 0's output array at the region's exit. -/
theorem w4_v42 : W4 m ρ c (Proc.devRef .tc main_v42) = val_main_v9 (F := Ideal) X0 X2 := by
  refine (W4_arr m ρ c 2).trans ((region0_out (V3 m ρ) c).trans ?_)
  rw [Cert.RefLaws.v9_mm]
  exact congrArg₂ Cert.Spec.mm (e3_v40 m ρ c) (e3_v41 m ρ c)

theorem w4_arg0 : W4 m ρ c (Proc.devRef .tc main_arg0) = X0 := by
  rw [W4_of_ne m ρ c main_arg0 (by decide)]
  show StableHlo.after hostOps0_2 (W2 m ρ c) (Proc.devRef .tc main_arg0) = _
  after_results
  all_goals rfl

theorem w4_arg1 : W4 m ρ c (Proc.devRef .tc main_arg1) = X1 := by
  rw [W4_of_ne m ρ c main_arg1 (by decide)]
  show StableHlo.after hostOps0_2 (W2 m ρ c) (Proc.devRef .tc main_arg1) = _
  after_results
  all_goals rfl

theorem w4_arg2 : W4 m ρ c (Proc.devRef .tc main_arg2) = X2 := by
  rw [W4_of_ne m ρ c main_arg2 (by decide)]
  show StableHlo.after hostOps0_2 (W2 m ρ c) (Proc.devRef .tc main_arg2) = _
  after_results
  all_goals rfl

theorem w4_arg3 : W4 m ρ c (Proc.devRef .tc main_arg3) = X3 := by
  rw [W4_of_ne m ρ c main_arg3 (by decide)]
  show StableHlo.after hostOps0_2 (W2 m ρ c) (Proc.devRef .tc main_arg3) = _
  after_results
  all_goals rfl

theorem w4_arg4 : W4 m ρ c (Proc.devRef .tc main_arg4) = X4 := by
  rw [W4_of_ne m ρ c main_arg4 (by decide)]
  show StableHlo.after hostOps0_2 (W2 m ρ c) (Proc.devRef .tc main_arg4) = _
  after_results
  all_goals rfl

theorem w4_arg5 : W4 m ρ c (Proc.devRef .tc main_arg5) = X5 := by
  rw [W4_of_ne m ρ c main_arg5 (by decide)]
  show StableHlo.after hostOps0_2 (W2 m ρ c) (Proc.devRef .tc main_arg5) = _
  after_results
  all_goals rfl

theorem w4_v15 : W4 m ρ c (Proc.devRef .tc main_v15) = val_main_v7 (F := Ideal) X1 := by
  rw [W4_of_ne m ρ c main_v15 (by decide)]
  show StableHlo.after hostOps0_2 (W2 m ρ c) (Proc.devRef .tc main_v15) = _
  after_results
  all_goals rfl

theorem w4_v16 : W4 m ρ c (Proc.devRef .tc main_v16) = val_main_v8 (F := Ideal) X1 := by
  rw [W4_of_ne m ρ c main_v16 (by decide)]
  show StableHlo.after hostOps0_2 (W2 m ρ c) (Proc.devRef .tc main_v16) = _
  after_results
  all_goals rfl

theorem w4_v3 : W4 m ρ c (Proc.devRef .tc main_v3) = padW X6 := by
  rw [W4_of_ne m ρ c main_v3 (by decide)]
  show StableHlo.after hostOps0_2 (W2 m ρ c) (Proc.devRef .tc main_v3) = _
  after_results
  all_goals rfl

/-- The edge weights: the product of the inverse square roots of the degrees at the two ends of every edge.  The
    degree feeds the comparison and the inverse square root, and the selected value is gathered at both ends, so the
    term is read one stretch of operations at a time, each stretch over the values the one before left. -/
theorem w4_v39 : W4 m ρ c (Proc.devRef .tc main_v39) = val_main_v32 (F := Ideal) X1 := by
  rw [W4_of_ne m ρ c main_v39 (by decide)]
  have h_v15 : W1 m ρ c (Proc.devRef .tc main_v15) = val_main_v7 (F := Ideal) X1 := by
    show StableHlo.after hostOps0 (W0 m ρ c) (Proc.devRef .tc main_v15) = _
    after_results
    all_goals rfl
  have h_v16 : W1 m ρ c (Proc.devRef .tc main_v16) = val_main_v8 (F := Ideal) X1 := by
    show StableHlo.after hostOps0 (W0 m ρ c) (Proc.devRef .tc main_v16) = _
    after_results
    all_goals rfl
  have h_v22 : W1 m ρ c (Proc.devRef .tc main_v22) = val_main_v15 (F := Ideal) X1 := by
    show StableHlo.after hostOps0 (W0 m ρ c) (Proc.devRef .tc main_v22) = _
    after_results
    all_goals rfl
  have h_v23 : W1 m ρ c (Proc.devRef .tc main_v23) = val_main_v16 (F := Ideal) X1 := by
    show StableHlo.after hostOps0 (W0 m ρ c) (Proc.devRef .tc main_v23) = _
    after_results
    all_goals rfl
  have h_cst_5 : W1 m ρ c (Proc.devRef .tc main_cst_5) = val_main_cst_2 (F := Ideal) := by
    show StableHlo.after hostOps0 (W0 m ρ c) (Proc.devRef .tc main_cst_5) = _
    after_results
    all_goals rfl
  -- a literal reference's buffer type is the type it is used at, so moving contents to it and back is the identity
  have c_to_dinv : ∀ v : (⟨S50000, .f32⟩ : BufTy).Contents (Elt Ideal), (TRef.of (sig := sig) (T := ⟨S50000, .f32⟩) main_v24).toBuf v = v := fun _ => rfl
  have c_of_cmp : ∀ v : (⟨S50000, .i1⟩ : BufTy).Contents (Elt Ideal), (TRef.of (sig := sig) (T := ⟨S50000, .i1⟩) main_v22).ofBuf v = v := fun _ => rfl
  have c_of_rs : ∀ v : (⟨S50000, .f32⟩ : BufTy).Contents (Elt Ideal), (TRef.of (sig := sig) (T := ⟨S50000, .f32⟩) main_v23).ofBuf v = v := fun _ => rfl
  have c_of_c1 : ∀ v : (⟨S50000, .f32⟩ : BufTy).Contents (Elt Ideal), (TRef.of (sig := sig) (T := ⟨S50000, .f32⟩) main_call0_v1).ofBuf v = v := fun _ => rfl
  have c_to_c1 : ∀ v : (⟨S50000, .f32⟩ : BufTy).Contents (Elt Ideal), (TRef.of (sig := sig) (T := ⟨S50000, .f32⟩) main_call0_v1).toBuf v = v := fun _ => rfl
  have c_of_c0 : ∀ v : (⟨S_, .f32⟩ : BufTy).Contents (Elt Ideal), (TRef.of (sig := sig) (T := ⟨S_, .f32⟩) main_call0_v0).ofBuf v = v := fun _ => rfl
  have c_to_c0 : ∀ v : (⟨S_, .f32⟩ : BufTy).Contents (Elt Ideal), (TRef.of (sig := sig) (T := ⟨S_, .f32⟩) main_call0_v0).toBuf v = v := fun _ => rfl
  have c_of_cst : ∀ v : (⟨S_, .f32⟩ : BufTy).Contents (Elt Ideal), (TRef.of (sig := sig) (T := ⟨S_, .f32⟩) main_cst_5).ofBuf v = v := fun _ => rfl
  have h2_v24 : W2 m ρ c (Proc.devRef .tc main_v24) = val_main_v17 (F := Ideal) X1 := by
    show StableHlo.after hostOps0_1 (W1 m ρ c) (Proc.devRef .tc main_v24) = _
    generalize W1 m ρ c = V at h_v22 h_v23 h_cst_5 ⊢
    after_results
    rw [h_v22, h_v23, h_cst_5]
    rw [c_to_dinv, c_of_cmp, c_of_rs, c_of_c1, c_to_c1, c_of_c0, c_to_c0, c_of_cst]
    rfl
  have h2_v15 : W2 m ρ c (Proc.devRef .tc main_v15) = val_main_v7 (F := Ideal) X1 := by
    show StableHlo.after hostOps0_1 (W1 m ρ c) (Proc.devRef .tc main_v15) = _
    generalize W1 m ρ c = V at h_v15 ⊢
    after_results
    exact h_v15
  have h2_v16 : W2 m ρ c (Proc.devRef .tc main_v16) = val_main_v8 (F := Ideal) X1 := by
    show StableHlo.after hostOps0_1 (W1 m ρ c) (Proc.devRef .tc main_v16) = _
    generalize W1 m ρ c = V at h_v16 ⊢
    after_results
    exact h_v16
  show StableHlo.after hostOps0_2 (W2 m ρ c) (Proc.devRef .tc main_v39) = _
  generalize W2 m ρ c = V at h2_v24 h2_v15 h2_v16 ⊢
  after_results
  rw [h2_v24, h2_v15, h2_v16]
  rfl

theorem w4_v7 : W4 m ρ c (Proc.devRef .tc main_v7) = padB X7 := by
  rw [W4_of_ne m ρ c main_v7 (by decide)]
  show StableHlo.after hostOps0_2 (W2 m ρ c) (Proc.devRef .tc main_v7) = _
  after_results
  all_goals rfl

end Cert.KernelIdeal.KVal

end
-- ==== Proof.BiasRegion1.lean ====
/-
  A region that adds one row of 128 entries to every row of a 50000 × 128 array and cuts the sum off below at a
  constant, read over the extended reals as ONE function of the two arrays it finds at its entry, whatever they hold.
  The region works through the array in five blocks of 10000 rows; each block's result at (p, q) is
  max (x(p, q) + b(0, q)) z with x the block of the array and b the whole row; block t sits at rows 10000 t … 10000 t + 9999
  of the array, and the five blocks cover it, so the output array is max (a(n, j) + b(0, j)) z at every (n, j).
-/
import proofs.«133000_j19232863551793_1_alg».proof.Proof.Gen.KernelIdeal.Frame
import proofs.«133000_j19232863551793_1_alg».proof.Proof.Spec
import Idealize.ShloMosaic.Lib.Pipeline.Value
import Idealize.ShloMosaic.Lib.ValueIdx

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer access, however they are spelt. -/
private theorem hz1 : (![0, 0] : Fin 2 → Nat) = fun _ => 0 := funext fun a => by fin_cases a <;> rfl

/-- The stored block at row p, column q: the entry plus the row vector's q-th entry, cut off below at the constant. -/
private theorem out1_apply (x0 : Vec Ideal S10000x128 .f32) (x1 : Vec Ideal S1x128 .f32) (p : Fin 10000) (q : Fin 128) :
    Gen.out1_2 x0 x1 (ix2 p q) = max (x0 (ix2 p q) + x1 (ix2 0 q)) (Ideal.ofBits .f32 0x00000000#32) := by
  unfold Gen.out1_2
  rw [View.canon_unit_zero hz1]
  simp only [View.ld_unit_zero (S := S10000x128) hz1, View.ld_unit_zero (S := S1x128) hz1]
  unfold Gen.k1_pay1
  rw [maximumf_apply, addf_apply, broadcast_apply]
  simp only [shapeCast_self]
  rw [broadcastTo_apply x1 _ (ix2 p q) (ix2 0 q) (fun a => by
    match a with
    | ⟨0, _⟩ => rfl
    | ⟨1, _⟩ => rfl)]
  rfl

/-- The index maps, decided once over the grid: the array's and the output's block at point t is block (t, 0), the row
    vector's always block (0, 0). -/
private theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The array's block at point t, at row p and column q, is the array at row 10000 t + p, column q. -/
private theorem blk1_0_apply (c : Dev nD) (t : Fin cfg1.N) (p : Fin 10000) (q : Fin 128) (k : S50000x128.Idx)
    (hk0 : (k 0).val = t.val * 10000 + p.val) (hk1 : (k 1).val = q.val) :
    Gen.iblk1 (F := Ideal) V c 0 t (ix2 p q) = V c (Pipeline.arrRef spec1 0) k := by
  obtain ⟨e0, e1, -⟩ := idx_facts1 t
  show V c (Pipeline.arrRef spec1 0) (((cfg1.win 0).blk t).view.emb (ix2 p q)) = V c (Pipeline.arrRef spec1 0) k
  refine congrArg _ (funext fun a => Fin.ext ?_)
  match a with
  | ⟨0, _⟩ => show win1_0.index t (0 : Fin 2) * 10000 + 1 * p.val = (k 0).val; omega
  | ⟨1, _⟩ => show win1_0.index t (1 : Fin 2) * 128 + 1 * q.val = (k 1).val; omega

/-- The row vector's block at every point is the whole row vector. -/
private theorem blk1_1_apply (c : Dev nD) (t : Fin cfg1.N) (q : Fin 128) (k : S1x128.Idx)
    (hk0 : (k 0).val = 0) (hk1 : (k 1).val = q.val) :
    Gen.iblk1 (F := Ideal) V c 1 t (ix2 0 q) = V c (Pipeline.arrRef spec1 1) k := by
  obtain ⟨-, -, e2, e3, -⟩ := idx_facts1 t
  show V c (Pipeline.arrRef spec1 1) (((cfg1.win 1).blk t).view.emb (ix2 0 q)) = V c (Pipeline.arrRef spec1 1) k
  refine congrArg _ (funext fun a => Fin.ext ?_)
  match a with
  | ⟨0, _⟩ => show win1_1.index t (0 : Fin 2) * 1 + 1 * (0 : Fin 1).val = (k 0).val; rw [e2, hk0]; rfl
  | ⟨1, _⟩ => show win1_1.index t (1 : Fin 2) * 128 + 1 * q.val = (k 1).val; omega

/-- What point t writes back is the whole-array function read through block t. -/
private theorem flushed1_eq (c : Dev nD) (t : Fin cfg1.N) :
    (Gen.dat1 (F := Ideal) V c).flushed 2 t = ((cfg1.win 2).blk t).view.read (Elt Ideal)
      (Cert.Spec.addRowCut (V c (Pipeline.arrRef spec1 0)) (V c (Pipeline.arrRef spec1 1))) := by
  show (cfg1.win 2).cut (grid1.coords t) ((Gen.dat1 V c).after 2 t) = _
  rw [Gen.after1_2]
  obtain ⟨-, -, -, -, e4, e5⟩ := idx_facts1 t
  have key : ∀ j : S10000x128.Idx, Gen.out1_2 (Gen.iblk1 V c 0 t) (Gen.iblk1 V c 1 t) j
      = Cert.Spec.addRowCut (V c (Pipeline.arrRef spec1 0)) (V c (Pipeline.arrRef spec1 1)) (((cfg1.win 2).blk t).view.emb j) := by
    intro j
    obtain ⟨p, q, rfl⟩ : ∃ (p : Fin 10000) (q : Fin 128), j = ix2 p q := ⟨j 0, j 1, eq_ix2 j⟩
    refine (out1_apply (Gen.iblk1 V c 0 t) (Gen.iblk1 V c 1 t) p q).trans ?_
    have h0 : ((((cfg1.win 2).blk t).view.emb (ix2 p q) : S50000x128.Idx) 0).val = t.val * 10000 + p.val := by
      show win1_2.index t (0 : Fin 2) * 10000 + 1 * p.val = _; omega
    have h1 : ((((cfg1.win 2).blk t).view.emb (ix2 p q) : S50000x128.Idx) 1).val = q.val := by
      show win1_2.index t (1 : Fin 2) * 128 + 1 * q.val = _; omega
    unfold Cert.Spec.addRowCut
    exact congrArg₂ max (congrArg₂ (· + ·) (blk1_0_apply V c t p q _ h0 h1) (blk1_1_apply V c t q _ rfl h1)) rfl
  exact funext key

/-- An index of the array is in point t's block iff each coordinate is in the block's range on its axis. -/
private theorem mem_blk1 (t : Fin cfg1.N) (i : S50000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole (Pipeline.arrRef spec1 2)).slice (win1_2.rect t)).set ↔ _
  rw [View.set_slice_whole, Rect.mem_set_unit]
  exact Iff.rfl

/-- Every index of the array is in some point's block: row r is in the block of point r / 10000. -/
private theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  obtain ⟨t, ht⟩ : ∃ t : Fin cfg1.N, t.val = (i 0).val / 10000 := ⟨⟨(i 0).val / 10000, by rw [hN]; omega⟩, rfl⟩
  obtain ⟨-, -, -, -, e4, e5⟩ := idx_facts1 t
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- The output array after the region: the entry array plus the row vector down the rows, cut off below at the
    constant, whatever the entry contents are. -/
theorem region1_out (c : Dev nD) :
    (Gen.dat1 (F := Ideal) V c).arrAt 2 cfg1.N
      = Cert.Spec.addRowCut (V c (Pipeline.arrRef spec1 0)) (V c (Pipeline.arrRef spec1 1)) :=
  (Gen.dat1 V c).arrAt_eq_of_cover 2 _ (fun t _ => flushed1_eq V c t) cover1

end Cert.KernelIdeal.KVal

end
-- ==== Proof.ChainW6.lean ====
/-
  The buffer contents at the second region's exit.  Between the regions the host program gathers the rows of the
  first product at the edges' sources, scales them by the edge weights and adds them up at the edges' destinations;
  the region adds the first bias down the rows and cuts the sum off below.  These are the reference's stages with
  the same operands.
-/
import proofs.«133000_j19232863551793_1_alg».proof.Proof.ChainW4
import proofs.«133000_j19232863551793_1_alg».proof.Proof.BiasRegion1

set_option maxRecDepth 16384
set_option maxHeartbeats 2000000

noncomputable section

namespace Cert.KernelIdeal.KVal

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
set_option quotPrecheck true

/-- What region 1's operand `v55` holds at the region's entry. -/
theorem e5_v55 : W5 m ρ c (Proc.devRef .tc main_v55) = val_main_v45 (F := Ideal) X0 X1 X2 := by
  show StableHlo.after hostOps1 (W4 m ρ c) (Proc.devRef .tc main_v55) = _
  after_results
  rw [w4_v16 m ρ c, w4_v42 m ρ c, w4_v15 m ρ c, w4_v39 m ρ c]
  rfl

/-- At region 1's entry the row operand holds the bias vector: its entry (0, j) is the vector's entry j (a reshape of
    128 entries to one row keeps the row-major position). -/
theorem e5_v56 (j : Fin 128) :
    (W5 m ρ c (Proc.devRef .tc main_v56) : S1x128.Idx → EReal) (ix2 0 j) = X3 (ix1 j) := by
  have h : W5 m ρ c (Proc.devRef .tc main_v56) = shapeCast S1x128 X3 shapeCasts_S128_S1x128 := by
    show StableHlo.after hostOps1 (W4 m ρ c) (Proc.devRef .tc main_v56) = _
    after_results
    rw [w4_arg3 m ρ c]
    rfl
  rw [h]
  exact shapeCast_apply _ shapeCasts_S128_S1x128 (ix2 0 j) (ix1 j) (by
    rewrite [Shape.rowMajor_val_two, Shape.rowMajor_val_one]
    show j.val = 0 * 128 + j.val
    omega)

/-- Region 1's output array at the region's exit. -/
theorem w6_v57 : W6 m ρ c (Proc.devRef .tc main_v57) = val_main_v49 (F := Ideal) X0 X1 X2 X3 := by
  refine (W6_arr m ρ c 2).trans ((region1_out (V5 m ρ) c).trans ?_)
  rw [Cert.RefLaws.v49_cut X0 X1 X2 X3 _ (e5_v56 m ρ c)]
  exact congrArg (fun a => Cert.Spec.addRowCut a _) (e5_v55 m ρ c)

theorem w6_arg0 : W6 m ρ c (Proc.devRef .tc main_arg0) = X0 := by
  rw [W6_of_ne m ρ c main_arg0 (by decide)]
  show StableHlo.after hostOps1 (W4 m ρ c) (Proc.devRef .tc main_arg0) = _
  after_results
  exact w4_arg0 m ρ c

theorem w6_arg1 : W6 m ρ c (Proc.devRef .tc main_arg1) = X1 := by
  rw [W6_of_ne m ρ c main_arg1 (by decide)]
  show StableHlo.after hostOps1 (W4 m ρ c) (Proc.devRef .tc main_arg1) = _
  after_results
  exact w4_arg1 m ρ c

theorem w6_arg2 : W6 m ρ c (Proc.devRef .tc main_arg2) = X2 := by
  rw [W6_of_ne m ρ c main_arg2 (by decide)]
  show StableHlo.after hostOps1 (W4 m ρ c) (Proc.devRef .tc main_arg2) = _
  after_results
  exact w4_arg2 m ρ c

theorem w6_arg3 : W6 m ρ c (Proc.devRef .tc main_arg3) = X3 := by
  rw [W6_of_ne m ρ c main_arg3 (by decide)]
  show StableHlo.after hostOps1 (W4 m ρ c) (Proc.devRef .tc main_arg3) = _
  after_results
  exact w4_arg3 m ρ c

theorem w6_arg4 : W6 m ρ c (Proc.devRef .tc main_arg4) = X4 := by
  rw [W6_of_ne m ρ c main_arg4 (by decide)]
  show StableHlo.after hostOps1 (W4 m ρ c) (Proc.devRef .tc main_arg4) = _
  after_results
  exact w4_arg4 m ρ c

theorem w6_arg5 : W6 m ρ c (Proc.devRef .tc main_arg5) = X5 := by
  rw [W6_of_ne m ρ c main_arg5 (by decide)]
  show StableHlo.after hostOps1 (W4 m ρ c) (Proc.devRef .tc main_arg5) = _
  after_results
  exact w4_arg5 m ρ c

theorem w6_v15 : W6 m ρ c (Proc.devRef .tc main_v15) = val_main_v7 (F := Ideal) X1 := by
  rw [W6_of_ne m ρ c main_v15 (by decide)]
  show StableHlo.after hostOps1 (W4 m ρ c) (Proc.devRef .tc main_v15) = _
  after_results
  exact w4_v15 m ρ c

theorem w6_v16 : W6 m ρ c (Proc.devRef .tc main_v16) = val_main_v8 (F := Ideal) X1 := by
  rw [W6_of_ne m ρ c main_v16 (by decide)]
  show StableHlo.after hostOps1 (W4 m ρ c) (Proc.devRef .tc main_v16) = _
  after_results
  exact w4_v16 m ρ c

theorem w6_v3 : W6 m ρ c (Proc.devRef .tc main_v3) = padW X6 := by
  rw [W6_of_ne m ρ c main_v3 (by decide)]
  show StableHlo.after hostOps1 (W4 m ρ c) (Proc.devRef .tc main_v3) = _
  after_results
  exact w4_v3 m ρ c

theorem w6_v39 : W6 m ρ c (Proc.devRef .tc main_v39) = val_main_v32 (F := Ideal) X1 := by
  rw [W6_of_ne m ρ c main_v39 (by decide)]
  show StableHlo.after hostOps1 (W4 m ρ c) (Proc.devRef .tc main_v39) = _
  after_results
  exact w4_v39 m ρ c

theorem w6_v7 : W6 m ρ c (Proc.devRef .tc main_v7) = padB X7 := by
  rw [W6_of_ne m ρ c main_v7 (by decide)]
  show StableHlo.after hostOps1 (W4 m ρ c) (Proc.devRef .tc main_v7) = _
  after_results
  exact w4_v7 m ρ c

end Cert.KernelIdeal.KVal

end
-- ==== Proof.MatRegion2.lean ====
/-
  The matmul region's closed form.  The region walks a grid of 5 points; point t takes rows 10000·t … 10000·t + 9999 of
  the 50000 × 128 left operand and the whole 128 × 128 right operand, multiplies them into a zero accumulator, and writes
  the same rows of the output.  For ANY contents of the buffers at the region's entry, the output array after the last
  point is the product of the two operand arrays, index by index: entry (n, j) is the sum over k of a(n, k) · b(k, j).
  The steps: the body's result at one index of a block (the product's sum, its operand indices read off the
  contraction's one axis); where each window's block sits in its array, decided once over the grid; what a point writes
  back as the block of the whole-array product; every row lies in the block of exactly the point row / 10000; so the
  array ends holding the product.
-/
import proofs.«133000_j19232863551793_1_alg».proof.Proof.Gen.KernelIdeal.Frame
import proofs.«133000_j19232863551793_1_alg».proof.Proof.Spec
import Idealize.ShloMosaic.Lib.Pipeline.Value
import Idealize.ShloMosaic.Lib.ValueIdx
import Idealize.ShloMosaic.PureOps.Ideal.Laws

noncomputable section

namespace Cert.KernelIdeal.KVal

open Cert.KernelIdeal Idealize.ShloMosaic Idealize.ShloMosaic.TcCoe Idealize.SL.Sem Idealize.ShloMosaic.ValueIdx
open Idealize.ShloMosaic.Pipeline (Dat)

/-- The zero offsets, as the constant function. -/
private theorem hz2 : (![0, 0] : Fin 2 → Nat) = fun _ => 0 := funext fun a => by fin_cases a <;> rfl

/-- The product's left operand index at output index i and contraction index κ: row (i 0), -/
private theorem lhs2_0 (i : S10000x128.Idx) (κ : dot_S10000x128_S128x128_S10000x128_1_0_0_1_n_n.contr.Idx) :
    (dot_S10000x128_S128x128_S10000x128_1_0_0_1_n_n.lhsIdx i κ 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- column κ; -/
private theorem lhs2_1 (i : S10000x128.Idx) (κ : dot_S10000x128_S128x128_S10000x128_1_0_0_1_n_n.contr.Idx) :
    (dot_S10000x128_S128x128_S10000x128_1_0_0_1_n_n.lhsIdx i κ 1).val = (κ ⟨0, by decide⟩).val :=
  dot_S10000x128_S128x128_S10000x128_1_0_0_1_n_n.lhsIdx_val_of_single rfl i κ
/-- its right operand index: row κ, -/
private theorem rhs2_0 (i : S10000x128.Idx) (κ : dot_S10000x128_S128x128_S10000x128_1_0_0_1_n_n.contr.Idx) :
    (dot_S10000x128_S128x128_S10000x128_1_0_0_1_n_n.rhsIdx i κ 0).val = (κ ⟨0, by decide⟩).val :=
  dot_S10000x128_S128x128_S10000x128_1_0_0_1_n_n.rhsIdx_val_of_single rfl i κ
/-- column (i 1). -/
private theorem rhs2_1 (i : S10000x128.Idx) (κ : dot_S10000x128_S128x128_S10000x128_1_0_0_1_n_n.contr.Idx) :
    (dot_S10000x128_S128x128_S10000x128_1_0_0_1_n_n.rhsIdx i κ 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body leaves in the output block, at row p and column q: the sum over k of the left block's
    (p, k) entry times the right block's (k, q) entry (the accumulator the product adds onto is zero). -/
theorem out2_2_apply (x0 : FVec Ideal S10000x128 .bf16) (x1 : FVec Ideal S128x128 .bf16) (p : Fin 10000) (q : Fin 128) :
    Gen.out2_2 (F := Ideal) x0 x1 (ix2 p q) = ∑ k : Fin 128, x0 (ix2 p k) * x1 (ix2 k q) := by
  unfold Gen.out2_2
  rw [View.canon_unit_zero hz2]
  simp only [View.ld_unit_zero (S := S10000x128) hz2, View.ld_unit_zero (S := S128x128) hz2]
  unfold Gen.k2_pay1
  simp only [shapeCast_self]
  refine (Ideal.matmul_constant_zero_apply dot_S10000x128_S128x128_S10000x128_1_0_0_1_n_n none x0 x1 (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs2_0 _ _
    | ⟨1, _⟩ => exact (lhs2_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs2_0 _ _).trans hk
    | ⟨1, _⟩ => exact rhs2_1 _ _)
  rw [el, er]

/-- The printed index maps, decided once over the grid: at point t the left operand's block is block (t, 0) of its
    array, the right operand's is block (0, 0) — the whole matrix —, and the output's is block (t, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A product of two entries depends only on the two indices. -/
private theorem mul_idx_congr2 (A : S50000x128.Idx → EReal) (B : S128x128.Idx → EReal) {i i' : S50000x128.Idx} {j j' : S128x128.Idx}
    (hi : i = i') (hj : j = j') : A i * B j = A i' * B j' := by rw [hi, hj]

section
variable (V : (c : Dev nD) → (b : Ref sig .tc) → Buf (Elt Ideal) ((c : Thread nD τ).loc b))

/-- What point t writes back is block t of the whole-array product of the two operand arrays as the region
    finds them: row p of the block is row 10000·t + p of the array, and the right operand's block is the whole matrix. -/
theorem flushed2_2_eq (c : Dev nD) (t : Fin cfg2.N) :
    (Gen.dat2 (F := Ideal) V c).flushed 2 t
      = ((cfg2.win 2).blk t).view.read (Elt Ideal) (Cert.Spec.mm (V c (Pipeline.arrRef spec2 0)) (V c (Pipeline.arrRef spec2 1))) := by
  show (cfg2.win 2).cut (grid2.coords t) ((Gen.dat2 V c).after 2 t) = _
  rw [Gen.after2_2]
  obtain ⟨e0, e1, e2, e3, e4, e5⟩ := idx_facts2 t
  funext j
  obtain ⟨p, q, rfl⟩ : ∃ (p : Fin 10000) (q : Fin 128), j = ix2 p q := ⟨j 0, j 1, eq_ix2 j⟩
  show Gen.out2_2 (Gen.iblk2 V c 0 t) (Gen.iblk2 V c 1 t) (ix2 p q) = Cert.Spec.mm _ _ (((cfg2.win 2).blk t).view.emb (ix2 p q))
  refine (out2_2_apply (Gen.iblk2 V c 0 t) (Gen.iblk2 V c 1 t) p q).trans ?_
  refine Finset.sum_congr rfl fun k _ => ?_
  have h0 : ((cfg2.win 0).blk t).view.emb (ix2 p k) = ix2 (((cfg2.win 2).blk t).view.emb (ix2 p q) 0) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  have h1 : ((cfg2.win 1).blk t).view.emb (ix2 k q) = ix2 k (((cfg2.win 2).blk t).view.emb (ix2 p q) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact mul_idx_congr2 (V c (Pipeline.arrRef spec2 0)) (V c (Pipeline.arrRef spec2 1)) h0 h1

/-- An index of the output array is in point t's block iff each coordinate is in the block's range on its axis. -/
theorem mem_blk2_2 (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole (Pipeline.arrRef spec2 2)).slice (win2_2.rect t)).set ↔ _
  rw [View.set_slice_whole, Rect.mem_set_unit]
  exact Iff.rfl

/-- Every index of the output array is in some point's block: row r is in the block of point r / 10000. -/
theorem covered2_2 (i : S50000x128.Idx) :
    ∃ t : Fin cfg2.N, (cfg2.win 2).flush t = true ∧ i ∈ ((cfg2.win 2).blk t).view.set := by
  have hN : grid2.N = 5 := Gen.N_2
  have hi0 : (i 0).val < 50000 := (i 0).isLt
  have hi1 : (i 1).val < 128 := (i 1).isLt
  have ht : (i 0).val / 10000 < grid2.N := by omega
  obtain ⟨e0, e1, e2, e3, e4, e5⟩ := idx_facts2 ⟨(i 0).val / 10000, ht⟩
  refine ⟨⟨(i 0).val / 10000, ht⟩, Gen.flush2_2 _, ?_⟩
  rw [mem_blk2_2]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 128 ≤ (i 1).val ∧ (i 1).val < win2_2.index ⟨(i 0).val / 10000, ht⟩ (1 : Fin 2) * 128 + 128
    rw [e5]; omega

/-- The output array after the region: the product of the two operand arrays as the region finds them, index by index. -/
theorem region2_out (c : Dev nD) :
    (Gen.dat2 (F := Ideal) V c).arrAt 2 cfg2.N = Cert.Spec.mm (V c (Pipeline.arrRef spec2 0)) (V c (Pipeline.arrRef spec2 1)) :=
  (Gen.dat2 (F := Ideal) V c).arrAt_eq_of_cover 2 (Cert.Spec.mm (V c (Pipeline.arrRef spec2 0)) (V c (Pipeline.arrRef spec2 1)))
    (fun t _ => flushed2_2_eq V c t) covered2_2

end

end Cert.KernelIdeal.KVal

end
-- ==== Proof.ChainW8.lean ====
/-
  The buffer contents at the third region's exit: the first layer's output times the second weight matrix (the
  format changes before the product are the identity over the extended reals).
-/
import proofs.«133000_j19232863551793_1_alg».proof.Proof.ChainW6
import proofs.«133000_j19232863551793_1_alg».proof.Proof.MatRegion2

set_option maxRecDepth 16384
set_option maxHeartbeats 2000000

noncomputable section

namespace Cert.KernelIdeal.KVal

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
set_option quotPrecheck true

/-- What region 2's operand `v58` holds at the region's entry. -/
theorem e7_v58 : W7 m ρ c (Proc.devRef .tc main_v58) = val_main_v49 (F := Ideal) X0 X1 X2 X3 := by
  show StableHlo.after hostOps2 (W6 m ρ c) (Proc.devRef .tc main_v58) = _
  after_results
  rw [w6_v57 m ρ c]
  rfl

/-- What region 2's operand `v59` holds at the region's entry. -/
theorem e7_v59 : W7 m ρ c (Proc.devRef .tc main_v59) = X4 := by
  show StableHlo.after hostOps2 (W6 m ρ c) (Proc.devRef .tc main_v59) = _
  after_results
  rw [w6_arg4 m ρ c]
  rfl

/-- Region 2's output array at the region's exit. -/
theorem w8_v60 : W8 m ρ c (Proc.devRef .tc main_v60) = val_main_v53 (F := Ideal) X0 X1 X2 X3 X4 := by
  refine (W8_arr m ρ c 2).trans ((region2_out (V7 m ρ) c).trans ?_)
  rw [Cert.RefLaws.v53_mm]
  exact congrArg₂ Cert.Spec.mm (e7_v58 m ρ c) (e7_v59 m ρ c)

theorem w8_arg0 : W8 m ρ c (Proc.devRef .tc main_arg0) = X0 := by
  rw [W8_of_ne m ρ c main_arg0 (by decide)]
  show StableHlo.after hostOps2 (W6 m ρ c) (Proc.devRef .tc main_arg0) = _
  after_results
  exact w6_arg0 m ρ c

theorem w8_arg1 : W8 m ρ c (Proc.devRef .tc main_arg1) = X1 := by
  rw [W8_of_ne m ρ c main_arg1 (by decide)]
  show StableHlo.after hostOps2 (W6 m ρ c) (Proc.devRef .tc main_arg1) = _
  after_results
  exact w6_arg1 m ρ c

theorem w8_arg2 : W8 m ρ c (Proc.devRef .tc main_arg2) = X2 := by
  rw [W8_of_ne m ρ c main_arg2 (by decide)]
  show StableHlo.after hostOps2 (W6 m ρ c) (Proc.devRef .tc main_arg2) = _
  after_results
  exact w6_arg2 m ρ c

theorem w8_arg3 : W8 m ρ c (Proc.devRef .tc main_arg3) = X3 := by
  rw [W8_of_ne m ρ c main_arg3 (by decide)]
  show StableHlo.after hostOps2 (W6 m ρ c) (Proc.devRef .tc main_arg3) = _
  after_results
  exact w6_arg3 m ρ c

theorem w8_arg4 : W8 m ρ c (Proc.devRef .tc main_arg4) = X4 := by
  rw [W8_of_ne m ρ c main_arg4 (by decide)]
  show StableHlo.after hostOps2 (W6 m ρ c) (Proc.devRef .tc main_arg4) = _
  after_results
  exact w6_arg4 m ρ c

theorem w8_arg5 : W8 m ρ c (Proc.devRef .tc main_arg5) = X5 := by
  rw [W8_of_ne m ρ c main_arg5 (by decide)]
  show StableHlo.after hostOps2 (W6 m ρ c) (Proc.devRef .tc main_arg5) = _
  after_results
  exact w6_arg5 m ρ c

theorem w8_v15 : W8 m ρ c (Proc.devRef .tc main_v15) = val_main_v7 (F := Ideal) X1 := by
  rw [W8_of_ne m ρ c main_v15 (by decide)]
  show StableHlo.after hostOps2 (W6 m ρ c) (Proc.devRef .tc main_v15) = _
  after_results
  exact w6_v15 m ρ c

theorem w8_v16 : W8 m ρ c (Proc.devRef .tc main_v16) = val_main_v8 (F := Ideal) X1 := by
  rw [W8_of_ne m ρ c main_v16 (by decide)]
  show StableHlo.after hostOps2 (W6 m ρ c) (Proc.devRef .tc main_v16) = _
  after_results
  exact w6_v16 m ρ c

theorem w8_v3 : W8 m ρ c (Proc.devRef .tc main_v3) = padW X6 := by
  rw [W8_of_ne m ρ c main_v3 (by decide)]
  show StableHlo.after hostOps2 (W6 m ρ c) (Proc.devRef .tc main_v3) = _
  after_results
  exact w6_v3 m ρ c

theorem w8_v39 : W8 m ρ c (Proc.devRef .tc main_v39) = val_main_v32 (F := Ideal) X1 := by
  rw [W8_of_ne m ρ c main_v39 (by decide)]
  show StableHlo.after hostOps2 (W6 m ρ c) (Proc.devRef .tc main_v39) = _
  after_results
  exact w6_v39 m ρ c

theorem w8_v7 : W8 m ρ c (Proc.devRef .tc main_v7) = padB X7 := by
  rw [W8_of_ne m ρ c main_v7 (by decide)]
  show StableHlo.after hostOps2 (W6 m ρ c) (Proc.devRef .tc main_v7) = _
  after_results
  exact w6_v7 m ρ c

end Cert.KernelIdeal.KVal

end
-- ==== Proof.BiasRegion3.lean ====
/-
  A region that adds one row of 128 entries to every row of a 50000 × 128 array, read over the extended reals as ONE
  function of the two arrays it finds at its entry, whatever they hold.
  The region works through the array in five blocks of 10000 rows; each block's result at (p, q) is x(p, q) + b(0, q)
  with x the block of the array and b the whole row; block t sits at rows 10000 t … 10000 t + 9999 of the array, and
  the five blocks cover it, so the output array is a(n, j) + b(0, j) at every (n, j).
-/
import proofs.«133000_j19232863551793_1_alg».proof.Proof.Gen.KernelIdeal.Frame
import proofs.«133000_j19232863551793_1_alg».proof.Proof.Spec
import Idealize.ShloMosaic.Lib.Pipeline.Value
import Idealize.ShloMosaic.Lib.ValueIdx

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer access, however they are spelt. -/
private theorem hz3 : (![0, 0] : Fin 2 → Nat) = fun _ => 0 := funext fun a => by fin_cases a <;> rfl

/-- The stored block at row p, column q: the entry plus the row vector's q-th entry. -/
private theorem out3_apply (x0 : Vec Ideal S10000x128 .f32) (x1 : Vec Ideal S1x128 .f32) (p : Fin 10000) (q : Fin 128) :
    Gen.out3_2 x0 x1 (ix2 p q) = x0 (ix2 p q) + x1 (ix2 0 q) := by
  unfold Gen.out3_2
  rw [View.canon_unit_zero hz3]
  simp only [View.ld_unit_zero (S := S10000x128) hz3, View.ld_unit_zero (S := S1x128) hz3]
  unfold Gen.k3_pay1
  rw [addf_apply]
  simp only [shapeCast_self]
  rw [broadcastTo_apply x1 _ (ix2 p q) (ix2 0 q) (fun a => by
    match a with
    | ⟨0, _⟩ => rfl
    | ⟨1, _⟩ => rfl)]

/-- The index maps, decided once over the grid: the array's and the output's block at point t is block (t, 0), the row
    vector's always block (0, 0). -/
private theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The array's block at point t, at row p and column q, is the array at row 10000 t + p, column q. -/
private theorem blk3_0_apply (c : Dev nD) (t : Fin cfg3.N) (p : Fin 10000) (q : Fin 128) (k : S50000x128.Idx)
    (hk0 : (k 0).val = t.val * 10000 + p.val) (hk1 : (k 1).val = q.val) :
    Gen.iblk3 (F := Ideal) V c 0 t (ix2 p q) = V c (Pipeline.arrRef spec3 0) k := by
  obtain ⟨e0, e1, -⟩ := idx_facts3 t
  show V c (Pipeline.arrRef spec3 0) (((cfg3.win 0).blk t).view.emb (ix2 p q)) = V c (Pipeline.arrRef spec3 0) k
  refine congrArg _ (funext fun a => Fin.ext ?_)
  match a with
  | ⟨0, _⟩ => show win3_0.index t (0 : Fin 2) * 10000 + 1 * p.val = (k 0).val; omega
  | ⟨1, _⟩ => show win3_0.index t (1 : Fin 2) * 128 + 1 * q.val = (k 1).val; omega

/-- The row vector's block at every point is the whole row vector. -/
private theorem blk3_1_apply (c : Dev nD) (t : Fin cfg3.N) (q : Fin 128) (k : S1x128.Idx)
    (hk0 : (k 0).val = 0) (hk1 : (k 1).val = q.val) :
    Gen.iblk3 (F := Ideal) V c 1 t (ix2 0 q) = V c (Pipeline.arrRef spec3 1) k := by
  obtain ⟨-, -, e2, e3, -⟩ := idx_facts3 t
  show V c (Pipeline.arrRef spec3 1) (((cfg3.win 1).blk t).view.emb (ix2 0 q)) = V c (Pipeline.arrRef spec3 1) k
  refine congrArg _ (funext fun a => Fin.ext ?_)
  match a with
  | ⟨0, _⟩ => show win3_1.index t (0 : Fin 2) * 1 + 1 * (0 : Fin 1).val = (k 0).val; rw [e2, hk0]; rfl
  | ⟨1, _⟩ => show win3_1.index t (1 : Fin 2) * 128 + 1 * q.val = (k 1).val; omega

/-- What point t writes back is the whole-array function read through block t. -/
private theorem flushed3_eq (c : Dev nD) (t : Fin cfg3.N) :
    (Gen.dat3 (F := Ideal) V c).flushed 2 t = ((cfg3.win 2).blk t).view.read (Elt Ideal)
      (Cert.Spec.addRow (V c (Pipeline.arrRef spec3 0)) (V c (Pipeline.arrRef spec3 1))) := by
  show (cfg3.win 2).cut (grid3.coords t) ((Gen.dat3 V c).after 2 t) = _
  rw [Gen.after3_2]
  obtain ⟨-, -, -, -, e4, e5⟩ := idx_facts3 t
  have key : ∀ j : S10000x128.Idx, Gen.out3_2 (Gen.iblk3 V c 0 t) (Gen.iblk3 V c 1 t) j
      = Cert.Spec.addRow (V c (Pipeline.arrRef spec3 0)) (V c (Pipeline.arrRef spec3 1)) (((cfg3.win 2).blk t).view.emb j) := by
    intro j
    obtain ⟨p, q, rfl⟩ : ∃ (p : Fin 10000) (q : Fin 128), j = ix2 p q := ⟨j 0, j 1, eq_ix2 j⟩
    refine (out3_apply (Gen.iblk3 V c 0 t) (Gen.iblk3 V c 1 t) p q).trans ?_
    have h0 : ((((cfg3.win 2).blk t).view.emb (ix2 p q) : S50000x128.Idx) 0).val = t.val * 10000 + p.val := by
      show win3_2.index t (0 : Fin 2) * 10000 + 1 * p.val = _; omega
    have h1 : ((((cfg3.win 2).blk t).view.emb (ix2 p q) : S50000x128.Idx) 1).val = q.val := by
      show win3_2.index t (1 : Fin 2) * 128 + 1 * q.val = _; omega
    unfold Cert.Spec.addRow
    exact congrArg₂ (· + ·) (blk3_0_apply V c t p q _ h0 h1) (blk3_1_apply V c t q _ rfl h1)
  exact funext key

/-- An index of the array is in point t's block iff each coordinate is in the block's range on its axis. -/
private theorem mem_blk3 (t : Fin cfg3.N) (i : S50000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole (Pipeline.arrRef spec3 2)).slice (win3_2.rect t)).set ↔ _
  rw [View.set_slice_whole, Rect.mem_set_unit]
  exact Iff.rfl

/-- Every index of the array is in some point's block: row r is in the block of point r / 10000. -/
private theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 5 := N_3
  obtain ⟨t, ht⟩ : ∃ t : Fin cfg3.N, t.val = (i 0).val / 10000 := ⟨⟨(i 0).val / 10000, by rw [hN]; omega⟩, rfl⟩
  obtain ⟨-, -, -, -, e4, e5⟩ := idx_facts3 t
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 128 ≤ (i 1).val ∧ (i 1).val < win3_2.index t (1 : Fin 2) * 128 + 128
    omega

/-- The output array after the region: the entry array plus the row vector down the rows, whatever the entry
    contents are. -/
theorem region3_out (c : Dev nD) :
    (Gen.dat3 (F := Ideal) V c).arrAt 2 cfg3.N
      = Cert.Spec.addRow (V c (Pipeline.arrRef spec3 0)) (V c (Pipeline.arrRef spec3 1)) :=
  (Gen.dat3 V c).arrAt_eq_of_cover 2 _ (fun t _ => flushed3_eq V c t) cover3

end Cert.KernelIdeal.KVal

end
-- ==== Proof.ChainW10.lean ====
/-
  The buffer contents at the fourth region's exit.  The host program aggregates the second product over the edges
  exactly as it did the first, with the same edge lists and weights (the reference computes these a second time:
  the same terms of the arguments); the region adds the second bias down the rows.  This is step 0's output.
-/
import proofs.«133000_j19232863551793_1_alg».proof.Proof.ChainW8
import proofs.«133000_j19232863551793_1_alg».proof.Proof.BiasRegion3

set_option maxRecDepth 16384
set_option maxHeartbeats 2000000

noncomputable section

namespace Cert.KernelIdeal.KVal

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
set_option quotPrecheck true

/-- What region 3's operand `v73` holds at the region's entry. -/
theorem e9_v73 : W9 m ρ c (Proc.devRef .tc main_v73) = val_main_v89 (F := Ideal) X0 X1 X2 X3 X4 := by
  show StableHlo.after hostOps3 (W8 m ρ c) (Proc.devRef .tc main_v73) = _
  after_results
  rw [w8_v16 m ρ c, w8_v60 m ρ c, w8_v15 m ρ c, w8_v39 m ρ c]
  rfl

/-- At region 3's entry the row operand holds the bias vector: its entry (0, j) is the vector's entry j (a reshape of
    128 entries to one row keeps the row-major position). -/
theorem e9_v74 (j : Fin 128) :
    (W9 m ρ c (Proc.devRef .tc main_v74) : S1x128.Idx → EReal) (ix2 0 j) = X5 (ix1 j) := by
  have h : W9 m ρ c (Proc.devRef .tc main_v74) = shapeCast S1x128 X5 shapeCasts_S128_S1x128 := by
    show StableHlo.after hostOps3 (W8 m ρ c) (Proc.devRef .tc main_v74) = _
    after_results
    rw [w8_arg5 m ρ c]
    rfl
  rw [h]
  exact shapeCast_apply _ shapeCasts_S128_S1x128 (ix2 0 j) (ix1 j) (by
    rewrite [Shape.rowMajor_val_two, Shape.rowMajor_val_one]
    show j.val = 0 * 128 + j.val
    omega)

/-- Region 3's output array at the region's exit. -/
theorem w10_v75 : W10 m ρ c (Proc.devRef .tc main_v75) = val_main_v92 (F := Ideal) X0 X1 X2 X3 X4 X5 := by
  refine (W10_arr m ρ c 2).trans ((region3_out (V9 m ρ) c).trans ?_)
  rw [Cert.RefLaws.v92_add X0 X1 X2 X3 X4 X5 _ (e9_v74 m ρ c)]
  exact congrArg (fun a => Cert.Spec.addRow a _) (e9_v73 m ρ c)

theorem w10_arg0 : W10 m ρ c (Proc.devRef .tc main_arg0) = X0 := by
  rw [W10_of_ne m ρ c main_arg0 (by decide)]
  show StableHlo.after hostOps3 (W8 m ρ c) (Proc.devRef .tc main_arg0) = _
  after_results
  exact w8_arg0 m ρ c

theorem w10_arg1 : W10 m ρ c (Proc.devRef .tc main_arg1) = X1 := by
  rw [W10_of_ne m ρ c main_arg1 (by decide)]
  show StableHlo.after hostOps3 (W8 m ρ c) (Proc.devRef .tc main_arg1) = _
  after_results
  exact w8_arg1 m ρ c

theorem w10_arg2 : W10 m ρ c (Proc.devRef .tc main_arg2) = X2 := by
  rw [W10_of_ne m ρ c main_arg2 (by decide)]
  show StableHlo.after hostOps3 (W8 m ρ c) (Proc.devRef .tc main_arg2) = _
  after_results
  exact w8_arg2 m ρ c

theorem w10_arg3 : W10 m ρ c (Proc.devRef .tc main_arg3) = X3 := by
  rw [W10_of_ne m ρ c main_arg3 (by decide)]
  show StableHlo.after hostOps3 (W8 m ρ c) (Proc.devRef .tc main_arg3) = _
  after_results
  exact w8_arg3 m ρ c

theorem w10_arg4 : W10 m ρ c (Proc.devRef .tc main_arg4) = X4 := by
  rw [W10_of_ne m ρ c main_arg4 (by decide)]
  show StableHlo.after hostOps3 (W8 m ρ c) (Proc.devRef .tc main_arg4) = _
  after_results
  exact w8_arg4 m ρ c

theorem w10_arg5 : W10 m ρ c (Proc.devRef .tc main_arg5) = X5 := by
  rw [W10_of_ne m ρ c main_arg5 (by decide)]
  show StableHlo.after hostOps3 (W8 m ρ c) (Proc.devRef .tc main_arg5) = _
  after_results
  exact w8_arg5 m ρ c

theorem w10_v3 : W10 m ρ c (Proc.devRef .tc main_v3) = padW X6 := by
  rw [W10_of_ne m ρ c main_v3 (by decide)]
  show StableHlo.after hostOps3 (W8 m ρ c) (Proc.devRef .tc main_v3) = _
  after_results
  exact w8_v3 m ρ c

theorem w10_v7 : W10 m ρ c (Proc.devRef .tc main_v7) = padB X7 := by
  rw [W10_of_ne m ρ c main_v7 (by decide)]
  show StableHlo.after hostOps3 (W8 m ρ c) (Proc.devRef .tc main_v7) = _
  after_results
  exact w8_v7 m ρ c

end Cert.KernelIdeal.KVal

end
-- ==== Proof.MatRegion4.lean ====
/-
  The matmul region's closed form.  The region walks a grid of 5 points; point t takes rows 10000·t … 10000·t + 9999 of
  the 50000 × 128 left operand and the whole 128 × 128 right operand, multiplies them into a zero accumulator, and writes
  the same rows of the output.  For ANY contents of the buffers at the region's entry, the output array after the last
  point is the product of the two operand arrays, index by index: entry (n, j) is the sum over k of a(n, k) · b(k, j).
  The steps: the body's result at one index of a block (the product's sum, its operand indices read off the
  contraction's one axis); where each window's block sits in its array, decided once over the grid; what a point writes
  back as the block of the whole-array product; every row lies in the block of exactly the point row / 10000; so the
  array ends holding the product.
-/
import proofs.«133000_j19232863551793_1_alg».proof.Proof.Gen.KernelIdeal.Frame
import proofs.«133000_j19232863551793_1_alg».proof.Proof.Spec
import Idealize.ShloMosaic.Lib.Pipeline.Value
import Idealize.ShloMosaic.Lib.ValueIdx
import Idealize.ShloMosaic.PureOps.Ideal.Laws

noncomputable section

namespace Cert.KernelIdeal.KVal

open Cert.KernelIdeal Idealize.ShloMosaic Idealize.ShloMosaic.TcCoe Idealize.SL.Sem Idealize.ShloMosaic.ValueIdx
open Idealize.ShloMosaic.Pipeline (Dat)

/-- The zero offsets, as the constant function. -/
private theorem hz4 : (![0, 0] : Fin 2 → Nat) = fun _ => 0 := funext fun a => by fin_cases a <;> rfl

/-- The product's left operand index at output index i and contraction index κ: row (i 0), -/
private theorem lhs4_0 (i : S10000x128.Idx) (κ : dot_S10000x128_S128x128_S10000x128_1_0_0_1_n_n.contr.Idx) :
    (dot_S10000x128_S128x128_S10000x128_1_0_0_1_n_n.lhsIdx i κ 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- column κ; -/
private theorem lhs4_1 (i : S10000x128.Idx) (κ : dot_S10000x128_S128x128_S10000x128_1_0_0_1_n_n.contr.Idx) :
    (dot_S10000x128_S128x128_S10000x128_1_0_0_1_n_n.lhsIdx i κ 1).val = (κ ⟨0, by decide⟩).val :=
  dot_S10000x128_S128x128_S10000x128_1_0_0_1_n_n.lhsIdx_val_of_single rfl i κ
/-- its right operand index: row κ, -/
private theorem rhs4_0 (i : S10000x128.Idx) (κ : dot_S10000x128_S128x128_S10000x128_1_0_0_1_n_n.contr.Idx) :
    (dot_S10000x128_S128x128_S10000x128_1_0_0_1_n_n.rhsIdx i κ 0).val = (κ ⟨0, by decide⟩).val :=
  dot_S10000x128_S128x128_S10000x128_1_0_0_1_n_n.rhsIdx_val_of_single rfl i κ
/-- column (i 1). -/
private theorem rhs4_1 (i : S10000x128.Idx) (κ : dot_S10000x128_S128x128_S10000x128_1_0_0_1_n_n.contr.Idx) :
    (dot_S10000x128_S128x128_S10000x128_1_0_0_1_n_n.rhsIdx i κ 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body leaves in the output block, at row p and column q: the sum over k of the left block's
    (p, k) entry times the right block's (k, q) entry (the accumulator the product adds onto is zero). -/
theorem out4_2_apply (x0 : FVec Ideal S10000x128 .bf16) (x1 : FVec Ideal S128x128 .bf16) (p : Fin 10000) (q : Fin 128) :
    Gen.out4_2 (F := Ideal) x0 x1 (ix2 p q) = ∑ k : Fin 128, x0 (ix2 p k) * x1 (ix2 k q) := by
  unfold Gen.out4_2
  rw [View.canon_unit_zero hz4]
  simp only [View.ld_unit_zero (S := S10000x128) hz4, View.ld_unit_zero (S := S128x128) hz4]
  unfold Gen.k4_pay1
  simp only [shapeCast_self]
  refine (Ideal.matmul_constant_zero_apply dot_S10000x128_S128x128_S10000x128_1_0_0_1_n_n none x0 x1 (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs4_0 _ _
    | ⟨1, _⟩ => exact (lhs4_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs4_0 _ _).trans hk
    | ⟨1, _⟩ => exact rhs4_1 _ _)
  rw [el, er]

/-- The printed index maps, decided once over the grid: at point t the left operand's block is block (t, 0) of its
    array, the right operand's is block (0, 0) — the whole matrix —, and the output's is block (t, 0). -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- A product of two entries depends only on the two indices. -/
private theorem mul_idx_congr4 (A : S50000x128.Idx → EReal) (B : S128x128.Idx → EReal) {i i' : S50000x128.Idx} {j j' : S128x128.Idx}
    (hi : i = i') (hj : j = j') : A i * B j = A i' * B j' := by rw [hi, hj]

section
variable (V : (c : Dev nD) → (b : Ref sig .tc) → Buf (Elt Ideal) ((c : Thread nD τ).loc b))

/-- What point t writes back is block t of the whole-array product of the two operand arrays as the region
    finds them: row p of the block is row 10000·t + p of the array, and the right operand's block is the whole matrix. -/
theorem flushed4_2_eq (c : Dev nD) (t : Fin cfg4.N) :
    (Gen.dat4 (F := Ideal) V c).flushed 2 t
      = ((cfg4.win 2).blk t).view.read (Elt Ideal) (Cert.Spec.mm (V c (Pipeline.arrRef spec4 0)) (V c (Pipeline.arrRef spec4 1))) := by
  show (cfg4.win 2).cut (grid4.coords t) ((Gen.dat4 V c).after 2 t) = _
  rw [Gen.after4_2]
  obtain ⟨e0, e1, e2, e3, e4, e5⟩ := idx_facts4 t
  funext j
  obtain ⟨p, q, rfl⟩ : ∃ (p : Fin 10000) (q : Fin 128), j = ix2 p q := ⟨j 0, j 1, eq_ix2 j⟩
  show Gen.out4_2 (Gen.iblk4 V c 0 t) (Gen.iblk4 V c 1 t) (ix2 p q) = Cert.Spec.mm _ _ (((cfg4.win 2).blk t).view.emb (ix2 p q))
  refine (out4_2_apply (Gen.iblk4 V c 0 t) (Gen.iblk4 V c 1 t) p q).trans ?_
  refine Finset.sum_congr rfl fun k _ => ?_
  have h0 : ((cfg4.win 0).blk t).view.emb (ix2 p k) = ix2 (((cfg4.win 2).blk t).view.emb (ix2 p q) 0) k := by
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 128 + 1 * k.val = k.val; omega
  have h1 : ((cfg4.win 1).blk t).view.emb (ix2 k q) = ix2 k (((cfg4.win 2).blk t).view.emb (ix2 p q) 1) := by
    funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  exact mul_idx_congr4 (V c (Pipeline.arrRef spec4 0)) (V c (Pipeline.arrRef spec4 1)) h0 h1

/-- An index of the output array is in point t's block iff each coordinate is in the block's range on its axis. -/
theorem mem_blk4_2 (t : Fin cfg4.N) (i : S50000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole (Pipeline.arrRef spec4 2)).slice (win4_2.rect t)).set ↔ _
  rw [View.set_slice_whole, Rect.mem_set_unit]
  exact Iff.rfl

/-- Every index of the output array is in some point's block: row r is in the block of point r / 10000. -/
theorem covered4_2 (i : S50000x128.Idx) :
    ∃ t : Fin cfg4.N, (cfg4.win 2).flush t = true ∧ i ∈ ((cfg4.win 2).blk t).view.set := by
  have hN : grid4.N = 5 := Gen.N_4
  have hi0 : (i 0).val < 50000 := (i 0).isLt
  have hi1 : (i 1).val < 128 := (i 1).isLt
  have ht : (i 0).val / 10000 < grid4.N := by omega
  obtain ⟨e0, e1, e2, e3, e4, e5⟩ := idx_facts4 ⟨(i 0).val / 10000, ht⟩
  refine ⟨⟨(i 0).val / 10000, ht⟩, Gen.flush4_2 _, ?_⟩
  rw [mem_blk4_2]
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, ht⟩ (1 : Fin 2) * 128 ≤ (i 1).val ∧ (i 1).val < win4_2.index ⟨(i 0).val / 10000, ht⟩ (1 : Fin 2) * 128 + 128
    rw [e5]; omega

/-- The output array after the region: the product of the two operand arrays as the region finds them, index by index. -/
theorem region4_out (c : Dev nD) :
    (Gen.dat4 (F := Ideal) V c).arrAt 2 cfg4.N = Cert.Spec.mm (V c (Pipeline.arrRef spec4 0)) (V c (Pipeline.arrRef spec4 1)) :=
  (Gen.dat4 (F := Ideal) V c).arrAt_eq_of_cover 2 (Cert.Spec.mm (V c (Pipeline.arrRef spec4 0)) (V c (Pipeline.arrRef spec4 1)))
    (fun t _ => flushed4_2_eq V c t) covered4_2

end

end Cert.KernelIdeal.KVal

end
-- ==== Proof.ChainW14.lean ====
/-
  The buffer contents at the fifth region's exit: step 1's slices of the inputs, its edge lists, degree and edge
  weights, and its features times the first weight matrix — the reference's stages of step 1 with the same operands.
-/
import proofs.«133000_j19232863551793_1_alg».proof.Proof.ChainW10
import proofs.«133000_j19232863551793_1_alg».proof.Proof.MatRegion4

set_option maxRecDepth 16384
set_option maxHeartbeats 2000000

noncomputable section

namespace Cert.KernelIdeal.KVal

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
set_option quotPrecheck true

/-- What region 4's operand `v108` holds at the region's entry. -/
theorem e13_v108 : W13 m ρ c (Proc.devRef .tc main_v108) = val_main_v94 (F := Ideal) X0 := by
  show StableHlo.after hostOps4_2 (W12 m ρ c) (Proc.devRef .tc main_v108) = _
  after_results
  rw [w10_arg0 m ρ c]
  rfl

/-- What region 4's operand `v109` holds at the region's entry. -/
theorem e13_v109 : W13 m ρ c (Proc.devRef .tc main_v109) = X2 := by
  show StableHlo.after hostOps4_2 (W12 m ρ c) (Proc.devRef .tc main_v109) = _
  after_results
  rw [w10_arg2 m ρ c]
  rfl

/-- Region 4's output array at the region's exit. -/
theorem w14_v110 : W14 m ρ c (Proc.devRef .tc main_v110) = val_main_v102 (F := Ideal) X0 X2 := by
  refine (W14_arr m ρ c 2).trans ((region4_out (V13 m ρ) c).trans ?_)
  rw [Cert.RefLaws.v102_mm]
  exact congrArg₂ Cert.Spec.mm (e13_v108 m ρ c) (e13_v109 m ρ c)

theorem w14_arg3 : W14 m ρ c (Proc.devRef .tc main_arg3) = X3 := by
  rw [W14_of_ne m ρ c main_arg3 (by decide)]
  show StableHlo.after hostOps4_2 (W12 m ρ c) (Proc.devRef .tc main_arg3) = _
  after_results
  exact w10_arg3 m ρ c

theorem w14_arg4 : W14 m ρ c (Proc.devRef .tc main_arg4) = X4 := by
  rw [W14_of_ne m ρ c main_arg4 (by decide)]
  show StableHlo.after hostOps4_2 (W12 m ρ c) (Proc.devRef .tc main_arg4) = _
  after_results
  exact w10_arg4 m ρ c

theorem w14_arg5 : W14 m ρ c (Proc.devRef .tc main_arg5) = X5 := by
  rw [W14_of_ne m ρ c main_arg5 (by decide)]
  show StableHlo.after hostOps4_2 (W12 m ρ c) (Proc.devRef .tc main_arg5) = _
  after_results
  exact w10_arg5 m ρ c

/-- The edge weights: the product of the inverse square roots of the degrees at the two ends of every edge.  The
    degree feeds the comparison and the inverse square root, and the selected value is gathered at both ends, so the
    term is read one stretch of operations at a time, each stretch over the values the one before left. -/
theorem w14_v107 : W14 m ρ c (Proc.devRef .tc main_v107) = val_main_v125 (F := Ideal) X1 := by
  rw [W14_of_ne m ρ c main_v107 (by decide)]
  have h_v83 : W11 m ρ c (Proc.devRef .tc main_v83) = val_main_v100 (F := Ideal) X1 := by
    show StableHlo.after hostOps4 (W10 m ρ c) (Proc.devRef .tc main_v83) = _
    after_results
    try rw [w10_arg1 m ρ c]
    all_goals rfl
  have h_v84 : W11 m ρ c (Proc.devRef .tc main_v84) = val_main_v101 (F := Ideal) X1 := by
    show StableHlo.after hostOps4 (W10 m ρ c) (Proc.devRef .tc main_v84) = _
    after_results
    try rw [w10_arg1 m ρ c]
    all_goals rfl
  have h_v90 : W11 m ρ c (Proc.devRef .tc main_v90) = val_main_v108 (F := Ideal) X1 := by
    show StableHlo.after hostOps4 (W10 m ρ c) (Proc.devRef .tc main_v90) = _
    after_results
    try rw [w10_arg1 m ρ c]
    all_goals rfl
  have h_v91 : W11 m ρ c (Proc.devRef .tc main_v91) = val_main_v109 (F := Ideal) X1 := by
    show StableHlo.after hostOps4 (W10 m ρ c) (Proc.devRef .tc main_v91) = _
    after_results
    try rw [w10_arg1 m ρ c]
    all_goals rfl
  have h_cst_19 : W11 m ρ c (Proc.devRef .tc main_cst_19) = val_main_cst_23 (F := Ideal) := by
    show StableHlo.after hostOps4 (W10 m ρ c) (Proc.devRef .tc main_cst_19) = _
    after_results
    try rw [w10_arg1 m ρ c]
    all_goals rfl
  -- a literal reference's buffer type is the type it is used at, so moving contents to it and back is the identity
  have c_to_dinv : ∀ v : (⟨S50000, .f32⟩ : BufTy).Contents (Elt Ideal), (TRef.of (sig := sig) (T := ⟨S50000, .f32⟩) main_v92).toBuf v = v := fun _ => rfl
  have c_of_cmp : ∀ v : (⟨S50000, .i1⟩ : BufTy).Contents (Elt Ideal), (TRef.of (sig := sig) (T := ⟨S50000, .i1⟩) main_v90).ofBuf v = v := fun _ => rfl
  have c_of_rs : ∀ v : (⟨S50000, .f32⟩ : BufTy).Contents (Elt Ideal), (TRef.of (sig := sig) (T := ⟨S50000, .f32⟩) main_v91).ofBuf v = v := fun _ => rfl
  have c_of_c1 : ∀ v : (⟨S50000, .f32⟩ : BufTy).Contents (Elt Ideal), (TRef.of (sig := sig) (T := ⟨S50000, .f32⟩) main_call1_v1).ofBuf v = v := fun _ => rfl
  have c_to_c1 : ∀ v : (⟨S50000, .f32⟩ : BufTy).Contents (Elt Ideal), (TRef.of (sig := sig) (T := ⟨S50000, .f32⟩) main_call1_v1).toBuf v = v := fun _ => rfl
  have c_of_c0 : ∀ v : (⟨S_, .f32⟩ : BufTy).Contents (Elt Ideal), (TRef.of (sig := sig) (T := ⟨S_, .f32⟩) main_call1_v0).ofBuf v = v := fun _ => rfl
  have c_to_c0 : ∀ v : (⟨S_, .f32⟩ : BufTy).Contents (Elt Ideal), (TRef.of (sig := sig) (T := ⟨S_, .f32⟩) main_call1_v0).toBuf v = v := fun _ => rfl
  have c_of_cst : ∀ v : (⟨S_, .f32⟩ : BufTy).Contents (Elt Ideal), (TRef.of (sig := sig) (T := ⟨S_, .f32⟩) main_cst_19).ofBuf v = v := fun _ => rfl
  have h2_v92 : W12 m ρ c (Proc.devRef .tc main_v92) = val_main_v110 (F := Ideal) X1 := by
    show StableHlo.after hostOps4_1 (W11 m ρ c) (Proc.devRef .tc main_v92) = _
    generalize W11 m ρ c = V at h_v90 h_v91 h_cst_19 ⊢
    after_results
    rw [h_v90, h_v91, h_cst_19]
    rw [c_to_dinv, c_of_cmp, c_of_rs, c_of_c1, c_to_c1, c_of_c0, c_to_c0, c_of_cst]
    rfl
  have h2_v83 : W12 m ρ c (Proc.devRef .tc main_v83) = val_main_v100 (F := Ideal) X1 := by
    show StableHlo.after hostOps4_1 (W11 m ρ c) (Proc.devRef .tc main_v83) = _
    generalize W11 m ρ c = V at h_v83 ⊢
    after_results
    exact h_v83
  have h2_v84 : W12 m ρ c (Proc.devRef .tc main_v84) = val_main_v101 (F := Ideal) X1 := by
    show StableHlo.after hostOps4_1 (W11 m ρ c) (Proc.devRef .tc main_v84) = _
    generalize W11 m ρ c = V at h_v84 ⊢
    after_results
    exact h_v84
  show StableHlo.after hostOps4_2 (W12 m ρ c) (Proc.devRef .tc main_v107) = _
  generalize W12 m ρ c = V at h2_v92 h2_v83 h2_v84 ⊢
  after_results
  rw [h2_v92, h2_v83, h2_v84]
  rfl

theorem w14_v3 : W14 m ρ c (Proc.devRef .tc main_v3) = padW X6 := by
  rw [W14_of_ne m ρ c main_v3 (by decide)]
  show StableHlo.after hostOps4_2 (W12 m ρ c) (Proc.devRef .tc main_v3) = _
  after_results
  exact w10_v3 m ρ c

theorem w14_v7 : W14 m ρ c (Proc.devRef .tc main_v7) = padB X7 := by
  rw [W14_of_ne m ρ c main_v7 (by decide)]
  show StableHlo.after hostOps4_2 (W12 m ρ c) (Proc.devRef .tc main_v7) = _
  after_results
  exact w10_v7 m ρ c

theorem w14_v75 : W14 m ρ c (Proc.devRef .tc main_v75) = val_main_v92 (F := Ideal) X0 X1 X2 X3 X4 X5 := by
  rw [W14_of_ne m ρ c main_v75 (by decide)]
  show StableHlo.after hostOps4_2 (W12 m ρ c) (Proc.devRef .tc main_v75) = _
  after_results
  exact w10_v75 m ρ c

theorem w14_v83 : W14 m ρ c (Proc.devRef .tc main_v83) = val_main_v100 (F := Ideal) X1 := by
  rw [W14_of_ne m ρ c main_v83 (by decide)]
  show StableHlo.after hostOps4_2 (W12 m ρ c) (Proc.devRef .tc main_v83) = _
  after_results
  rw [w10_arg1 m ρ c]
  rfl

theorem w14_v84 : W14 m ρ c (Proc.devRef .tc main_v84) = val_main_v101 (F := Ideal) X1 := by
  rw [W14_of_ne m ρ c main_v84 (by decide)]
  show StableHlo.after hostOps4_2 (W12 m ρ c) (Proc.devRef .tc main_v84) = _
  after_results
  rw [w10_arg1 m ρ c]
  rfl

end Cert.KernelIdeal.KVal

end
-- ==== Proof.BiasRegion5.lean ====
/-
  A region that adds one row of 128 entries to every row of a 50000 × 128 array and cuts the sum off below at a
  constant, read over the extended reals as ONE function of the two arrays it finds at its entry, whatever they hold.
  The region works through the array in five blocks of 10000 rows; each block's result at (p, q) is
  max (x(p, q) + b(0, q)) z with x the block of the array and b the whole row; block t sits at rows 10000 t … 10000 t + 9999
  of the array, and the five blocks cover it, so the output array is max (a(n, j) + b(0, j)) z at every (n, j).
-/
import proofs.«133000_j19232863551793_1_alg».proof.Proof.Gen.KernelIdeal.Frame
import proofs.«133000_j19232863551793_1_alg».proof.Proof.Spec
import Idealize.ShloMosaic.Lib.Pipeline.Value
import Idealize.ShloMosaic.Lib.ValueIdx

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer access, however they are spelt. -/
private theorem hz5 : (![0, 0] : Fin 2 → Nat) = fun _ => 0 := funext fun a => by fin_cases a <;> rfl

/-- The stored block at row p, column q: the entry plus the row vector's q-th entry, cut off below at the constant. -/
private theorem out5_apply (x0 : Vec Ideal S10000x128 .f32) (x1 : Vec Ideal S1x128 .f32) (p : Fin 10000) (q : Fin 128) :
    Gen.out5_2 x0 x1 (ix2 p q) = max (x0 (ix2 p q) + x1 (ix2 0 q)) (Ideal.ofBits .f32 0x00000000#32) := by
  unfold Gen.out5_2
  rw [View.canon_unit_zero hz5]
  simp only [View.ld_unit_zero (S := S10000x128) hz5, View.ld_unit_zero (S := S1x128) hz5]
  unfold Gen.k5_pay1
  rw [maximumf_apply, addf_apply, broadcast_apply]
  simp only [shapeCast_self]
  rw [broadcastTo_apply x1 _ (ix2 p q) (ix2 0 q) (fun a => by
    match a with
    | ⟨0, _⟩ => rfl
    | ⟨1, _⟩ => rfl)]
  rfl

/-- The index maps, decided once over the grid: the array's and the output's block at point t is block (t, 0), the row
    vector's always block (0, 0). -/
private theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- The array's block at point t, at row p and column q, is the array at row 10000 t + p, column q. -/
private theorem blk5_0_apply (c : Dev nD) (t : Fin cfg5.N) (p : Fin 10000) (q : Fin 128) (k : S50000x128.Idx)
    (hk0 : (k 0).val = t.val * 10000 + p.val) (hk1 : (k 1).val = q.val) :
    Gen.iblk5 (F := Ideal) V c 0 t (ix2 p q) = V c (Pipeline.arrRef spec5 0) k := by
  obtain ⟨e0, e1, -⟩ := idx_facts5 t
  show V c (Pipeline.arrRef spec5 0) (((cfg5.win 0).blk t).view.emb (ix2 p q)) = V c (Pipeline.arrRef spec5 0) k
  refine congrArg _ (funext fun a => Fin.ext ?_)
  match a with
  | ⟨0, _⟩ => show win5_0.index t (0 : Fin 2) * 10000 + 1 * p.val = (k 0).val; omega
  | ⟨1, _⟩ => show win5_0.index t (1 : Fin 2) * 128 + 1 * q.val = (k 1).val; omega

/-- The row vector's block at every point is the whole row vector. -/
private theorem blk5_1_apply (c : Dev nD) (t : Fin cfg5.N) (q : Fin 128) (k : S1x128.Idx)
    (hk0 : (k 0).val = 0) (hk1 : (k 1).val = q.val) :
    Gen.iblk5 (F := Ideal) V c 1 t (ix2 0 q) = V c (Pipeline.arrRef spec5 1) k := by
  obtain ⟨-, -, e2, e3, -⟩ := idx_facts5 t
  show V c (Pipeline.arrRef spec5 1) (((cfg5.win 1).blk t).view.emb (ix2 0 q)) = V c (Pipeline.arrRef spec5 1) k
  refine congrArg _ (funext fun a => Fin.ext ?_)
  match a with
  | ⟨0, _⟩ => show win5_1.index t (0 : Fin 2) * 1 + 1 * (0 : Fin 1).val = (k 0).val; rw [e2, hk0]; rfl
  | ⟨1, _⟩ => show win5_1.index t (1 : Fin 2) * 128 + 1 * q.val = (k 1).val; omega

/-- What point t writes back is the whole-array function read through block t. -/
private theorem flushed5_eq (c : Dev nD) (t : Fin cfg5.N) :
    (Gen.dat5 (F := Ideal) V c).flushed 2 t = ((cfg5.win 2).blk t).view.read (Elt Ideal)
      (Cert.Spec.addRowCut (V c (Pipeline.arrRef spec5 0)) (V c (Pipeline.arrRef spec5 1))) := by
  show (cfg5.win 2).cut (grid5.coords t) ((Gen.dat5 V c).after 2 t) = _
  rw [Gen.after5_2]
  obtain ⟨-, -, -, -, e4, e5⟩ := idx_facts5 t
  have key : ∀ j : S10000x128.Idx, Gen.out5_2 (Gen.iblk5 V c 0 t) (Gen.iblk5 V c 1 t) j
      = Cert.Spec.addRowCut (V c (Pipeline.arrRef spec5 0)) (V c (Pipeline.arrRef spec5 1)) (((cfg5.win 2).blk t).view.emb j) := by
    intro j
    obtain ⟨p, q, rfl⟩ : ∃ (p : Fin 10000) (q : Fin 128), j = ix2 p q := ⟨j 0, j 1, eq_ix2 j⟩
    refine (out5_apply (Gen.iblk5 V c 0 t) (Gen.iblk5 V c 1 t) p q).trans ?_
    have h0 : ((((cfg5.win 2).blk t).view.emb (ix2 p q) : S50000x128.Idx) 0).val = t.val * 10000 + p.val := by
      show win5_2.index t (0 : Fin 2) * 10000 + 1 * p.val = _; omega
    have h1 : ((((cfg5.win 2).blk t).view.emb (ix2 p q) : S50000x128.Idx) 1).val = q.val := by
      show win5_2.index t (1 : Fin 2) * 128 + 1 * q.val = _; omega
    unfold Cert.Spec.addRowCut
    exact congrArg₂ max (congrArg₂ (· + ·) (blk5_0_apply V c t p q _ h0 h1) (blk5_1_apply V c t q _ rfl h1)) rfl
  exact funext key

/-- An index of the array is in point t's block iff each coordinate is in the block's range on its axis. -/
private theorem mem_blk5 (t : Fin cfg5.N) (i : S50000x128.Idx) :
    i ∈ ((cfg5.win 2).blk t).view.set ↔ ∀ a : Fin 2, win5_2.index t a * S10000x128.size a ≤ (i a).val
      ∧ (i a).val < win5_2.index t a * S10000x128.size a + S10000x128.size a := by
  show i ∈ ((View.whole (Pipeline.arrRef spec5 2)).slice (win5_2.rect t)).set ↔ _
  rw [View.set_slice_whole, Rect.mem_set_unit]
  exact Iff.rfl

/-- Every index of the array is in some point's block: row r is in the block of point r / 10000. -/
private theorem cover5 (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 5 := N_5
  obtain ⟨t, ht⟩ : ∃ t : Fin cfg5.N, t.val = (i 0).val / 10000 := ⟨⟨(i 0).val / 10000, by rw [hN]; omega⟩, rfl⟩
  obtain ⟨-, -, -, -, e4, e5⟩ := idx_facts5 t
  refine ⟨t, flush5_2 t, ?_⟩
  rw [mem_blk5]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 128 ≤ (i 1).val ∧ (i 1).val < win5_2.index t (1 : Fin 2) * 128 + 128
    omega

/-- The output array after the region: the entry array plus the row vector down the rows, cut off below at the
    constant, whatever the entry contents are. -/
theorem region5_out (c : Dev nD) :
    (Gen.dat5 (F := Ideal) V c).arrAt 2 cfg5.N
      = Cert.Spec.addRowCut (V c (Pipeline.arrRef spec5 0)) (V c (Pipeline.arrRef spec5 1)) :=
  (Gen.dat5 V c).arrAt_eq_of_cover 2 _ (fun t _ => flushed5_eq V c t) cover5

end Cert.KernelIdeal.KVal

end
-- ==== Proof.ChainW16.lean ====
/-
  The buffer contents at the sixth region's exit: step 1's first aggregate plus the first bias, cut off below.
-/
import proofs.«133000_j19232863551793_1_alg».proof.Proof.ChainW14
import proofs.«133000_j19232863551793_1_alg».proof.Proof.BiasRegion5

set_option maxRecDepth 16384
set_option maxHeartbeats 2000000

noncomputable section

namespace Cert.KernelIdeal.KVal

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
set_option quotPrecheck true

/-- What region 5's operand `v123` holds at the region's entry. -/
theorem e15_v123 : W15 m ρ c (Proc.devRef .tc main_v123) = val_main_v138 (F := Ideal) X0 X1 X2 := by
  show StableHlo.after hostOps5 (W14 m ρ c) (Proc.devRef .tc main_v123) = _
  after_results
  rw [w14_v84 m ρ c, w14_v110 m ρ c, w14_v83 m ρ c, w14_v107 m ρ c]
  rfl

/-- At region 5's entry the row operand holds the bias vector: its entry (0, j) is the vector's entry j (a reshape of
    128 entries to one row keeps the row-major position). -/
theorem e15_v124 (j : Fin 128) :
    (W15 m ρ c (Proc.devRef .tc main_v124) : S1x128.Idx → EReal) (ix2 0 j) = X3 (ix1 j) := by
  have h : W15 m ρ c (Proc.devRef .tc main_v124) = shapeCast S1x128 X3 shapeCasts_S128_S1x128 := by
    show StableHlo.after hostOps5 (W14 m ρ c) (Proc.devRef .tc main_v124) = _
    after_results
    rw [w14_arg3 m ρ c]
    rfl
  rw [h]
  exact shapeCast_apply _ shapeCasts_S128_S1x128 (ix2 0 j) (ix1 j) (by
    rewrite [Shape.rowMajor_val_two, Shape.rowMajor_val_one]
    show j.val = 0 * 128 + j.val
    omega)

/-- Region 5's output array at the region's exit. -/
theorem w16_v125 : W16 m ρ c (Proc.devRef .tc main_v125) = val_main_v142 (F := Ideal) X0 X1 X2 X3 := by
  refine (W16_arr m ρ c 2).trans ((region5_out (V15 m ρ) c).trans ?_)
  rw [Cert.RefLaws.v142_cut X0 X1 X2 X3 _ (e15_v124 m ρ c)]
  exact congrArg (fun a => Cert.Spec.addRowCut a _) (e15_v123 m ρ c)

theorem w16_arg4 : W16 m ρ c (Proc.devRef .tc main_arg4) = X4 := by
  rw [W16_of_ne m ρ c main_arg4 (by decide)]
  show StableHlo.after hostOps5 (W14 m ρ c) (Proc.devRef .tc main_arg4) = _
  after_results
  exact w14_arg4 m ρ c

theorem w16_arg5 : W16 m ρ c (Proc.devRef .tc main_arg5) = X5 := by
  rw [W16_of_ne m ρ c main_arg5 (by decide)]
  show StableHlo.after hostOps5 (W14 m ρ c) (Proc.devRef .tc main_arg5) = _
  after_results
  exact w14_arg5 m ρ c

theorem w16_v107 : W16 m ρ c (Proc.devRef .tc main_v107) = val_main_v125 (F := Ideal) X1 := by
  rw [W16_of_ne m ρ c main_v107 (by decide)]
  show StableHlo.after hostOps5 (W14 m ρ c) (Proc.devRef .tc main_v107) = _
  after_results
  exact w14_v107 m ρ c

theorem w16_v3 : W16 m ρ c (Proc.devRef .tc main_v3) = padW X6 := by
  rw [W16_of_ne m ρ c main_v3 (by decide)]
  show StableHlo.after hostOps5 (W14 m ρ c) (Proc.devRef .tc main_v3) = _
  after_results
  exact w14_v3 m ρ c

theorem w16_v7 : W16 m ρ c (Proc.devRef .tc main_v7) = padB X7 := by
  rw [W16_of_ne m ρ c main_v7 (by decide)]
  show StableHlo.after hostOps5 (W14 m ρ c) (Proc.devRef .tc main_v7) = _
  after_results
  exact w14_v7 m ρ c

theorem w16_v75 : W16 m ρ c (Proc.devRef .tc main_v75) = val_main_v92 (F := Ideal) X0 X1 X2 X3 X4 X5 := by
  rw [W16_of_ne m ρ c main_v75 (by decide)]
  show StableHlo.after hostOps5 (W14 m ρ c) (Proc.devRef .tc main_v75) = _
  after_results
  exact w14_v75 m ρ c

theorem w16_v83 : W16 m ρ c (Proc.devRef .tc main_v83) = val_main_v100 (F := Ideal) X1 := by
  rw [W16_of_ne m ρ c main_v83 (by decide)]
  show StableHlo.after hostOps5 (W14 m ρ c) (Proc.devRef .tc main_v83) = _
  after_results
  exact w14_v83 m ρ c

theorem w16_v84 : W16 m ρ c (Proc.devRef .tc main_v84) = val_main_v101 (F := Ideal) X1 := by
  rw [W16_of_ne m ρ c main_v84 (by decide)]
  show StableHlo.after hostOps5 (W14 m ρ c) (Proc.devRef .tc main_v84) = _
  after_results
  exact w14_v84 m ρ c

end Cert.KernelIdeal.KVal

end
-- ==== Proof.MatRegion6.lean ====
/-
  The matmul region's closed form.  The region walks a grid of 5 points; point t takes rows 10000·t … 10000·t + 9999 of
  the 50000 × 128 left operand and the whole 128 × 128 right operand, multiplies them into a zero accumulator, and writes
  the same rows of the output.  For ANY contents of the buffers at the region's entry, the output array after the last
  point is the product of the two operand arrays, index by index: entry (n, j) is the sum over k of a(n, k) · b(k, j).
  The steps: the body's result at one index of a block (the product's sum, its operand indices read off the
  contraction's one axis); where each window's block sits in its array, decided once over the grid; what a point writes
  back as the block of the whole-array product; every row lies in the block of exactly the point row / 10000; so the
  array ends holding the product.
-/
import proofs.«133000_j19232863551793_1_alg».proof.Proof.Gen.KernelIdeal.Frame
import proofs.«133000_j19232863551793_1_alg».proof.Proof.Spec
import Idealize.ShloMosaic.Lib.Pipeline.Value
import Idealize.ShloMosaic.Lib.ValueIdx
import Idealize.ShloMosaic.PureOps.Ideal.Laws

noncomputable section

namespace Cert.KernelIdeal.KVal

open Cert.KernelIdeal Idealize.ShloMosaic Idealize.ShloMosaic.TcCoe Idealize.SL.Sem Idealize.ShloMosaic.ValueIdx
open Idealize.ShloMosaic.Pipeline (Dat)

/-- The zero offsets, as the constant function. -/
private theorem hz6 : (![0, 0] : Fin 2 → Nat) = fun _ => 0 := funext fun a => by fin_cases a <;> rfl

/-- The product's left operand index at output index i and contraction index κ: row (i 0), -/
private theorem lhs6_0 (i : S10000x128.Idx) (κ : dot_S10000x128_S128x128_S10000x128_1_0_0_1_n_n.contr.Idx) :
    (dot_S10000x128_S128x128_S10000x128_1_0_0_1_n_n.lhsIdx i κ 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- column κ; -/
private theorem lhs6_1 (i : S10000x128.Idx) (κ : dot_S10000x128_S128x128_S10000x128_1_0_0_1_n_n.contr.Idx) :
    (dot_S10000x128_S128x128_S10000x128_1_0_0_1_n_n.lhsIdx i κ 1).val = (κ ⟨0, by decide⟩).val :=
  dot_S10000x128_S128x128_S10000x128_1_0_0_1_n_n.lhsIdx_val_of_single rfl i κ
/-- its right operand index: row κ, -/
private theorem rhs6_0 (i : S10000x128.Idx) (κ : dot_S10000x128_S128x128_S10000x128_1_0_0_1_n_n.contr.Idx) :
    (dot_S10000x128_S128x128_S10000x128_1_0_0_1_n_n.rhsIdx i κ 0).val = (κ ⟨0, by decide⟩).val :=
  dot_S10000x128_S128x128_S10000x128_1_0_0_1_n_n.rhsIdx_val_of_single rfl i κ
/-- column (i 1). -/
private theorem rhs6_1 (i : S10000x128.Idx) (κ : dot_S10000x128_S128x128_S10000x128_1_0_0_1_n_n.contr.Idx) :
    (dot_S10000x128_S128x128_S10000x128_1_0_0_1_n_n.rhsIdx i κ 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body leaves in the output block, at row p and column q: the sum over k of the left block's
    (p, k) entry times the right block's (k, q) entry (the accumulator the product adds onto is zero). -/
theorem out6_2_apply (x0 : FVec Ideal S10000x128 .bf16) (x1 : FVec Ideal S128x128 .bf16) (p : Fin 10000) (q : Fin 128) :
    Gen.out6_2 (F := Ideal) x0 x1 (ix2 p q) = ∑ k : Fin 128, x0 (ix2 p k) * x1 (ix2 k q) := by
  unfold Gen.out6_2
  rw [View.canon_unit_zero hz6]
  simp only [View.ld_unit_zero (S := S10000x128) hz6, View.ld_unit_zero (S := S128x128) hz6]
  unfold Gen.k6_pay1
  simp only [shapeCast_self]
  refine (Ideal.matmul_constant_zero_apply dot_S10000x128_S128x128_S10000x128_1_0_0_1_n_n none x0 x1 (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs6_0 _ _
    | ⟨1, _⟩ => exact (lhs6_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs6_0 _ _).trans hk
    | ⟨1, _⟩ => exact rhs6_1 _ _)
  rw [el, er]

/-- The printed index maps, decided once over the grid: at point t the left operand's block is block (t, 0) of its
    array, the right operand's is block (0, 0) — the whole matrix —, and the output's is block (t, 0). -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- A product of two entries depends only on the two indices. -/
private theorem mul_idx_congr6 (A : S50000x128.Idx → EReal) (B : S128x128.Idx → EReal) {i i' : S50000x128.Idx} {j j' : S128x128.Idx}
    (hi : i = i') (hj : j = j') : A i * B j = A i' * B j' := by rw [hi, hj]

section
variable (V : (c : Dev nD) → (b : Ref sig .tc) → Buf (Elt Ideal) ((c : Thread nD τ).loc b))

/-- What point t writes back is block t of the whole-array product of the two operand arrays as the region
    finds them: row p of the block is row 10000·t + p of the array, and the right operand's block is the whole matrix. -/
theorem flushed6_2_eq (c : Dev nD) (t : Fin cfg6.N) :
    (Gen.dat6 (F := Ideal) V c).flushed 2 t
      = ((cfg6.win 2).blk t).view.read (Elt Ideal) (Cert.Spec.mm (V c (Pipeline.arrRef spec6 0)) (V c (Pipeline.arrRef spec6 1))) := by
  show (cfg6.win 2).cut (grid6.coords t) ((Gen.dat6 V c).after 2 t) = _
  rw [Gen.after6_2]
  obtain ⟨e0, e1, e2, e3, e4, e5⟩ := idx_facts6 t
  funext j
  obtain ⟨p, q, rfl⟩ : ∃ (p : Fin 10000) (q : Fin 128), j = ix2 p q := ⟨j 0, j 1, eq_ix2 j⟩
  show Gen.out6_2 (Gen.iblk6 V c 0 t) (Gen.iblk6 V c 1 t) (ix2 p q) = Cert.Spec.mm _ _ (((cfg6.win 2).blk t).view.emb (ix2 p q))
  refine (out6_2_apply (Gen.iblk6 V c 0 t) (Gen.iblk6 V c 1 t) p q).trans ?_
  refine Finset.sum_congr rfl fun k _ => ?_
  have h0 : ((cfg6.win 0).blk t).view.emb (ix2 p k) = ix2 (((cfg6.win 2).blk t).view.emb (ix2 p q) 0) k := by
    funext a; apply Fin.ext
    match a with
    | ⟨0, _⟩ => show win6_0.index t (0 : Fin 2) * 10000 + 1 * p.val = win6_2.index t (0 : Fin 2) * 10000 + 1 * p.val; omega
    | ⟨1, _⟩ => show win6_0.index t (1 : Fin 2) * 128 + 1 * k.val = k.val; omega
  have h1 : ((cfg6.win 1).blk t).view.emb (ix2 k q) = ix2 k (((cfg6.win 2).blk t).view.emb (ix2 p q) 1) := by
    funext a; apply Fin.ext
    match a with
    | ⟨0, _⟩ => show win6_1.index t (0 : Fin 2) * 128 + 1 * k.val = k.val; omega
    | ⟨1, _⟩ => show win6_1.index t (1 : Fin 2) * 128 + 1 * q.val = win6_2.index t (1 : Fin 2) * 128 + 1 * q.val; omega
  exact mul_idx_congr6 (V c (Pipeline.arrRef spec6 0)) (V c (Pipeline.arrRef spec6 1)) h0 h1

/-- An index of the output array is in point t's block iff each coordinate is in the block's range on its axis. -/
theorem mem_blk6_2 (t : Fin cfg6.N) (i : S50000x128.Idx) :
    i ∈ ((cfg6.win 2).blk t).view.set ↔ ∀ a : Fin 2, win6_2.index t a * S10000x128.size a ≤ (i a).val ∧ (i a).val < win6_2.index t a * S10000x128.size a + S10000x128.size a := by
  show i ∈ ((View.whole (Pipeline.arrRef spec6 2)).slice (win6_2.rect t)).set ↔ _
  rw [View.set_slice_whole, Rect.mem_set_unit]
  exact Iff.rfl

/-- Every index of the output array is in some point's block: row r is in the block of point r / 10000. -/
theorem covered6_2 (i : S50000x128.Idx) :
    ∃ t : Fin cfg6.N, (cfg6.win 2).flush t = true ∧ i ∈ ((cfg6.win 2).blk t).view.set := by
  have hN : grid6.N = 5 := Gen.N_6
  have hi0 : (i 0).val < 50000 := (i 0).isLt
  have hi1 : (i 1).val < 128 := (i 1).isLt
  have ht : (i 0).val / 10000 < grid6.N := by omega
  obtain ⟨e0, e1, e2, e3, e4, e5⟩ := idx_facts6 ⟨(i 0).val / 10000, ht⟩
  refine ⟨⟨(i 0).val / 10000, ht⟩, Gen.flush6_2 _, ?_⟩
  rw [mem_blk6_2]
  intro a
  match a with
  | ⟨0, _⟩ =>
    show win6_2.index ⟨(i 0).val / 10000, ht⟩ (0 : Fin 2) * 10000 ≤ (i 0).val ∧ (i 0).val < win6_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win6_2.index ⟨(i 0).val / 10000, ht⟩ (1 : Fin 2) * 128 ≤ (i 1).val ∧ (i 1).val < win6_2.index ⟨(i 0).val / 10000, ht⟩ (1 : Fin 2) * 128 + 128
    rw [e5]; omega

/-- The output array after the region: the product of the two operand arrays as the region finds them, index by index. -/
theorem region6_out (c : Dev nD) :
    (Gen.dat6 (F := Ideal) V c).arrAt 2 cfg6.N = Cert.Spec.mm (V c (Pipeline.arrRef spec6 0)) (V c (Pipeline.arrRef spec6 1)) :=
  (Gen.dat6 (F := Ideal) V c).arrAt_eq_of_cover 2 (Cert.Spec.mm (V c (Pipeline.arrRef spec6 0)) (V c (Pipeline.arrRef spec6 1)))
    (fun t _ => flushed6_2_eq V c t) covered6_2

end

end Cert.KernelIdeal.KVal

end
-- ==== Proof.ChainW18.lean ====
/-
  The buffer contents at the seventh region's exit: step 1's first layer output times the second weight matrix.
-/
import proofs.«133000_j19232863551793_1_alg».proof.Proof.ChainW16
import proofs.«133000_j19232863551793_1_alg».proof.Proof.MatRegion6

set_option maxRecDepth 16384
set_option maxHeartbeats 2000000

noncomputable section

namespace Cert.KernelIdeal.KVal

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
set_option quotPrecheck true

/-- What region 6's operand `v126` holds at the region's entry. -/
theorem e17_v126 : W17 m ρ c (Proc.devRef .tc main_v126) = val_main_v142 (F := Ideal) X0 X1 X2 X3 := by
  show StableHlo.after hostOps6 (W16 m ρ c) (Proc.devRef .tc main_v126) = _
  after_results
  rw [w16_v125 m ρ c]
  rfl

/-- What region 6's operand `v127` holds at the region's entry. -/
theorem e17_v127 : W17 m ρ c (Proc.devRef .tc main_v127) = X4 := by
  show StableHlo.after hostOps6 (W16 m ρ c) (Proc.devRef .tc main_v127) = _
  after_results
  rw [w16_arg4 m ρ c]
  rfl

/-- Region 6's output array at the region's exit. -/
theorem w18_v128 : W18 m ρ c (Proc.devRef .tc main_v128) = val_main_v146 (F := Ideal) X0 X1 X2 X3 X4 := by
  refine (W18_arr m ρ c 2).trans ((region6_out (V17 m ρ) c).trans ?_)
  rw [Cert.RefLaws.v146_mm]
  exact congrArg₂ Cert.Spec.mm (e17_v126 m ρ c) (e17_v127 m ρ c)

theorem w18_arg5 : W18 m ρ c (Proc.devRef .tc main_arg5) = X5 := by
  rw [W18_of_ne m ρ c main_arg5 (by decide)]
  show StableHlo.after hostOps6 (W16 m ρ c) (Proc.devRef .tc main_arg5) = _
  after_results
  exact w16_arg5 m ρ c

theorem w18_v107 : W18 m ρ c (Proc.devRef .tc main_v107) = val_main_v125 (F := Ideal) X1 := by
  rw [W18_of_ne m ρ c main_v107 (by decide)]
  show StableHlo.after hostOps6 (W16 m ρ c) (Proc.devRef .tc main_v107) = _
  after_results
  exact w16_v107 m ρ c

theorem w18_v3 : W18 m ρ c (Proc.devRef .tc main_v3) = padW X6 := by
  rw [W18_of_ne m ρ c main_v3 (by decide)]
  show StableHlo.after hostOps6 (W16 m ρ c) (Proc.devRef .tc main_v3) = _
  after_results
  exact w16_v3 m ρ c

theorem w18_v7 : W18 m ρ c (Proc.devRef .tc main_v7) = padB X7 := by
  rw [W18_of_ne m ρ c main_v7 (by decide)]
  show StableHlo.after hostOps6 (W16 m ρ c) (Proc.devRef .tc main_v7) = _
  after_results
  exact w16_v7 m ρ c

theorem w18_v75 : W18 m ρ c (Proc.devRef .tc main_v75) = val_main_v92 (F := Ideal) X0 X1 X2 X3 X4 X5 := by
  rw [W18_of_ne m ρ c main_v75 (by decide)]
  show StableHlo.after hostOps6 (W16 m ρ c) (Proc.devRef .tc main_v75) = _
  after_results
  exact w16_v75 m ρ c

theorem w18_v83 : W18 m ρ c (Proc.devRef .tc main_v83) = val_main_v100 (F := Ideal) X1 := by
  rw [W18_of_ne m ρ c main_v83 (by decide)]
  show StableHlo.after hostOps6 (W16 m ρ c) (Proc.devRef .tc main_v83) = _
  after_results
  exact w16_v83 m ρ c

theorem w18_v84 : W18 m ρ c (Proc.devRef .tc main_v84) = val_main_v101 (F := Ideal) X1 := by
  rw [W18_of_ne m ρ c main_v84 (by decide)]
  show StableHlo.after hostOps6 (W16 m ρ c) (Proc.devRef .tc main_v84) = _
  after_results
  exact w16_v84 m ρ c

end Cert.KernelIdeal.KVal

end
-- ==== Proof.BiasRegion7.lean ====
/-
  A region that adds one row of 128 entries to every row of a 50000 × 128 array, read over the extended reals as ONE
  function of the two arrays it finds at its entry, whatever they hold.
  The region works through the array in five blocks of 10000 rows; each block's result at (p, q) is x(p, q) + b(0, q)
  with x the block of the array and b the whole row; block t sits at rows 10000 t … 10000 t + 9999 of the array, and
  the five blocks cover it, so the output array is a(n, j) + b(0, j) at every (n, j).
-/
import proofs.«133000_j19232863551793_1_alg».proof.Proof.Gen.KernelIdeal.Frame
import proofs.«133000_j19232863551793_1_alg».proof.Proof.Spec
import Idealize.ShloMosaic.Lib.Pipeline.Value
import Idealize.ShloMosaic.Lib.ValueIdx

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer access, however they are spelt. -/
private theorem hz7 : (![0, 0] : Fin 2 → Nat) = fun _ => 0 := funext fun a => by fin_cases a <;> rfl

/-- The stored block at row p, column q: the entry plus the row vector's q-th entry. -/
private theorem out7_apply (x0 : Vec Ideal S10000x128 .f32) (x1 : Vec Ideal S1x128 .f32) (p : Fin 10000) (q : Fin 128) :
    Gen.out7_2 x0 x1 (ix2 p q) = x0 (ix2 p q) + x1 (ix2 0 q) := by
  unfold Gen.out7_2
  rw [View.canon_unit_zero hz7]
  simp only [View.ld_unit_zero (S := S10000x128) hz7, View.ld_unit_zero (S := S1x128) hz7]
  unfold Gen.k7_pay1
  rw [addf_apply]
  simp only [shapeCast_self]
  rw [broadcastTo_apply x1 _ (ix2 p q) (ix2 0 q) (fun a => by
    match a with
    | ⟨0, _⟩ => rfl
    | ⟨1, _⟩ => rfl)]

/-- The index maps, decided once over the grid: the array's and the output's block at point t is block (t, 0), the row
    vector's always block (0, 0). -/
private theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

variable (V : (c : Dev nD) → (b : Ref sig .tc) → Buf (Elt Ideal) ((c : Thread nD τ).loc b))

/-- The array's block at point t, at row p and column q, is the array at row 10000 t + p, column q. -/
private theorem blk7_0_apply (c : Dev nD) (t : Fin cfg7.N) (p : Fin 10000) (q : Fin 128) (k : S50000x128.Idx)
    (hk0 : (k 0).val = t.val * 10000 + p.val) (hk1 : (k 1).val = q.val) :
    Gen.iblk7 (F := Ideal) V c 0 t (ix2 p q) = V c (Pipeline.arrRef spec7 0) k := by
  obtain ⟨e0, e1, -⟩ := idx_facts7 t
  show V c (Pipeline.arrRef spec7 0) (((cfg7.win 0).blk t).view.emb (ix2 p q)) = V c (Pipeline.arrRef spec7 0) k
  refine congrArg _ (funext fun a => Fin.ext ?_)
  match a with
  | ⟨0, _⟩ => show win7_0.index t (0 : Fin 2) * 10000 + 1 * p.val = (k 0).val; omega
  | ⟨1, _⟩ => show win7_0.index t (1 : Fin 2) * 128 + 1 * q.val = (k 1).val; omega

/-- The row vector's block at every point is the whole row vector. -/
private theorem blk7_1_apply (c : Dev nD) (t : Fin cfg7.N) (q : Fin 128) (k : S1x128.Idx)
    (hk0 : (k 0).val = 0) (hk1 : (k 1).val = q.val) :
    Gen.iblk7 (F := Ideal) V c 1 t (ix2 0 q) = V c (Pipeline.arrRef spec7 1) k := by
  obtain ⟨-, -, e2, e3, -⟩ := idx_facts7 t
  show V c (Pipeline.arrRef spec7 1) (((cfg7.win 1).blk t).view.emb (ix2 0 q)) = V c (Pipeline.arrRef spec7 1) k
  refine congrArg _ (funext fun a => Fin.ext ?_)
  match a with
  | ⟨0, _⟩ => show win7_1.index t (0 : Fin 2) * 1 + 1 * (0 : Fin 1).val = (k 0).val; rw [e2, hk0]; rfl
  | ⟨1, _⟩ => show win7_1.index t (1 : Fin 2) * 128 + 1 * q.val = (k 1).val; omega

/-- What point t writes back is the whole-array function read through block t. -/
private theorem flushed7_eq (c : Dev nD) (t : Fin cfg7.N) :
    (Gen.dat7 (F := Ideal) V c).flushed 2 t = ((cfg7.win 2).blk t).view.read (Elt Ideal)
      (Cert.Spec.addRow (V c (Pipeline.arrRef spec7 0)) (V c (Pipeline.arrRef spec7 1))) := by
  show (cfg7.win 2).cut (grid7.coords t) ((Gen.dat7 V c).after 2 t) = _
  rw [Gen.after7_2]
  obtain ⟨-, -, -, -, e4, e5⟩ := idx_facts7 t
  have key : ∀ j : S10000x128.Idx, Gen.out7_2 (Gen.iblk7 V c 0 t) (Gen.iblk7 V c 1 t) j
      = Cert.Spec.addRow (V c (Pipeline.arrRef spec7 0)) (V c (Pipeline.arrRef spec7 1)) (((cfg7.win 2).blk t).view.emb j) := by
    intro j
    obtain ⟨p, q, rfl⟩ : ∃ (p : Fin 10000) (q : Fin 128), j = ix2 p q := ⟨j 0, j 1, eq_ix2 j⟩
    refine (out7_apply (Gen.iblk7 V c 0 t) (Gen.iblk7 V c 1 t) p q).trans ?_
    have h0 : ((((cfg7.win 2).blk t).view.emb (ix2 p q) : S50000x128.Idx) 0).val = t.val * 10000 + p.val := by
      show win7_2.index t (0 : Fin 2) * 10000 + 1 * p.val = _; omega
    have h1 : ((((cfg7.win 2).blk t).view.emb (ix2 p q) : S50000x128.Idx) 1).val = q.val := by
      show win7_2.index t (1 : Fin 2) * 128 + 1 * q.val = _; omega
    unfold Cert.Spec.addRow
    exact congrArg₂ (· + ·) (blk7_0_apply V c t p q _ h0 h1) (blk7_1_apply V c t q _ rfl h1)
  exact funext key

/-- An index of the array is in point t's block iff each coordinate is in the block's range on its axis. -/
private theorem mem_blk7 (t : Fin cfg7.N) (i : S50000x128.Idx) :
    i ∈ ((cfg7.win 2).blk t).view.set ↔ ∀ a : Fin 2, win7_2.index t a * S10000x128.size a ≤ (i a).val
      ∧ (i a).val < win7_2.index t a * S10000x128.size a + S10000x128.size a := by
  show i ∈ ((View.whole (Pipeline.arrRef spec7 2)).slice (win7_2.rect t)).set ↔ _
  rw [View.set_slice_whole, Rect.mem_set_unit]
  exact Iff.rfl

/-- Every index of the array is in some point's block: row r is in the block of point r / 10000. -/
private theorem cover7 (i : S50000x128.Idx) :
    ∃ t : Fin cfg7.N, (cfg7.win 2).flush t = true ∧ i ∈ ((cfg7.win 2).blk t).view.set := by
  have hi0 : (i 0).val < 50000 := (i 0).isLt
  have hi1 : (i 1).val < 128 := (i 1).isLt
  have hN : cfg7.N = 5 := N_7
  obtain ⟨t, ht⟩ : ∃ t : Fin cfg7.N, t.val = (i 0).val / 10000 := ⟨⟨(i 0).val / 10000, by rw [hN]; omega⟩, rfl⟩
  obtain ⟨-, -, -, -, e4, e5⟩ := idx_facts7 t
  refine ⟨t, flush7_2 t, ?_⟩
  rw [mem_blk7]
  intro a
  match a with
  | ⟨0, _⟩ =>
    show win7_2.index t (0 : Fin 2) * 10000 ≤ (i 0).val ∧ (i 0).val < win7_2.index t (0 : Fin 2) * 10000 + 10000
    omega
  | ⟨1, _⟩ =>
    show win7_2.index t (1 : Fin 2) * 128 ≤ (i 1).val ∧ (i 1).val < win7_2.index t (1 : Fin 2) * 128 + 128
    omega

/-- The output array after the region: the entry array plus the row vector down the rows, whatever the entry
    contents are. -/
theorem region7_out (c : Dev nD) :
    (Gen.dat7 (F := Ideal) V c).arrAt 2 cfg7.N
      = Cert.Spec.addRow (V c (Pipeline.arrRef spec7 0)) (V c (Pipeline.arrRef spec7 1)) :=
  (Gen.dat7 V c).arrAt_eq_of_cover 2 _ (fun t _ => flushed7_eq V c t) cover7

end Cert.KernelIdeal.KVal

end
-- ==== Proof.ChainW20.lean ====
/-
  The buffer contents at the eighth region's exit: step 1's second aggregate plus the second bias — step 1's output.
-/
import proofs.«133000_j19232863551793_1_alg».proof.Proof.ChainW18
import proofs.«133000_j19232863551793_1_alg».proof.Proof.BiasRegion7

set_option maxRecDepth 16384
set_option maxHeartbeats 2000000

noncomputable section

namespace Cert.KernelIdeal.KVal

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
set_option quotPrecheck true

/-- What region 7's operand `v141` holds at the region's entry. -/
theorem e19_v141 : W19 m ρ c (Proc.devRef .tc main_v141) = val_main_v182 (F := Ideal) X0 X1 X2 X3 X4 := by
  show StableHlo.after hostOps7 (W18 m ρ c) (Proc.devRef .tc main_v141) = _
  after_results
  rw [w18_v84 m ρ c, w18_v128 m ρ c, w18_v83 m ρ c, w18_v107 m ρ c]
  rfl

/-- At region 7's entry the row operand holds the bias vector: its entry (0, j) is the vector's entry j (a reshape of
    128 entries to one row keeps the row-major position). -/
theorem e19_v142 (j : Fin 128) :
    (W19 m ρ c (Proc.devRef .tc main_v142) : S1x128.Idx → EReal) (ix2 0 j) = X5 (ix1 j) := by
  have h : W19 m ρ c (Proc.devRef .tc main_v142) = shapeCast S1x128 X5 shapeCasts_S128_S1x128 := by
    show StableHlo.after hostOps7 (W18 m ρ c) (Proc.devRef .tc main_v142) = _
    after_results
    rw [w18_arg5 m ρ c]
    rfl
  rw [h]
  exact shapeCast_apply _ shapeCasts_S128_S1x128 (ix2 0 j) (ix1 j) (by
    rewrite [Shape.rowMajor_val_two, Shape.rowMajor_val_one]
    show j.val = 0 * 128 + j.val
    omega)

/-- Region 7's output array at the region's exit. -/
theorem w20_v143 : W20 m ρ c (Proc.devRef .tc main_v143) = val_main_v185 (F := Ideal) X0 X1 X2 X3 X4 X5 := by
  refine (W20_arr m ρ c 2).trans ((region7_out (V19 m ρ) c).trans ?_)
  rw [Cert.RefLaws.v185_add X0 X1 X2 X3 X4 X5 _ (e19_v142 m ρ c)]
  exact congrArg (fun a => Cert.Spec.addRow a _) (e19_v141 m ρ c)

theorem w20_v3 : W20 m ρ c (Proc.devRef .tc main_v3) = padW X6 := by
  rw [W20_of_ne m ρ c main_v3 (by decide)]
  show StableHlo.after hostOps7 (W18 m ρ c) (Proc.devRef .tc main_v3) = _
  after_results
  exact w18_v3 m ρ c

theorem w20_v7 : W20 m ρ c (Proc.devRef .tc main_v7) = padB X7 := by
  rw [W20_of_ne m ρ c main_v7 (by decide)]
  show StableHlo.after hostOps7 (W18 m ρ c) (Proc.devRef .tc main_v7) = _
  after_results
  exact w18_v7 m ρ c

theorem w20_v75 : W20 m ρ c (Proc.devRef .tc main_v75) = val_main_v92 (F := Ideal) X0 X1 X2 X3 X4 X5 := by
  rw [W20_of_ne m ρ c main_v75 (by decide)]
  show StableHlo.after hostOps7 (W18 m ρ c) (Proc.devRef .tc main_v75) = _
  after_results
  exact w18_v75 m ρ c

end Cert.KernelIdeal.KVal

end
-- ==== Proof.MatRegion8.lean ====
/-
  The matmul region's closed form.  The region walks a grid of 5 points; point t takes rows 10000·t … 10000·t + 9999 of
  the 50000 × 128 left operand and the whole 128 × 128 right operand, multiplies them into a zero accumulator, and writes
  the same rows of the output.  For ANY contents of the buffers at the region's entry, the output array after the last
  point is the product of the two operand arrays, index by index: entry (n, j) is the sum over k of a(n, k) · b(k, j).
  The steps: the body's result at one index of a block (the product's sum, its operand indices read off the
  contraction's one axis); where each window's block sits in its array, decided once over the grid; what a point writes
  back as the block of the whole-array product; every row lies in the block of exactly the point row / 10000; so the
  array ends holding the product.
-/
import proofs.«133000_j19232863551793_1_alg».proof.Proof.Gen.KernelIdeal.Frame
import proofs.«133000_j19232863551793_1_alg».proof.Proof.Spec
import Idealize.ShloMosaic.Lib.Pipeline.Value
import Idealize.ShloMosaic.Lib.ValueIdx
import Idealize.ShloMosaic.PureOps.Ideal.Laws

noncomputable section

namespace Cert.KernelIdeal.KVal

open Cert.KernelIdeal Idealize.ShloMosaic Idealize.ShloMosaic.TcCoe Idealize.SL.Sem Idealize.ShloMosaic.ValueIdx
open Idealize.ShloMosaic.Pipeline (Dat)

/-- The zero offsets, as the constant function. -/
private theorem hz8 : (![0, 0] : Fin 2 → Nat) = fun _ => 0 := funext fun a => by fin_cases a <;> rfl

/-- The product's left operand index at output index i and contraction index κ: row (i 0), -/
private theorem lhs8_0 (i : S10000x128.Idx) (κ : dot_S10000x128_S128x128_S10000x128_1_0_0_1_n_n.contr.Idx) :
    (dot_S10000x128_S128x128_S10000x128_1_0_0_1_n_n.lhsIdx i κ 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- column κ; -/
private theorem lhs8_1 (i : S10000x128.Idx) (κ : dot_S10000x128_S128x128_S10000x128_1_0_0_1_n_n.contr.Idx) :
    (dot_S10000x128_S128x128_S10000x128_1_0_0_1_n_n.lhsIdx i κ 1).val = (κ ⟨0, by decide⟩).val :=
  dot_S10000x128_S128x128_S10000x128_1_0_0_1_n_n.lhsIdx_val_of_single rfl i κ
/-- its right operand index: row κ, -/
private theorem rhs8_0 (i : S10000x128.Idx) (κ : dot_S10000x128_S128x128_S10000x128_1_0_0_1_n_n.contr.Idx) :
    (dot_S10000x128_S128x128_S10000x128_1_0_0_1_n_n.rhsIdx i κ 0).val = (κ ⟨0, by decide⟩).val :=
  dot_S10000x128_S128x128_S10000x128_1_0_0_1_n_n.rhsIdx_val_of_single rfl i κ
/-- column (i 1). -/
private theorem rhs8_1 (i : S10000x128.Idx) (κ : dot_S10000x128_S128x128_S10000x128_1_0_0_1_n_n.contr.Idx) :
    (dot_S10000x128_S128x128_S10000x128_1_0_0_1_n_n.rhsIdx i κ 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body leaves in the output block, at row p and column q: the sum over k of the left block's
    (p, k) entry times the right block's (k, q) entry (the accumulator the product adds onto is zero). -/
theorem out8_2_apply (x0 : FVec Ideal S10000x128 .bf16) (x1 : FVec Ideal S128x128 .bf16) (p : Fin 10000) (q : Fin 128) :
    Gen.out8_2 (F := Ideal) x0 x1 (ix2 p q) = ∑ k : Fin 128, x0 (ix2 p k) * x1 (ix2 k q) := by
  unfold Gen.out8_2
  rw [View.canon_unit_zero hz8]
  simp only [View.ld_unit_zero (S := S10000x128) hz8, View.ld_unit_zero (S := S128x128) hz8]
  unfold Gen.k8_pay1
  simp only [shapeCast_self]
  refine (Ideal.matmul_constant_zero_apply dot_S10000x128_S128x128_S10000x128_1_0_0_1_n_n none x0 x1 (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs8_0 _ _
    | ⟨1, _⟩ => exact (lhs8_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs8_0 _ _).trans hk
    | ⟨1, _⟩ => exact rhs8_1 _ _)
  rw [el, er]

/-- The printed index maps, decided once over the grid: at point t the left operand's block is block (t, 0) of its
    array, the right operand's is block (0, 0) — the whole matrix —, and the output's is block (t, 0). -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- A product of two entries depends only on the two indices. -/
private theorem mul_idx_congr8 (A : S50000x128.Idx → EReal) (B : S128x128.Idx → EReal) {i i' : S50000x128.Idx} {j j' : S128x128.Idx}
    (hi : i = i') (hj : j = j') : A i * B j = A i' * B j' := by rw [hi, hj]

section
variable (V : (c : Dev nD) → (b : Ref sig .tc) → Buf (Elt Ideal) ((c : Thread nD τ).loc b))

/-- What point t writes back is block t of the whole-array product of the two operand arrays as the region
    finds them: row p of the block is row 10000·t + p of the array, and the right operand's block is the whole matrix. -/
theorem flushed8_2_eq (c : Dev nD) (t : Fin cfg8.N) :
    (Gen.dat8 (F := Ideal) V c).flushed 2 t
      = ((cfg8.win 2).blk t).view.read (Elt Ideal) (Cert.Spec.mm (V c (Pipeline.arrRef spec8 0)) (V c (Pipeline.arrRef spec8 1))) := by
  show (cfg8.win 2).cut (grid8.coords t) ((Gen.dat8 V c).after 2 t) = _
  rw [Gen.after8_2]
  obtain ⟨e0, e1, e2, e3, e4, e5⟩ := idx_facts8 t
  funext j
  obtain ⟨p, q, rfl⟩ : ∃ (p : Fin 10000) (q : Fin 128), j = ix2 p q := ⟨j 0, j 1, eq_ix2 j⟩
  show Gen.out8_2 (Gen.iblk8 V c 0 t) (Gen.iblk8 V c 1 t) (ix2 p q) = Cert.Spec.mm _ _ (((cfg8.win 2).blk t).view.emb (ix2 p q))
  refine (out8_2_apply (Gen.iblk8 V c 0 t) (Gen.iblk8 V c 1 t) p q).trans ?_
  refine Finset.sum_congr rfl fun k _ => ?_
  have h0 : ((cfg8.win 0).blk t).view.emb (ix2 p k) = ix2 (((cfg8.win 2).blk t).view.emb (ix2 p q) 0) k := by
    funext a; apply Fin.ext
    match a with
    | ⟨0, _⟩ => show win8_0.index t (0 : Fin 2) * 10000 + 1 * p.val = win8_2.index t (0 : Fin 2) * 10000 + 1 * p.val; omega
    | ⟨1, _⟩ => show win8_0.index t (1 : Fin 2) * 128 + 1 * k.val = k.val; omega
  have h1 : ((cfg8.win 1).blk t).view.emb (ix2 k q) = ix2 k (((cfg8.win 2).blk t).view.emb (ix2 p q) 1) := by
    funext a; apply Fin.ext
    match a with
    | ⟨0, _⟩ => show win8_1.index t (0 : Fin 2) * 128 + 1 * k.val = k.val; omega
    | ⟨1, _⟩ => show win8_1.index t (1 : Fin 2) * 128 + 1 * q.val = win8_2.index t (1 : Fin 2) * 128 + 1 * q.val; omega
  exact mul_idx_congr8 (V c (Pipeline.arrRef spec8 0)) (V c (Pipeline.arrRef spec8 1)) h0 h1

/-- An index of the output array is in point t's block iff each coordinate is in the block's range on its axis. -/
theorem mem_blk8_2 (t : Fin cfg8.N) (i : S50000x128.Idx) :
    i ∈ ((cfg8.win 2).blk t).view.set ↔ ∀ a : Fin 2, win8_2.index t a * S10000x128.size a ≤ (i a).val ∧ (i a).val < win8_2.index t a * S10000x128.size a + S10000x128.size a := by
  show i ∈ ((View.whole (Pipeline.arrRef spec8 2)).slice (win8_2.rect t)).set ↔ _
  rw [View.set_slice_whole, Rect.mem_set_unit]
  exact Iff.rfl

/-- Every index of the output array is in some point's block: row r is in the block of point r / 10000. -/
theorem covered8_2 (i : S50000x128.Idx) :
    ∃ t : Fin cfg8.N, (cfg8.win 2).flush t = true ∧ i ∈ ((cfg8.win 2).blk t).view.set := by
  have hN : grid8.N = 5 := Gen.N_8
  have hi0 : (i 0).val < 50000 := (i 0).isLt
  have hi1 : (i 1).val < 128 := (i 1).isLt
  have ht : (i 0).val / 10000 < grid8.N := by omega
  obtain ⟨e0, e1, e2, e3, e4, e5⟩ := idx_facts8 ⟨(i 0).val / 10000, ht⟩
  refine ⟨⟨(i 0).val / 10000, ht⟩, Gen.flush8_2 _, ?_⟩
  rw [mem_blk8_2]
  intro a
  match a with
  | ⟨0, _⟩ =>
    show win8_2.index ⟨(i 0).val / 10000, ht⟩ (0 : Fin 2) * 10000 ≤ (i 0).val ∧ (i 0).val < win8_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win8_2.index ⟨(i 0).val / 10000, ht⟩ (1 : Fin 2) * 128 ≤ (i 1).val ∧ (i 1).val < win8_2.index ⟨(i 0).val / 10000, ht⟩ (1 : Fin 2) * 128 + 128
    rw [e5]; omega

/-- The output array after the region: the product of the two operand arrays as the region finds them, index by index. -/
theorem region8_out (c : Dev nD) :
    (Gen.dat8 (F := Ideal) V c).arrAt 2 cfg8.N = Cert.Spec.mm (V c (Pipeline.arrRef spec8 0)) (V c (Pipeline.arrRef spec8 1)) :=
  (Gen.dat8 (F := Ideal) V c).arrAt_eq_of_cover 2 (Cert.Spec.mm (V c (Pipeline.arrRef spec8 0)) (V c (Pipeline.arrRef spec8 1)))
    (fun t _ => flushed8_2_eq V c t) covered8_2

end

end Cert.KernelIdeal.KVal

end
-- ==== Proof.ChainW22.lean ====
/-
  The buffer contents at the ninth region's exit: step 1's output times the padded head matrix (the 128×1 weight
  column in column 0 of a 128×128 matrix of zeros).
-/
import proofs.«133000_j19232863551793_1_alg».proof.Proof.ChainW20
import proofs.«133000_j19232863551793_1_alg».proof.Proof.MatRegion8

set_option maxRecDepth 16384
set_option maxHeartbeats 2000000

noncomputable section

namespace Cert.KernelIdeal.KVal

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
set_option quotPrecheck true

/-- What region 8's operand `v144` holds at the region's entry. -/
theorem e21_v144 : W21 m ρ c (Proc.devRef .tc main_v144) = val_main_v185 (F := Ideal) X0 X1 X2 X3 X4 X5 := by
  show StableHlo.after hostOps8 (W20 m ρ c) (Proc.devRef .tc main_v144) = _
  after_results
  rw [w20_v143 m ρ c]
  rfl

/-- What region 8's operand `v145` holds at the region's entry. -/
theorem e21_v145 : W21 m ρ c (Proc.devRef .tc main_v145) = padW X6 := by
  show StableHlo.after hostOps8 (W20 m ρ c) (Proc.devRef .tc main_v145) = _
  after_results
  rw [w20_v3 m ρ c]
  rfl

/-- Region 8's output array at the region's exit. -/
theorem w22_v146 : W22 m ρ c (Proc.devRef .tc main_v146) = Cert.Spec.mm (val_main_v185 (F := Ideal) X0 X1 X2 X3 X4 X5) (padW X6) := by
  refine (W22_arr m ρ c 2).trans ((region8_out (V21 m ρ) c).trans ?_)
  exact congrArg₂ Cert.Spec.mm (e21_v144 m ρ c) (e21_v145 m ρ c)

theorem w22_v143 : W22 m ρ c (Proc.devRef .tc main_v143) = val_main_v185 (F := Ideal) X0 X1 X2 X3 X4 X5 := by
  rw [W22_of_ne m ρ c main_v143 (by decide)]
  show StableHlo.after hostOps8 (W20 m ρ c) (Proc.devRef .tc main_v143) = _
  after_results
  exact w20_v143 m ρ c

theorem w22_v7 : W22 m ρ c (Proc.devRef .tc main_v7) = padB X7 := by
  rw [W22_of_ne m ρ c main_v7 (by decide)]
  show StableHlo.after hostOps8 (W20 m ρ c) (Proc.devRef .tc main_v7) = _
  after_results
  exact w20_v7 m ρ c

theorem w22_v75 : W22 m ρ c (Proc.devRef .tc main_v75) = val_main_v92 (F := Ideal) X0 X1 X2 X3 X4 X5 := by
  rw [W22_of_ne m ρ c main_v75 (by decide)]
  show StableHlo.after hostOps8 (W20 m ρ c) (Proc.devRef .tc main_v75) = _
  after_results
  exact w20_v75 m ρ c

end Cert.KernelIdeal.KVal

end
-- ==== Proof.BiasRegion9.lean ====
/-
  A region that adds one row of 128 entries to every row of a 50000 × 128 array, read over the extended reals as ONE
  function of the two arrays it finds at its entry, whatever they hold.
  The region works through the array in five blocks of 10000 rows; each block's result at (p, q) is x(p, q) + b(0, q)
  with x the block of the array and b the whole row; block t sits at rows 10000 t … 10000 t + 9999 of the array, and
  the five blocks cover it, so the output array is a(n, j) + b(0, j) at every (n, j).
-/
import proofs.«133000_j19232863551793_1_alg».proof.Proof.Gen.KernelIdeal.Frame
import proofs.«133000_j19232863551793_1_alg».proof.Proof.Spec
import Idealize.ShloMosaic.Lib.Pipeline.Value
import Idealize.ShloMosaic.Lib.ValueIdx

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer access, however they are spelt. -/
private theorem hz9 : (![0, 0] : Fin 2 → Nat) = fun _ => 0 := funext fun a => by fin_cases a <;> rfl

/-- The stored block at row p, column q: the entry plus the row vector's q-th entry. -/
private theorem out9_apply (x0 : Vec Ideal S10000x128 .f32) (x1 : Vec Ideal S1x128 .f32) (p : Fin 10000) (q : Fin 128) :
    Gen.out9_2 x0 x1 (ix2 p q) = x0 (ix2 p q) + x1 (ix2 0 q) := by
  unfold Gen.out9_2
  rw [View.canon_unit_zero hz9]
  simp only [View.ld_unit_zero (S := S10000x128) hz9, View.ld_unit_zero (S := S1x128) hz9]
  unfold Gen.k9_pay1
  rw [addf_apply]
  simp only [shapeCast_self]
  rw [broadcastTo_apply x1 _ (ix2 p q) (ix2 0 q) (fun a => by
    match a with
    | ⟨0, _⟩ => rfl
    | ⟨1, _⟩ => rfl)]

/-- The index maps, decided once over the grid: the array's and the output's block at point t is block (t, 0), the row
    vector's always block (0, 0). -/
private theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

variable (V : (c : Dev nD) → (b : Ref sig .tc) → Buf (Elt Ideal) ((c : Thread nD τ).loc b))

/-- The array's block at point t, at row p and column q, is the array at row 10000 t + p, column q. -/
private theorem blk9_0_apply (c : Dev nD) (t : Fin cfg9.N) (p : Fin 10000) (q : Fin 128) (k : S50000x128.Idx)
    (hk0 : (k 0).val = t.val * 10000 + p.val) (hk1 : (k 1).val = q.val) :
    Gen.iblk9 (F := Ideal) V c 0 t (ix2 p q) = V c (Pipeline.arrRef spec9 0) k := by
  obtain ⟨e0, e1, -⟩ := idx_facts9 t
  show V c (Pipeline.arrRef spec9 0) (((cfg9.win 0).blk t).view.emb (ix2 p q)) = V c (Pipeline.arrRef spec9 0) k
  refine congrArg _ (funext fun a => Fin.ext ?_)
  match a with
  | ⟨0, _⟩ => show win9_0.index t (0 : Fin 2) * 10000 + 1 * p.val = (k 0).val; omega
  | ⟨1, _⟩ => show win9_0.index t (1 : Fin 2) * 128 + 1 * q.val = (k 1).val; omega

/-- The row vector's block at every point is the whole row vector. -/
private theorem blk9_1_apply (c : Dev nD) (t : Fin cfg9.N) (q : Fin 128) (k : S1x128.Idx)
    (hk0 : (k 0).val = 0) (hk1 : (k 1).val = q.val) :
    Gen.iblk9 (F := Ideal) V c 1 t (ix2 0 q) = V c (Pipeline.arrRef spec9 1) k := by
  obtain ⟨-, -, e2, e3, -⟩ := idx_facts9 t
  show V c (Pipeline.arrRef spec9 1) (((cfg9.win 1).blk t).view.emb (ix2 0 q)) = V c (Pipeline.arrRef spec9 1) k
  refine congrArg _ (funext fun a => Fin.ext ?_)
  match a with
  | ⟨0, _⟩ => show win9_1.index t (0 : Fin 2) * 1 + 1 * (0 : Fin 1).val = (k 0).val; rw [e2, hk0]; rfl
  | ⟨1, _⟩ => show win9_1.index t (1 : Fin 2) * 128 + 1 * q.val = (k 1).val; omega

/-- What point t writes back is the whole-array function read through block t. -/
private theorem flushed9_eq (c : Dev nD) (t : Fin cfg9.N) :
    (Gen.dat9 (F := Ideal) V c).flushed 2 t = ((cfg9.win 2).blk t).view.read (Elt Ideal)
      (Cert.Spec.addRow (V c (Pipeline.arrRef spec9 0)) (V c (Pipeline.arrRef spec9 1))) := by
  show (cfg9.win 2).cut (grid9.coords t) ((Gen.dat9 V c).after 2 t) = _
  rw [Gen.after9_2]
  obtain ⟨-, -, -, -, e4, e5⟩ := idx_facts9 t
  have key : ∀ j : S10000x128.Idx, Gen.out9_2 (Gen.iblk9 V c 0 t) (Gen.iblk9 V c 1 t) j
      = Cert.Spec.addRow (V c (Pipeline.arrRef spec9 0)) (V c (Pipeline.arrRef spec9 1)) (((cfg9.win 2).blk t).view.emb j) := by
    intro j
    obtain ⟨p, q, rfl⟩ : ∃ (p : Fin 10000) (q : Fin 128), j = ix2 p q := ⟨j 0, j 1, eq_ix2 j⟩
    refine (out9_apply (Gen.iblk9 V c 0 t) (Gen.iblk9 V c 1 t) p q).trans ?_
    have h0 : ((((cfg9.win 2).blk t).view.emb (ix2 p q) : S50000x128.Idx) 0).val = t.val * 10000 + p.val := by
      show win9_2.index t (0 : Fin 2) * 10000 + 1 * p.val = _; omega
    have h1 : ((((cfg9.win 2).blk t).view.emb (ix2 p q) : S50000x128.Idx) 1).val = q.val := by
      show win9_2.index t (1 : Fin 2) * 128 + 1 * q.val = _; omega
    unfold Cert.Spec.addRow
    exact congrArg₂ (· + ·) (blk9_0_apply V c t p q _ h0 h1) (blk9_1_apply V c t q _ rfl h1)
  exact funext key

/-- An index of the array is in point t's block iff each coordinate is in the block's range on its axis. -/
private theorem mem_blk9 (t : Fin cfg9.N) (i : S50000x128.Idx) :
    i ∈ ((cfg9.win 2).blk t).view.set ↔ ∀ a : Fin 2, win9_2.index t a * S10000x128.size a ≤ (i a).val
      ∧ (i a).val < win9_2.index t a * S10000x128.size a + S10000x128.size a := by
  show i ∈ ((View.whole (Pipeline.arrRef spec9 2)).slice (win9_2.rect t)).set ↔ _
  rw [View.set_slice_whole, Rect.mem_set_unit]
  exact Iff.rfl

/-- Every index of the array is in some point's block: row r is in the block of point r / 10000. -/
private theorem cover9 (i : S50000x128.Idx) :
    ∃ t : Fin cfg9.N, (cfg9.win 2).flush t = true ∧ i ∈ ((cfg9.win 2).blk t).view.set := by
  have hi0 : (i 0).val < 50000 := (i 0).isLt
  have hi1 : (i 1).val < 128 := (i 1).isLt
  have hN : cfg9.N = 5 := N_9
  obtain ⟨t, ht⟩ : ∃ t : Fin cfg9.N, t.val = (i 0).val / 10000 := ⟨⟨(i 0).val / 10000, by rw [hN]; omega⟩, rfl⟩
  obtain ⟨-, -, -, -, e4, e5⟩ := idx_facts9 t
  refine ⟨t, flush9_2 t, ?_⟩
  rw [mem_blk9]
  intro a
  match a with
  | ⟨0, _⟩ =>
    show win9_2.index t (0 : Fin 2) * 10000 ≤ (i 0).val ∧ (i 0).val < win9_2.index t (0 : Fin 2) * 10000 + 10000
    omega
  | ⟨1, _⟩ =>
    show win9_2.index t (1 : Fin 2) * 128 ≤ (i 1).val ∧ (i 1).val < win9_2.index t (1 : Fin 2) * 128 + 128
    omega

/-- The output array after the region: the entry array plus the row vector down the rows, whatever the entry
    contents are. -/
theorem region9_out (c : Dev nD) :
    (Gen.dat9 (F := Ideal) V c).arrAt 2 cfg9.N
      = Cert.Spec.addRow (V c (Pipeline.arrRef spec9 0)) (V c (Pipeline.arrRef spec9 1)) :=
  (Gen.dat9 V c).arrAt_eq_of_cover 2 _ (fun t _ => flushed9_eq V c t) cover9

end Cert.KernelIdeal.KVal

end
-- ==== Proof.ChainW24.lean ====
/-
  The buffer contents at the last region's exit: the head product plus the padded head bias down the rows.
-/
import proofs.«133000_j19232863551793_1_alg».proof.Proof.ChainW22
import proofs.«133000_j19232863551793_1_alg».proof.Proof.BiasRegion9

set_option maxRecDepth 16384
set_option maxHeartbeats 2000000

noncomputable section

namespace Cert.KernelIdeal.KVal

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
set_option quotPrecheck true

/-- What region 9's operand `v146` holds at the region's entry. -/
theorem e23_v146 : W23 m ρ c (Proc.devRef .tc main_v146) = Cert.Spec.mm (val_main_v185 (F := Ideal) X0 X1 X2 X3 X4 X5) (padW X6) := by
  show StableHlo.after hostOps9 (W22 m ρ c) (Proc.devRef .tc main_v146) = _
  after_results
  exact w22_v146 m ρ c

/-- At region 9's entry the row operand holds the bias vector: its entry (0, j) is the vector's entry j (a reshape of
    128 entries to one row keeps the row-major position). -/
theorem e23_v147 (j : Fin 128) :
    (W23 m ρ c (Proc.devRef .tc main_v147) : S1x128.Idx → EReal) (ix2 0 j) = (padB X7) (ix1 j) := by
  have h : W23 m ρ c (Proc.devRef .tc main_v147) = shapeCast S1x128 (padB X7) shapeCasts_S128_S1x128 := by
    show StableHlo.after hostOps9 (W22 m ρ c) (Proc.devRef .tc main_v147) = _
    after_results
    rw [w22_v7 m ρ c]
    rfl
  rw [h]
  exact shapeCast_apply _ shapeCasts_S128_S1x128 (ix2 0 j) (ix1 j) (by
    rewrite [Shape.rowMajor_val_two, Shape.rowMajor_val_one]
    show j.val = 0 * 128 + j.val
    omega)

/-- Region 9's output array at the region's exit. -/
theorem w24_v148 : W24 m ρ c (Proc.devRef .tc main_v148) = Cert.Spec.addRow (Cert.Spec.mm (val_main_v185 (F := Ideal) X0 X1 X2 X3 X4 X5) (padW X6)) (W23 m ρ c (Proc.devRef .tc main_v147)) := by
  refine (W24_arr m ρ c 2).trans ((region9_out (V23 m ρ) c).trans ?_)
  exact congrArg (fun a => Cert.Spec.addRow a _) (e23_v146 m ρ c)

theorem w24_v143 : W24 m ρ c (Proc.devRef .tc main_v143) = val_main_v185 (F := Ideal) X0 X1 X2 X3 X4 X5 := by
  rw [W24_of_ne m ρ c main_v143 (by decide)]
  show StableHlo.after hostOps9 (W22 m ρ c) (Proc.devRef .tc main_v143) = _
  after_results
  exact w22_v143 m ρ c

theorem w24_v75 : W24 m ρ c (Proc.devRef .tc main_v75) = val_main_v92 (F := Ideal) X0 X1 X2 X3 X4 X5 := by
  rw [W24_of_ne m ρ c main_v75 (by decide)]
  show StableHlo.after hostOps9 (W22 m ρ c) (Proc.devRef .tc main_v75) = _
  after_results
  exact w22_v75 m ρ c

end Cert.KernelIdeal.KVal

end
-- ==== Proof.PadScatter.lean ====
/-
  The two "pad by scatter" reads of the host program, as pure-operation facts at the ideal instance.

  A scatter whose body returns the update is a left fold of single-position writes over the update indices. Read at
  an operand index that exactly one update index lands at, the fold is that update (`foldl_read`, over abstract data;
  `scatter_set_apply`, for the scatter). The two scatters of the program write, at the constant index 0,
    * a 128-entry column into column 0 of a 128×128 matrix of zeros: update entry `n` lands at `(n, 0)`
      (`wpad_resultIdx`), so column 0 of the result is the column (`wpad_col0`);
    * a single entry into entry 0 of a 128-entry vector of zeros: the one update lands at `0` (`bpad_resultIdx`),
      so entry 0 of the result is that entry (`bpad_0`).
  The landing indices are computed over explicit coordinates from the records' literal axis lists; no fold over the
  128 update positions is evaluated.
-/
import proofs.«133000_j19232863551793_1_alg».proof.KernelIdeal
import Idealize.ShloMosaic.Lib.ValueIdx
import Idealize.ShloMosaic.Lib.Pipeline.Value

noncomputable section

namespace Cert.KernelIdeal.Pad

open Cert.KernelIdeal Idealize.ShloMosaic Idealize.ShloMosaic.ValueIdx

/-! ## A left fold of writes, read at one position -/

/-- A left fold of steps over a list, read at a position `i`: if exactly one label `n0` has a step that sets
    position `i` (to `v`, whatever the accumulator) and every other label's step leaves position `i` as it
    was, then the fold reads `v` at `i` when `n0` is in the list, and the initial value when it is not. -/
theorem foldl_read {N I α : Type} (step : (I → α) → N → (I → α)) (i : I) (n0 : N) (v : α)
    (hhit : ∀ r, step r n0 i = v) (hmiss : ∀ r n, n ≠ n0 → step r n i = r i) (l : List N) (r : I → α) :
    (n0 ∈ l → l.foldl step r i = v) ∧ (n0 ∉ l → l.foldl step r i = r i) := by
  induction l generalizing r with
  | nil => exact ⟨fun h => absurd h (List.not_mem_nil), fun _ => rfl⟩
  | cons a l ih =>
    rw [List.foldl_cons]
    obtain ⟨ih1, ih2⟩ := ih (step r a)
    by_cases ha : a = n0
    · subst ha
      refine ⟨fun _ => ?_, fun h => absurd List.mem_cons_self h⟩
      by_cases hl : a ∈ l
      · exact ih1 hl
      · rw [ih2 hl, hhit]
    · refine ⟨fun h => ?_, fun h => ?_⟩
      · rcases List.mem_cons.1 h with h | h
        · exact absurd h.symm ha
        · exact ih1 h
      · rw [ih2 (fun h' => h (List.mem_cons_of_mem _ h')), hmiss r a ha]

/-- A scatter whose body returns the update, read at an operand index `i` that exactly one update index `j0`
    lands at: it reads that update. -/
theorem scatter_set_apply {α : Type} {w : Nat} {s si u : Shape} (d : ScatterDims s si u) (x : s.Idx → α) (idx : IVec si w)
    (upd : u.Idx → α) (i : s.Idx) (j0 : u.Idx) (h0 : d.resultIdx? j0 idx = some i)
    (huniq : ∀ j, j ≠ j0 → d.resultIdx? j idx ≠ some i) :
    Host.scatter d (fun _ b => b) x idx upd i = upd j0 := by
  unfold Host.scatter
  refine (foldl_read _ i (u.rowMajor j0) (upd j0) ?_ ?_ (List.finRange u.numel) x).1 (List.mem_finRange _)
  · intro r
    simp only [Equiv.symm_apply_apply, h0, if_true]
  · intro r n hn
    have hj : u.rowMajor.symm n ≠ j0 := fun h => hn (by rw [← h, Equiv.apply_symm_apply])
    have := huniq _ hj
    cases hq : d.resultIdx? (u.rowMajor.symm n) idx with
    | none => rfl
    | some j =>
      have hji : i ≠ j := fun h => this (by rw [hq, h])
      simp only [if_neg hji]

/-! ## The weight column: a 128-entry update written into column 0 of a 128×128 matrix -/

section
variable [Facts₀]
open Facts₀

/-- The scatter index: the constant 0 broadcast to one entry. -/
abbrev idx0 : IVec S1 32 := broadcastInDim S1 ![] bcast_S_S1 (constantI S_ 32 0#32)

/-- Update entry `n` of the column scatter lands at row `n`, column 0. -/
theorem wpad_resultIdx (j : S128.Idx) :
    scatter_S128x128_S1_S128_0_1_1_0.resultIdx? j idx0 = some (ix2 (j 0) 0) := by
  have hs : ∀ a, scatter_S128x128_S1_S128_0_1_1_0.start j idx0 a = 0 := by
    intro a
    unfold ScatterDims.start
    split
    · rfl
    · rfl
  have hw0 : scatter_S128x128_S1_S128_0_1_1_0.window j 0 = (j 0).val := rfl
  have hw1 : scatter_S128x128_S1_S128_0_1_1_0.window j 1 = 0 := rfl
  have hj : (j 0).val < 128 := (j 0).isLt
  have h : ∀ a, 0 ≤ scatter_S128x128_S1_S128_0_1_1_0.start j idx0 a + scatter_S128x128_S1_S128_0_1_1_0.window j a ∧
      scatter_S128x128_S1_S128_0_1_1_0.start j idx0 a + scatter_S128x128_S1_S128_0_1_1_0.window j a < S128x128.size a := by
    intro a
    rw [hs a]
    revert a
    refine Fin.forall_fin_two.2 ⟨?_, ?_⟩
    · rw [hw0]
      show 0 ≤ (0 : Int) + ((j 0).val : Nat) ∧ (0 : Int) + ((j 0).val : Nat) < (128 : Nat)
      omega
    · rw [hw1]
      show 0 ≤ (0 : Int) + (0 : Nat) ∧ (0 : Int) + (0 : Nat) < (128 : Nat)
      omega
  unfold ScatterDims.resultIdx?
  rw [dif_pos h]
  refine congrArg some (funext fun a => Fin.ext ?_)
  show (scatter_S128x128_S1_S128_0_1_1_0.start j idx0 a + scatter_S128x128_S1_S128_0_1_1_0.window j a).toNat
    = (ix2 (j 0) (0 : Fin 128) a).val
  rw [hs a]
  revert a
  refine Fin.forall_fin_two.2 ⟨?_, ?_⟩
  · rw [hw0]
    show ((0 : Int) + ((j 0).val : Nat)).toNat = (j 0).val
    omega
  · rw [hw1]
    show ((0 : Int) + (0 : Nat)).toNat = 0
    omega

/-- Column 0 of the padded weight matrix is the weight column. -/
theorem wpad_col0 (x6 : (⟨S128x1, .f32⟩ : BufTy).Contents (Elt Ideal)) (k : Fin 128) :
    Host.scatter scatter_S128x128_S1_S128_0_1_1_0 (fun _ b => b)
      (broadcastInDim S128x128 ![] bcast_S_S128x128 (constant (F := Ideal) S_ .f32 0x00000000#32))
      (broadcastInDim S1 ![] bcast_S_S1 (constantI S_ 32 0#32))
      (shapeCast S128 x6 shapeCasts_S128x1_S128) (ix2 k 0) = x6 (ix2 k 0) := by
  rw [scatter_set_apply scatter_S128x128_S1_S128_0_1_1_0 _ _ _ (ix2 k 0) (ix1 k) (wpad_resultIdx (ix1 k))]
  · refine shapeCast_apply x6 shapeCasts_S128x1_S128 (ix1 k) (ix2 k 0) ?_
    rw [Shape.rowMajor_val_one, Shape.rowMajor_val_two]
    show k.val * 1 + 0 = k.val
    omega
  · intro j hj
    rw [wpad_resultIdx j]
    intro h
    apply hj
    have h0 : j 0 = k := congrFun (Option.some.inj h) 0
    rw [eq_ix1 j, h0]
    rfl

end

/-! ## The bias: a one-entry update written into entry 0 of a 128-entry vector -/

section
variable [Facts₀]
open Facts₀

/-- The one update of the bias scatter lands at entry 0. -/
theorem bpad_resultIdx (j : S_.Idx) :
    scatter_S128_S1_S__n_0_0_0.resultIdx? j idx0 = some (ix1 0) := by
  have hs : ∀ a, scatter_S128_S1_S__n_0_0_0.start j idx0 a = 0 := by
    intro a
    unfold ScatterDims.start
    split
    · rfl
    · rfl
  have hw : ∀ a, scatter_S128_S1_S__n_0_0_0.window j a = 0 := fun _ => rfl
  have h : ∀ a, 0 ≤ scatter_S128_S1_S__n_0_0_0.start j idx0 a + scatter_S128_S1_S__n_0_0_0.window j a ∧
      scatter_S128_S1_S__n_0_0_0.start j idx0 a + scatter_S128_S1_S__n_0_0_0.window j a < S128.size a := by
    intro a
    rw [hs a, hw a]
    have : S128.size a = 128 := by
      revert a
      exact Fin.forall_fin_one.2 rfl
    rw [this]
    omega
  unfold ScatterDims.resultIdx?
  rw [dif_pos h]
  refine congrArg some (funext fun a => Fin.ext ?_)
  show (scatter_S128_S1_S__n_0_0_0.start j idx0 a + scatter_S128_S1_S__n_0_0_0.window j a).toNat
    = (ix1 (0 : Fin 128) a).val
  rw [hs a, hw a]
  revert a
  exact Fin.forall_fin_one.2 rfl

/-- Entry 0 of the padded bias vector is the bias. -/
theorem bpad_0 (x7 : (⟨S1, .f32⟩ : BufTy).Contents (Elt Ideal)) :
    Host.scatter scatter_S128_S1_S__n_0_0_0 (fun _ b => b)
      (broadcastInDim S128 ![] bcast_S_S128 (constant (F := Ideal) S_ .f32 0x00000000#32))
      (broadcastInDim S1 ![] bcast_S_S1 (constantI S_ 32 0#32))
      (shapeCast S_ x7 shapeCasts_S1_S_) (ix1 0) = x7 (ix1 0) := by
  rw [scatter_set_apply scatter_S128_S1_S__n_0_0_0 _ _ _ (ix1 0) ix0 (bpad_resultIdx ix0)]
  · refine shapeCast_apply x7 shapeCasts_S1_S_ ix0 (ix1 0) ?_
    rw [Shape.rowMajor_val_one]
    have := (S_.rowMajor ix0).isLt
    show 0 = (S_.rowMajor ix0).val
    have h1 : S_.numel = 1 := by decide
    omega
  · intro j hj
    exact absurd (eq_ix0 j) hj

end

end Cert.KernelIdeal.Pad
-- ==== Proof.ChainW25.lean ====
/-
  The three results at @main's return.  After the last region the host program reads column 0 of the head array as a
  vector.  Entry n of that column is the sum over k of the last layer's output at (n, k) times the padded matrix at
  (k, 0) — the weight column's entry k — plus the padded bias row at (0, 0) — the one-entry bias: the reference's
  product with the 128×1 column plus its bias.  The two step outputs are untouched after their regions.
-/
import proofs.«133000_j19232863551793_1_alg».proof.Proof.ChainW24
import proofs.«133000_j19232863551793_1_alg».proof.Proof.PadScatter

set_option maxRecDepth 16384
set_option maxHeartbeats 2000000

noncomputable section

namespace Cert.KernelIdeal.KVal

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

set_option quotPrecheck false
local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
set_option quotPrecheck true

theorem w25_v75 : W25 m ρ c (Proc.devRef .tc main_v75) = val_main_v92 (F := Ideal) X0 X1 X2 X3 X4 X5 := by
  show StableHlo.after hostOps10 (W24 m ρ c) (Proc.devRef .tc main_v75) = _
  after_results
  exact w24_v75 m ρ c

theorem w25_v143 : W25 m ρ c (Proc.devRef .tc main_v143) = val_main_v185 (F := Ideal) X0 X1 X2 X3 X4 X5 := by
  show StableHlo.after hostOps10 (W24 m ρ c) (Proc.devRef .tc main_v143) = _
  after_results
  exact w24_v143 m ρ c

/-- Column 0 of the head array, read as a vector, is the reference's last stage. -/
theorem w25_v150 : W25 m ρ c (Proc.devRef .tc main_v150) = val_main_v190 (F := Ideal) X0 X1 X2 X3 X4 X5 X6 X7 := by
  show StableHlo.after hostOps10 (W24 m ρ c) (Proc.devRef .tc main_v150) = _
  after_results
  rw [w24_v148 m ρ c, Cert.RefLaws.v190_head]
  funext i
  obtain ⟨n, rfl⟩ : ∃ n : Fin 50000, i = ix1 n := ⟨i 0, eq_ix1 i⟩
  -- the padded matrix's column 0 is the weight column, and the padded row's entry 0 the one-entry bias
  have hs : ∀ k : Fin 128, padW X6 (ix2 k 0) = X6 (ix2 k 0) := fun k => by
    unfold padW
    exact Cert.KernelIdeal.Pad.wpad_col0 X6 k
  have hb : (W23 m ρ c (Proc.devRef .tc main_v147) : S1x128.Idx → EReal) (ix2 0 0) = X7 (ix1 0) :=
    (e23_v147 m ρ c 0).trans (by unfold padB; exact Cert.KernelIdeal.Pad.bpad_0 X7)
  show shapeCast S50000 (extractStridedSlice S50000x1 ![0, 0] (Cert.Spec.addRow _ _) slices_S50000x128_S50000x1_0_0)
    shapeCasts_S50000x1_S50000 (ix1 n) = _
  rw [shapeCast_apply _ shapeCasts_S50000x1_S50000 (ix1 n) (ix2 n 0) (by
    rewrite [Shape.rowMajor_val_two, Shape.rowMajor_val_one]
    show n.val * 1 + 0 = n.val
    omega)]
  rw [extractStridedSlice_apply ![0, 0] _ slices_S50000x128_S50000x1_0_0 (ix2 n 0) (ix2 n 0) (fun a => by
    match a with
    | ⟨0, _⟩ => show n.val = 0 + n.val; omega
    | ⟨1, _⟩ => rfl)]
  unfold Cert.Spec.addRow Cert.Spec.mm Cert.Spec.head
  exact congrArg₂ (· + ·) (Finset.sum_congr rfl fun k _ => by rw [hs k]) hb

end Cert.KernelIdeal.KVal

end
-- ==== Proof.lean ====
/-
  The certificate of a two-step graph convolution network against its jnp reference, over the extended reals.

  Both programs slice each time step out of the inputs, append the self loops to the edge lists, compute the degree
  of every node, its inverse square root (zero where the degree is not positive) and the edge weights, and then run
  two layers: features times a weight matrix, the rows gathered at the edges' sources, scaled by the edge weights and
  added up at the edges' destinations, plus a bias (the first layer cut off below at zero).  The last step's output
  goes through a head: a product with a 128×1 column plus a one-entry bias.  The gather and the scatter-add are the
  same host operations in both programs.  The kernel differs in three places.  Each product with a weight matrix is a
  pipelined region over five blocks of 10000 rows (with format changes around it that are the identity here); each
  bias (and cut-off) is another such region; and the head's column and bias are padded into a 128×128 matrix and a
  128-entry row, multiplied and added in two more regions, and column 0 is read back.  Over the extended reals each
  region computes the whole-array function the reference's stage computes (Proof/Spec.lean), block by block, and the
  padded head read at column 0 is the reference's head: no law beyond the definitions of the operations is used, and
  the precondition is never opened.

  The three frames: the kernel's two are the generated frame certificates; the reference's is its run with the
  results dropped.  `preserves` has no conjunct.  `algebraic`: the idealized kernel's run ends with each result at the
  last boundary's contents (Proof/RunResults.lean), which the chain of boundary facts (Proof/ChainW4 … ChainW25)
  identifies with the reference's stages of the arguments; the reference's run ends at the same stages.
-/
import proofs.«133000_j19232863551793_1_alg».proof.Defs
import proofs.«133000_j19232863551793_1_alg».proof.Proof.Gen.Kernel
import proofs.«133000_j19232863551793_1_alg».proof.Proof.Gen.Kernel.Skeleton
import proofs.«133000_j19232863551793_1_alg».proof.Proof.Gen.Kernel.Launch
import proofs.«133000_j19232863551793_1_alg».proof.Proof.Gen.Kernel.Points
import proofs.«133000_j19232863551793_1_alg».proof.Proof.Gen.Kernel.Frame
import proofs.«133000_j19232863551793_1_alg».proof.Proof.Gen.KernelIdeal
import proofs.«133000_j19232863551793_1_alg».proof.Proof.Gen.KernelIdeal.Skeleton
import proofs.«133000_j19232863551793_1_alg».proof.Proof.Gen.KernelIdeal.Launch
import proofs.«133000_j19232863551793_1_alg».proof.Proof.Gen.KernelIdeal.Points
import proofs.«133000_j19232863551793_1_alg».proof.Proof.Gen.KernelIdeal.Frame
import proofs.«133000_j19232863551793_1_alg».proof.Proof.Gen.ReferenceIdeal
import proofs.«133000_j19232863551793_1_alg».proof.Proof.Gen.Pre_finite_inputs
import proofs.«133000_j19232863551793_1_alg».proof.Proof.RunResults
import proofs.«133000_j19232863551793_1_alg».proof.Proof.ChainW25
import Idealize.ShloMosaic.Adequacy
import Idealize.ShloMosaic.Init

noncomputable section

namespace Cert.Proof

open Idealize.ShloMosaic Idealize.SL.Sem

theorem frame_k : Cert.frame_Kernel :=
  fun m ρ _ => Cert.Kernel.Gen.frame m ρ

theorem frame_ki : Cert.frame_KernelIdeal :=
  fun m ρ _ => Cert.KernelIdeal.Gen.frame m ρ

/-- The reference's frame is its run with the three results dropped. -/
theorem frame_ri : Cert.frame_ReferenceIdeal :=
  fun m ρ _ => (θ_run Cert.ReferenceIdeal.defs _ _).mono (fun _ h c => (h c).2.2.2)
    (Cert.ReferenceIdeal.ValueP.run (F := Ideal) m ρ)

/-- Both idealized programs end with each result at the same stage of the arguments. -/
theorem algebraic : Cert.algebraic_KernelIdeal_ReferenceIdeal := by
  intro m ρ m' ρ' _ hagree
  refine ⟨fun c => Cert.ReferenceIdeal.ReadP.val_main_v190 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.ReadP.val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.ReadP.val_main_v185 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.KVal.run_results (F := Ideal) m ρ)
    obtain ⟨h0, h1, h2, hargs⟩ := h c
    exact ⟨h0.trans (Cert.KernelIdeal.KVal.w25_v150 m ρ c), h1.trans (Cert.KernelIdeal.KVal.w25_v75 m ρ c),
      h2.trans (Cert.KernelIdeal.KVal.w25_v143 m ρ c), hargs⟩
  · refine (θ_run Cert.ReferenceIdeal.defs _ _).mono (fun r h c => ?_) (Cert.ReferenceIdeal.ValueP.run (F := Ideal) m' ρ')
    obtain ⟨h0, h1, h2, hargs⟩ := h c
    obtain ⟨a0, a1, a2, a3, a4, a5, a6, a7⟩ := hagree c
    refine ⟨h0.trans ?_, h1.trans ?_, h2.trans ?_, hargs⟩
    · rw [Cert.ReferenceIdeal.ReadP.val_main_v190_eq, a0, a1, a2, a3, a4, a5, a6, a7]
    · rw [Cert.ReferenceIdeal.ReadP.val_main_v92_eq, a0, a1, a2, a3, a4, a5]
    · rw [Cert.ReferenceIdeal.ReadP.val_main_v185_eq, a0, a1, a2, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
